-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v41)) (v2 : (c : Dev Cert.KernelIdeal.nD) → Buf (Elt Ideal) ((c.tc : Thread Cert.KernelIdeal.nD Cert.KernelIdeal.τ).loc Cert.KernelIdeal.main_v37)) (v3 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_v37) = v2 c
          ∧ r.2.mem ((c.tc : Thread Cert.KernelIdeal.nD Cert.KernelIdeal.τ).loc Cert.KernelIdeal.main_v38) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_v50) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S262144 : Shape := ⟨1, ![262144]⟩
abbrev S512x256 : Shape := ⟨2, ![512, 256]⟩
abbrev S256x128 : Shape := ⟨2, ![256, 128]⟩
abbrev S128x64 : Shape := ⟨2, ![128, 64]⟩
abbrev S64 : Shape := ⟨1, ![64]⟩
abbrev S64x6 : Shape := ⟨2, ![64, 6]⟩
abbrev S6 : Shape := ⟨1, ![6]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S262144 : S_.BroadcastsInDim S262144 (![] : Fin 0 → Fin S262144.rank)
  reducesTo_S262144_S_d0 : S262144.ReducesTo [0] S_
  bcast_S_S512x256 : S_.BroadcastsInDim S512x256 (![] : Fin 0 → Fin S512x256.rank)
  reducesTo_S512x256_S_d0_1 : S512x256.ReducesTo [0, 1] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x6 : S_.BroadcastsInDim S64x6 (![] : Fin 0 → Fin S64x6.rank)
  reducesTo_S64x6_S_d0_1 : S64x6.ReducesTo [0, 1] S_
  bcast_S_S6 : S_.BroadcastsInDim S6 (![] : Fin 0 → Fin S6.rank)
  reducesTo_S6_S_d0 : S6.ReducesTo [0] S_

variable [Facts]

def fn_part2 {F : FTy → Type} [FloatOps F] (main_arg9 : FVec F S64x6 .f32) (main_arg10 : FVec F S6 .f32) (main_v33 : IVec S_ 1) : IVec S_ 1 :=
  let main_v34 : FVec F S64x6 .f32 := Host.absf main_arg9
  let main_cst_12 : FVec F S_ .f32 := constant S_ .f32 0x7F800000#32
  let main_v35 : FVec F S64x6 .f32 := broadcastInDim S64x6 ![] bcast_S_S64x6 main_cst_12
  let main_v36 : IVec S64x6 1 := cmpf .olt main_v34 main_v35
  let main_c_13 : IVec S_ 1 := constantI S_ 1 1#1
  let main_v37 : IVec S_ 1 := (fun x v => Host.reduce IntOp.andi x v reducesTo_S64x6_S_d0_1 h_S_) main_v36 main_c_13
  let main_v38 : IVec S_ 1 := andi main_v33 main_v37
  let main_v39 : FVec F S6 .f32 := Host.absf main_arg10
  let main_cst_14 : FVec F S_ .f32 := constant S_ .f32 0x7F800000#32
  let main_v40 : FVec F S6 .f32 := broadcastInDim S6 ![] bcast_S_S6 main_cst_14
  let main_v41 : IVec S6 1 := cmpf .olt main_v39 main_v40
  let main_c_15 : IVec S_ 1 := constantI S_ 1 1#1
  let main_v42 : IVec S_ 1 := (fun x v => Host.reduce IntOp.andi x v reducesTo_S6_S_d0 h_S_) main_v41 main_c_15
  let main_v43 : IVec S_ 1 := andi main_v38 main_v42
  main_v43

def fn_part1 {F : FTy → Type} [FloatOps F] (main_arg6 : FVec F S256x128 .f32) (main_arg7 : FVec F S128x64 .f32) (main_arg8 : FVec F S64 .f32) (main_arg9 : FVec F S64x6 .f32) (main_arg10 : FVec F S6 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S8192x512 .f32) (main_arg1 : IVec S262144 32) (main_arg2 : IVec S262144 32) (main_arg3 : FVec F S262144 .f32) (main_arg4 : FVec F S512x256 .f32) (main_arg5 : FVec F S256x128 .f32) (main_arg6 : FVec F S256x128 .f32) (main_arg7 : FVec F S128x64 .f32) (main_arg8 : FVec F S64 .f32) (main_arg9 : FVec F S64x6 .f32) (main_arg10 : FVec F S6 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S262144 .f32 := Host.absf main_arg3
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_arg9 main_arg10 main_v13 main_v16
-- ==== Kernel.lean ====
abbrev S8192x512 : Shape := ⟨2, ![8192, 512]⟩
abbrev S262144 : Shape := ⟨1, ![262144]⟩
abbrev S512x256 : Shape := ⟨2, ![512, 256]⟩
abbrev S256x128 : Shape := ⟨2, ![256, 128]⟩
abbrev S128x64 : Shape := ⟨2, ![128, 64]⟩
abbrev S64 : Shape := ⟨1, ![64]⟩
abbrev S64x6 : Shape := ⟨2, ![64, 6]⟩
abbrev S6 : Shape := ⟨1, ![6]⟩
abbrev S8192x256 : Shape := ⟨2, ![8192, 256]⟩
abbrev S1024x512 : Shape := ⟨2, ![1024, 512]⟩
abbrev S1024x256 : Shape := ⟨2, ![1024, 256]⟩
abbrev S262144x1 : Shape := ⟨2, ![262144, 1]⟩
abbrev S_ : Shape := ⟨0, ![]⟩
abbrev S262144x256 : Shape := ⟨2, ![262144, 256]⟩
abbrev S256x256 : Shape := ⟨2, ![256, 256]⟩
abbrev S8192x128 : Shape := ⟨2, ![8192, 128]⟩
abbrev S16384x128 : Shape := ⟨2, ![16384, 128]⟩
abbrev S1x64 : Shape := ⟨2, ![1, 64]⟩
abbrev S16384x64 : Shape := ⟨2, ![16384, 64]⟩
abbrev S1024x128 : Shape := ⟨2, ![1024, 128]⟩
abbrev S1024x64 : Shape := ⟨2, ![1024, 64]⟩
abbrev S8192x64 : Shape := ⟨2, ![8192, 64]⟩
abbrev S8192x8192 : Shape := ⟨2, ![8192, 8192]⟩
abbrev S2048x64 : Shape := ⟨2, ![2048, 64]⟩
abbrev S2048x1024 : Shape := ⟨2, ![2048, 1024]⟩
abbrev S64x1024 : Shape := ⟨2, ![64, 1024]⟩
abbrev S1x6 : Shape := ⟨2, ![1, 6]⟩
abbrev S8192x6 : Shape := ⟨2, ![8192, 6]⟩
abbrev S1024x6 : Shape := ⟨2, ![1024, 6]⟩

abbrev nBuf : Space → Nat
  | .hbm => 61
  | .vmem => 28
  | .smem => 0
  | _ => 0

abbrev bufTy : (tb : Table) → Fin (tcTables nBuf tb) → BufTy
  | .hbm, ⟨0, _⟩ => ⟨S8192x512, .f32⟩
  | .hbm, ⟨1, _⟩ => ⟨S262144, .i32⟩
  | .hbm, ⟨2, _⟩ => ⟨S262144, .i32⟩
  | .hbm, ⟨3, _⟩ => ⟨S262144, .f32⟩
  | .hbm, ⟨4, _⟩ => ⟨S512x256, .f32⟩
  | .hbm, ⟨5, _⟩ => ⟨S256x128, .f32⟩
  | .hbm, ⟨6, _⟩ => ⟨S256x128, .f32⟩
  | .hbm, ⟨7, _⟩ => ⟨S128x64, .f32⟩
  | .hbm, ⟨8, _⟩ => ⟨S64, .f32⟩
  | .hbm, ⟨9, _⟩ => ⟨S64x6, .f32⟩
  | .hbm, ⟨10, _⟩ => ⟨S6, .f32⟩
  | .hbm, ⟨11, _⟩ => ⟨S8192x256, .bf16⟩
  | .hbm, ⟨12, _⟩ => ⟨S262144x1, .f32⟩
  | .hbm, ⟨13, _⟩ => ⟨S_, .i32⟩
  | .hbm, ⟨14, _⟩ => ⟨S262144, .i32⟩
  | .hbm, ⟨15, _⟩ => ⟨S262144, .i1⟩
  | .hbm, ⟨16, _⟩ => ⟨S_, .i32⟩
  | .hbm, ⟨17, _⟩ => ⟨S262144, .i32⟩
  | .hbm, ⟨18, _⟩ => ⟨S262144, .i32⟩
  | .hbm, ⟨19, _⟩ => ⟨S262144, .i32⟩
  | .hbm, ⟨20, _⟩ => ⟨S262144x1, .i32⟩
  | .hbm, ⟨21, _⟩ => ⟨S262144x256, .bf16⟩
  | .hbm, ⟨22, _⟩ => ⟨S262144x256, .f32⟩
  | .hbm, ⟨23, _⟩ => ⟨S262144x256, .f32⟩
  | .hbm, ⟨24, _⟩ => ⟨S262144x256, .f32⟩
  | .hbm, ⟨25, _⟩ => ⟨S_, .f32⟩
  | .hbm, ⟨26, _⟩ => ⟨S8192x256, .f32⟩
  | .hbm, ⟨27, _⟩ => ⟨S262144x1, .i32⟩
  | .hbm, ⟨28, _⟩ => ⟨S8192x256, .f32⟩
  | .hbm, ⟨29, _⟩ => ⟨S_, .f32⟩
  | .hbm, ⟨30, _⟩ => ⟨S8192x256, .f32⟩
  | .hbm, ⟨31, _⟩ => ⟨S8192x256, .f32⟩
  | .hbm, ⟨32, _⟩ => ⟨S256x256, .f32⟩
  | .hbm, ⟨33, _⟩ => ⟨S8192x256, .bf16⟩
  | .hbm, ⟨34, _⟩ => ⟨S262144x1, .f32⟩
  | .hbm, ⟨35, _⟩ => ⟨S_, .i32⟩
  | .hbm, ⟨36, _⟩ => ⟨S262144, .i32⟩
  | .hbm, ⟨37, _⟩ => ⟨S262144, .i1⟩
  | .hbm, ⟨38, _⟩ => ⟨S_, .i32⟩
  | .hbm, ⟨39, _⟩ => ⟨S262144, .i32⟩
  | .hbm, ⟨40, _⟩ => ⟨S262144, .i32⟩
  | .hbm, ⟨41, _⟩ => ⟨S262144, .i32⟩
  | .hbm, ⟨42, _⟩ => ⟨S262144x1, .i32⟩
  | .hbm, ⟨43, _⟩ => ⟨S262144x256, .bf16⟩
  | .hbm, ⟨44, _⟩ => ⟨S262144x256, .f32⟩
  | .hbm, ⟨45, _⟩ => ⟨S262144x256, .f32⟩
  | .hbm, ⟨46, _⟩ => ⟨S262144x256, .f32⟩
  | .hbm, ⟨47, _⟩ => ⟨S_, .f32⟩
  | .hbm, ⟨48, _⟩ => ⟨S8192x256, .f32⟩
  | .hbm, ⟨49, _⟩ => ⟨S262144x1, .i32⟩
  | .hbm, ⟨50, _⟩ => ⟨S8192x256, .f32⟩
  | .hbm, ⟨51, _⟩ => ⟨S8192x128, .f32⟩
  | .hbm, ⟨52, _⟩ => ⟨S8192x128, .f32⟩
  | .hbm, ⟨53, _⟩ => ⟨S16384x128, .f32⟩
  | .hbm, ⟨54, _⟩ => ⟨S1x64, .f32⟩
  | .hbm, ⟨55, _⟩ => ⟨S16384x64, .f32⟩
  | .hbm, ⟨56, _⟩ => ⟨S8192x64, .f32⟩
  | .hbm, ⟨57, _⟩ => ⟨S8192x64, .f32⟩
  | .hbm, ⟨58, _⟩ => ⟨S8192x8192, .f32⟩
  | .hbm, ⟨59, _⟩ => ⟨S1x6, .f32⟩
  | .hbm, ⟨60, _⟩ => ⟨S8192x6, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S1024x256, .bf16⟩
  | .local _ .vmem, ⟨4, _⟩ => ⟨S1024x256, .bf16⟩
  | .local _ .vmem, ⟨5, _⟩ => ⟨S1024x256, .f32⟩
  | .local _ .vmem, ⟨6, _⟩ => ⟨S1024x256, .f32⟩
  | .local _ .vmem, ⟨7, _⟩ => ⟨S256x256, .f32⟩
  | .local _ .vmem, ⟨8, _⟩ => ⟨S1024x256, .bf16⟩
  | .local _ .vmem, ⟨9, _⟩ => ⟨S1024x256, .bf16⟩
  | .local _ .vmem, ⟨10, _⟩ => ⟨S1024x128, .f32⟩
  | .local _ .vmem, ⟨11, _⟩ => ⟨S1024x128, .f32⟩
  | .local _ .vmem, ⟨12, _⟩ => ⟨S128x64, .f32⟩
  | .local _ .vmem, ⟨13, _⟩ => ⟨S1x64, .f32⟩
  | .local _ .vmem, ⟨14, _⟩ => ⟨S1024x64, .f32⟩
  | .local _ .vmem, ⟨15, _⟩ => ⟨S1024x64, .f32⟩
  | .local _ .vmem, ⟨16, _⟩ => ⟨S2048x64, .f32⟩
  | .local _ .vmem, ⟨17, _⟩ => ⟨S2048x64, .f32⟩
  | .local _ .vmem, ⟨18, _⟩ => ⟨S1024x64, .f32⟩
  | .local _ .vmem, ⟨19, _⟩ => ⟨S1024x64, .f32⟩
  | .local _ .vmem, ⟨20, _⟩ => ⟨S2048x1024, .f32⟩
  | .local _ .vmem, ⟨21, _⟩ => ⟨S2048x1024, .f32⟩
  | .local _ .vmem, ⟨22, _⟩ => ⟨S1024x64, .f32⟩
  | .local _ .vmem, ⟨23, _⟩ => ⟨S1024x64, .f32⟩
  | .local _ .vmem, ⟨24, _⟩ => ⟨S64x6, .f32⟩
  | .local _ .vmem, ⟨25, _⟩ => ⟨S1x6, .f32⟩
  | .local _ .vmem, ⟨26, _⟩ => ⟨S1024x6, .f32⟩
  | .local _ .vmem, ⟨27, _⟩ => ⟨S1024x6, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call0_cst : Ref sig .tc := ⟨.hbm, 29, rfl⟩
abbrev main_call0_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_1 : Ref sig .tc := ⟨.hbm, 35, rfl⟩
abbrev main_v19 : Ref sig .tc := ⟨.hbm, 36, rfl⟩
abbrev main_v20 : Ref sig .tc := ⟨.hbm, 37, rfl⟩
abbrev main_c_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![4, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S2048x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x6 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x6 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x6 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  bcast_S262144_S262144x1_0 : S262144.BroadcastsInDim S262144x1 (![0] : Fin 1 → Fin S262144x1.rank)
  bcast_S_S262144 : S_.BroadcastsInDim S262144 (![] : Fin 0 → Fin S262144.rank)
  bcast_S262144x1_S262144x256_0_1 : S262144x1.BroadcastsInDim S262144x256 (![0, 1] : Fin 2 → Fin S262144x256.rank)
  bcast_S_S8192x256 : S_.BroadcastsInDim S8192x256 (![] : Fin 0 → Fin S8192x256.rank)
  concatenates_S256x128_S256x128_S256x256_d1 : Shape.Concatenates [S256x128, S256x128] S256x256 1
  shapeCasts_S1024x256_S1024x256 : S1024x256.ShapeCasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S8192x256_S8192x128_0_0 : S8192x256.Slices ![0, 0] S8192x128
  slices_S8192x256_S8192x128_0_128 : S8192x256.Slices ![0, 128] S8192x128
  concatenates_S8192x128_S8192x128_S16384x128_d0 : Shape.Concatenates [S8192x128, S8192x128] S16384x128 0
  shapeCasts_S64_S1x64 : S64.ShapeCasts S1x64
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  slices_S16384x64_S8192x64_0_0 : S16384x64.Slices ![0, 0] S8192x64
  slices_S16384x64_S8192x64_8192_0 : S16384x64.Slices ![8192, 0] S8192x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  shapeCasts_S1024x64_S1024x64 : S1024x64.ShapeCasts S1024x64
  transposes_S1024x64_p1_0_S64x1024 : S1024x64.Transposes [1, 0] S64x1024
  inb_S2048x1024_S2048x1024_0_0 : ∀ a, (![0, 0] : Fin 2 → Nat) a + S2048x1024.size a ≤ S2048x1024.size a
  h_S2048x1024 : 0 < S2048x1024.numel
  shapeCasts_S6_S1x6 : S6.ShapeCasts S1x6
  inb_S64x6_S64x6_0_0 : ∀ a, (![0, 0] : Fin 2 → Nat) a + S64x6.size a ≤ S64x6.size a
  h_S64x6 : 0 < S64x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S1024x6 : S1x6.Broadcasts S1024x6
  inb_S1024x6_S1024x6_0_0 : ∀ a, (![0, 0] : Fin 2 → Nat) a + S1024x6.size a ≤ S1024x6.size a
  h_S1024x6 : 0 < S1024x6.numel
  dot_S1024x512_S512x256_S1024x256_1_0_0_1_n_n_wf : DotDims.WF S1024x512 S512x256 S1024x256 [1] [0] [0] [1] [] []
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1
  dot_S1024x256_S256x256_S1024x256_1_0_0_1_n_n_wf : DotDims.WF S1024x256 S256x256 S1024x256 [1] [0] [0] [1] [] []
  dot_S1024x128_S128x64_S1024x64_1_0_0_1_n_n_wf : DotDims.WF S1024x128 S128x64 S1024x64 [1] [0] [0] [1] [] []
  dot_S2048x64_S64x1024_S2048x1024_1_0_0_1_n_n_wf : DotDims.WF S2048x64 S64x1024 S2048x1024 [1] [0] [0] [1] [] []
  dot_S1024x64_S64x6_S1024x6_1_0_0_1_n_n_wf : DotDims.WF S1024x64 S64x6 S1024x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .bf16 = 32 ∨ (Rect.block (s := S8192x256) S1024x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .bf16 = 32 ∨ (Rect.block (s := S8192x256) S1024x256.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S16384x128.size a
  hwx2_0 : ∀ i : grid2.Coords, EltTy.bits .f32 = 32 ∨ (Rect.block (s := S16384x128) S1024x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x64.size a ≤ S16384x64.size a
  hwx2_3 : ∀ i : grid2.Coords, EltTy.bits .f32 = 32 ∨ (Rect.block (s := S16384x64) S1024x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x64.size a ≤ S8192x64.size a
  hwx3_0 : ∀ i : grid3.Coords, EltTy.bits .f32 = 32 ∨ (Rect.block (s := S8192x64) S2048x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x64.size a ≤ S8192x64.size a
  hwx3_1 : ∀ i : grid3.Coords, EltTy.bits .f32 = 32 ∨ (Rect.block (s := S8192x64) S1024x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x1024.size a ≤ S8192x8192.size a
  hwx3_2 : ∀ i : grid3.Coords, EltTy.bits .f32 = 32 ∨ (Rect.block (s := S8192x8192) S2048x1024.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x64.size a ≤ S8192x64.size a
  hwx4_0 : ∀ i : grid4.Coords, EltTy.bits .f32 = 32 ∨ (Rect.block (s := S8192x64) S1024x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x6.size a ≤ S64x6.size a
  hwx4_1 : ∀ i : grid4.Coords, EltTy.bits .f32 = 32 ∨ (Rect.block (s := S64x6) S64x6.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x6.size a ≤ S1x6.size a
  hwx4_2 : ∀ i : grid4.Coords, EltTy.bits .f32 = 32 ∨ (Rect.block (s := S1x6) S1x6.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x6.size a ≤ S8192x6.size a
  hwx4_3 : ∀ i : grid4.Coords, EltTy.bits .f32 = 32 ∨ (Rect.block (s := S8192x6) S1024x6.size (cc4_transform_3 i) (hinb4_3 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S2048x64_S64x1024_S2048x1024_1_0_0_1_n_n : DotDims S2048x64 S64x1024 S2048x1024 where
  lhsContracting := [1]
  rhsContracting := [0]
  lhsNonContracting := [0]
  rhsNonContracting := [1]
  lhsBatch := []
  rhsBatch := []
  wf := dot_S2048x64_S64x1024_S2048x1024_1_0_0_1_n_n_wf
def dot_S1024x64_S64x6_S1024x6_1_0_0_1_n_n : DotDims S1024x64 S64x6 S1024x6 where
  lhsContracting := [1]
  rhsContracting := [0]
  lhsNonContracting := [0]
  rhsNonContracting := [1]
  lhsBatch := []
  rhsBatch := []
  wf := dot_S1024x64_S64x6_S1024x6_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v34) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1024x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v37) S2048x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S1024x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v39) S2048x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v37) S1024x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S64x6.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v40) S1x6.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v41) S1024x6.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S8192x512 : Shape := ⟨2, ![8192, 512]⟩
abbrev S262144 : Shape := ⟨1, ![262144]⟩
abbrev S512x256 : Shape := ⟨2, ![512, 256]⟩
abbrev S256x128 : Shape := ⟨2, ![256, 128]⟩
abbrev S128x64 : Shape := ⟨2, ![128, 64]⟩
abbrev S64 : Shape := ⟨1, ![64]⟩
abbrev S64x6 : Shape := ⟨2, ![64, 6]⟩
abbrev S6 : Shape := ⟨1, ![6]⟩
abbrev S8192x256 : Shape := ⟨2, ![8192, 256]⟩
abbrev S262144x1 : Shape := ⟨2, ![262144, 1]⟩
abbrev S_ : Shape := ⟨0, ![]⟩
abbrev S262144x256 : Shape := ⟨2, ![262144, 256]⟩
abbrev S8192x128 : Shape := ⟨2, ![8192, 128]⟩
abbrev S262144x128 : Shape := ⟨2, ![262144, 128]⟩
abbrev S8192x64 : Shape := ⟨2, ![8192, 64]⟩
abbrev S1x64 : Shape := ⟨2, ![1, 64]⟩
abbrev S64x8192 : Shape := ⟨2, ![64, 8192]⟩
abbrev S8192x8192 : Shape := ⟨2, ![8192, 8192]⟩
abbrev S8192x6 : Shape := ⟨2, ![8192, 6]⟩
abbrev S1x6 : Shape := ⟨2, ![1, 6]⟩

abbrev nBuf : Space → Nat
  | .hbm => 79
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S262144, .i32⟩
  | .hbm, ⟨2, _⟩ => ⟨S262144, .i32⟩
  | .hbm, ⟨3, _⟩ => ⟨S262144, .f32⟩
  | .hbm, ⟨4, _⟩ => ⟨S512x256, .f32⟩
  | .hbm, ⟨5, _⟩ => ⟨S256x128, .f32⟩
  | .hbm, ⟨6, _⟩ => ⟨S256x128, .f32⟩
  | .hbm, ⟨7, _⟩ => ⟨S128x64, .f32⟩
  | .hbm, ⟨8, _⟩ => ⟨S64, .f32⟩
  | .hbm, ⟨9, _⟩ => ⟨S64x6, .f32⟩
  | .hbm, ⟨10, _⟩ => ⟨S6, .f32⟩
  | .hbm, ⟨11, _⟩ => ⟨S8192x256, .f32⟩
  | .hbm, ⟨12, _⟩ => ⟨S262144x1, .f32⟩
  | .hbm, ⟨13, _⟩ => ⟨S_, .i32⟩
  | .hbm, ⟨14, _⟩ => ⟨S262144, .i32⟩
  | .hbm, ⟨15, _⟩ => ⟨S262144, .i1⟩
  | .hbm, ⟨16, _⟩ => ⟨S_, .i32⟩
  | .hbm, ⟨17, _⟩ => ⟨S262144, .i32⟩
  | .hbm, ⟨18, _⟩ => ⟨S262144, .i32⟩
  | .hbm, ⟨19, _⟩ => ⟨S262144, .i32⟩
  | .hbm, ⟨20, _⟩ => ⟨S262144x1, .i32⟩
  | .hbm, ⟨21, _⟩ => ⟨S262144x256, .f32⟩
  | .hbm, ⟨22, _⟩ => ⟨S262144x256, .f32⟩
  | .hbm, ⟨23, _⟩ => ⟨S262144x256, .f32⟩
  | .hbm, ⟨24, _⟩ => ⟨S_, .f32⟩
  | .hbm, ⟨25, _⟩ => ⟨S8192x256, .f32⟩
  | .hbm, ⟨26, _⟩ => ⟨S262144x1, .i32⟩
  | .hbm, ⟨27, _⟩ => ⟨S8192x256, .f32⟩
  | .hbm, ⟨28, _⟩ => ⟨S_, .f32⟩
  | .hbm, ⟨29, _⟩ => ⟨S8192x256, .f32⟩
  | .hbm, ⟨30, _⟩ => ⟨S8192x256, .f32⟩
  | .hbm, ⟨31, _⟩ => ⟨S8192x128, .f32⟩
  | .hbm, ⟨32, _⟩ => ⟨S262144x1, .f32⟩
  | .hbm, ⟨33, _⟩ => ⟨S_, .i32⟩
  | .hbm, ⟨34, _⟩ => ⟨S262144, .i32⟩
  | .hbm, ⟨35, _⟩ => ⟨S262144, .i1⟩
  | .hbm, ⟨36, _⟩ => ⟨S_, .i32⟩
  | .hbm, ⟨37, _⟩ => ⟨S262144, .i32⟩
  | .hbm, ⟨38, _⟩ => ⟨S262144, .i32⟩
  | .hbm, ⟨39, _⟩ => ⟨S262144, .i32⟩
  | .hbm, ⟨40, _⟩ => ⟨S262144x1, .i32⟩
  | .hbm, ⟨41, _⟩ => ⟨S262144x128, .f32⟩
  | .hbm, ⟨42, _⟩ => ⟨S262144x128, .f32⟩
  | .hbm, ⟨43, _⟩ => ⟨S262144x128, .f32⟩
  | .hbm, ⟨44, _⟩ => ⟨S_, .f32⟩
  | .hbm, ⟨45, _⟩ => ⟨S8192x128, .f32⟩
  | .hbm, ⟨46, _⟩ => ⟨S262144x1, .i32⟩
  | .hbm, ⟨47, _⟩ => ⟨S8192x128, .f32⟩
  | .hbm, ⟨48, _⟩ => ⟨S8192x128, .f32⟩
  | .hbm, ⟨49, _⟩ => ⟨S262144x1, .f32⟩
  | .hbm, ⟨50, _⟩ => ⟨S_, .i32⟩
  | .hbm, ⟨51, _⟩ => ⟨S262144, .i32⟩
  | .hbm, ⟨52, _⟩ => ⟨S262144, .i1⟩
  | .hbm, ⟨53, _⟩ => ⟨S_, .i32⟩
  | .hbm, ⟨54, _⟩ => ⟨S262144, .i32⟩
  | .hbm, ⟨55, _⟩ => ⟨S262144, .i32⟩
  | .hbm, ⟨56, _⟩ => ⟨S262144, .i32⟩
  | .hbm, ⟨57, _⟩ => ⟨S262144x1, .i32⟩
  | .hbm, ⟨58, _⟩ => ⟨S262144x128, .f32⟩
  | .hbm, ⟨59, _⟩ => ⟨S262144x128, .f32⟩
  | .hbm, ⟨60, _⟩ => ⟨S262144x128, .f32⟩
  | .hbm, ⟨61, _⟩ => ⟨S_, .f32⟩
  | .hbm, ⟨62, _⟩ => ⟨S8192x128, .f32⟩
  | .hbm, ⟨63, _⟩ => ⟨S262144x1, .i32⟩
  | .hbm, ⟨64, _⟩ => ⟨S8192x128, .f32⟩
  | .hbm, ⟨65, _⟩ => ⟨S8192x64, .f32⟩
  | .hbm, ⟨66, _⟩ => ⟨S1x64, .f32⟩
  | .hbm, ⟨67, _⟩ => ⟨S8192x64, .f32⟩
  | .hbm, ⟨68, _⟩ => ⟨S8192x64, .f32⟩
  | .hbm, ⟨69, _⟩ => ⟨S8192x64, .f32⟩
  | .hbm, ⟨70, _⟩ => ⟨S1x64, .f32⟩
  | .hbm, ⟨71, _⟩ => ⟨S8192x64, .f32⟩
  | .hbm, ⟨72, _⟩ => ⟨S8192x64, .f32⟩
  | .hbm, ⟨73, _⟩ => ⟨S64x8192, .f32⟩
  | .hbm, ⟨74, _⟩ => ⟨S8192x8192, .f32⟩
  | .hbm, ⟨75, _⟩ => ⟨S8192x6, .f32⟩
  | .hbm, ⟨76, _⟩ => ⟨S1x6, .f32⟩
  | .hbm, ⟨77, _⟩ => ⟨S8192x6, .f32⟩
  | .hbm, ⟨78, _⟩ => ⟨S8192x6, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call0_cst : Ref sig .tc := ⟨.hbm, 28, rfl⟩
abbrev main_call0_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]

class Facts₀ : Prop where
  bcast_S262144_S262144x1_0 : S262144.BroadcastsInDim S262144x1 (![0] : Fin 1 → Fin S262144x1.rank)
  bcast_S_S262144 : S_.BroadcastsInDim S262144 (![] : Fin 0 → Fin S262144.rank)
  bcast_S262144x1_S262144x256_0_1 : S262144x1.BroadcastsInDim S262144x256 (![0, 1] : Fin 2 → Fin S262144x256.rank)
  bcast_S_S8192x256 : S_.BroadcastsInDim S8192x256 (![] : Fin 0 → Fin S8192x256.rank)
  bcast_S262144x1_S262144x128_0_1 : S262144x1.BroadcastsInDim S262144x128 (![0, 1] : Fin 2 → Fin S262144x128.rank)
  bcast_S_S8192x128 : S_.BroadcastsInDim S8192x128 (![] : Fin 0 → Fin S8192x128.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S8192x64_S64x8192_1_0 : S8192x64.Transposes [1, 0] S64x8192
  bcast_S6_S1x6_1 : S6.BroadcastsInDim S1x6 (![1] : Fin 1 → Fin S1x6.rank)
  bcast_S1x6_S8192x6_0_1 : S1x6.BroadcastsInDim S8192x6 (![0, 1] : Fin 2 → Fin S8192x6.rank)
  dot_S8192x512_S512x256_S8192x256_1_0_0_1_n_n_wf : DotDims.WF S8192x512 S512x256 S8192x256 [1] [0] [0] [1] [] []
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1
  dot_S8192x256_S256x128_S8192x128_1_0_0_1_n_n_wf : DotDims.WF S8192x256 S256x128 S8192x128 [1] [0] [0] [1] [] []
  gather_S8192x128_S262144x1_S262144x128_1_0_n_n_0_1_1128_wf : GatherDims.WF S8192x128 S262144x1 S262144x128 [1] [0] [] [0] [] 1 ![1, 128]
  scatter_S8192x128_S262144x1_S262144x128_1_0_0_1_wf : ScatterDims.WF S8192x128 S262144x1 S262144x128 [1] [0] [0] 1
  dot_S8192x128_S128x64_S8192x64_1_0_0_1_n_n_wf : DotDims.WF S8192x128 S128x64 S8192x64 [1] [0] [0] [1] [] []
  dot_S8192x64_S64x8192_S8192x8192_1_0_0_1_n_n_wf : DotDims.WF S8192x64 S64x8192 S8192x8192 [1] [0] [0] [1] [] []
  dot_S8192x64_S64x6_S8192x6_1_0_0_1_n_n_wf : DotDims.WF S8192x64 S64x6 S8192x6 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S8192x64_S64x6_S8192x6_1_0_0_1_n_n : DotDims S8192x64 S64x6 S8192x6 where
  lhsContracting := [1]
  rhsContracting := [0]
  lhsNonContracting := [0]
  rhsNonContracting := [1]
  lhsBatch := []
  rhsBatch := []
  wf := dot_S8192x64_S64x6_S8192x6_1_0_0_1_n_n_wf

class Facts : Prop extends Facts₀ where

variable [Facts]
-- ==== Proof.KB.Half0.lean ====
import proofs.«106472_j56616258896068_2_alg».proof.Proof.Gen.Kernel.Launch
import proofs.«106472_j56616258896068_2_alg».proof.Proof.Gen.Kernel.Skeleton
import proofs.«106472_j56616258896068_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: the body's half of the frame

Region 0 runs `cc0__mm_kernel` over a grid of `cfg0.N` points with 3 windows: window 0 (an input, block `S1024x512`), window 1 (an input, block `S512x256`)
and window 2 (the output, block `S1024x256`). Everything is stated at a parameter `V`, the contents of the core's
buffers when the region is entered. At a point `t` the body finds in each input's staging buffer that window's block of
`V` at `t`, whether or not the block was moved there at `t` itself (a block whose index did not change is still
in place), and leaves in the output's staging buffer one whole-block store: the payload `k0_pay1` of the input blocks.
The body also loads the output buffer once before storing; the loaded value is used by nothing, so any contents do.
-/

-- membership of an index in a rectangle of these extents is decided coordinate by coordinate along the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`: its array, as `V` has it, read through the block's view. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block of `V` at every point, for any proof data over `V`'s array
    (`hA`) whose body leaves that block where it found it (`hafter`): where the block was not moved in at `t`, its index
    is the previous point's, and so is the block. (This window's block is moved in at every point.) -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block of `V` at every point, for any proof data over `V`'s array
    (`hA`) whose body leaves that block where it found it (`hafter`): where the block was not moved in at `t`, its index
    is the previous point's, and so is the block. (This window's index map is constant: it is moved in once, at the first point.) -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's one store -/

/-- The whole of the output block: the rectangle the body stores through. -/
abbrev r0_0 : Rect S1024x256 := Rect.unit (s := S1024x256) ![0, 0] S1024x256.size inb_S1024x256_S1024x256_0_0

/-- The output's staging buffer after the body, as a function of the input blocks: the one store's payload laid
    over the whole block. -/
def out0_2 (x0 : Vec F S1024x512 .f32) (x1 : Vec F S512x256 .f32) : Vec F S1024x256 .bf16 :=
  View.canon [⟨r0_0, k0_pay1 (View.ld x0 (Rect.unit (s := S1024x512) ![0, 0] S1024x512.size inb_S1024x512_S1024x512_0_0)) (View.ld x1 (Rect.unit (s := S512x256) ![0, 0] S512x256.size inb_S512x256_S512x256_0_0))⟩]

/-- The store's rectangle is the whole block, so every index of the block lies in it. -/
theorem cover0_2 (p0 : Vec F S1024x256 .bf16) (y : S1024x256.Idx) :
    ∃ pc ∈ ([⟨r0_0, p0⟩] : List (View.Piece (Elt F) S1024x256 .bf16)), y ∈ pc.1.set :=
  View.cover_of_tiled [⟨r0_0, p0⟩] S1024x256.size (by rfl) y

/-! ## The body's triple -/

set_option maxHeartbeats 1000000 in
/-- The body on whole staging buffers, the inputs' reading `x0`, … and the output's holding anything, runs to a
    state where the inputs' read as before and the output's reads `out0_2` of them: three kinds of steps — a
    load of each input, a load of the output whose value nothing uses, and one store over the whole output block. -/
theorem sound_kernel0 (c : Dev nD) (E : Set ℕ) (i : grid0.Coords) (arg1 : Memref sig .tc .vmem S1024x512 .f32) (harg1 : arg1.IsWhole) (arg2 : Memref sig .tc .vmem S512x256 .f32) (harg2 : arg2.IsWhole) (arg3 : Memref sig .tc .vmem S1024x256 .bf16) (harg3 : arg3.IsWhole)
    (x0 : Vec F S1024x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of region 0 on core `c`: the windows' arrays are `V`'s; after the body at point `t` each
    input's buffer holds its block and the output's holds `out0_2` of the input blocks; the invariant is the
    untouched rest of the core's state; nothing is owed and every share is whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are `V`'s. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- What the body finds in each input's buffer: that window's block at the point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body holds when it is called at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it holds when it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and what
    the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.KB.Half1.lean ====
import proofs.«106472_j56616258896068_2_alg».proof.Proof.Gen.Kernel.Launch
import proofs.«106472_j56616258896068_2_alg».proof.Proof.Gen.Kernel.Skeleton
import proofs.«106472_j56616258896068_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: the body's half of the frame

Region 1 runs `cc1__mm_kernel` over a grid of `cfg1.N` points with 3 windows: window 0 (an input, block `S1024x256`), window 1 (an input, block `S256x256`)
and window 2 (the output, block `S1024x256`). Everything is stated at a parameter `V`, the contents of the core's
buffers when the region is entered. At a point `t` the body finds in each input's staging buffer that window's block of
`V` at `t`, whether or not the block was moved there at `t` itself (a block whose index did not change is still
in place), and leaves in the output's staging buffer one whole-block store: the payload `k1_pay1` of the input blocks.
The body also loads the output buffer once before storing; the loaded value is used by nothing, so any contents do.
-/

-- membership of an index in a rectangle of these extents is decided coordinate by coordinate along the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`: its array, as `V` has it, read through the block's view. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block of `V` at every point, for any proof data over `V`'s array
    (`hA`) whose body leaves that block where it found it (`hafter`): where the block was not moved in at `t`, its index
    is the previous point's, and so is the block. (This window's block is moved in at every point.) -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block of `V` at every point, for any proof data over `V`'s array
    (`hA`) whose body leaves that block where it found it (`hafter`): where the block was not moved in at `t`, its index
    is the previous point's, and so is the block. (This window's index map is constant: it is moved in once, at the first point.) -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's one store -/

/-- The whole of the output block: the rectangle the body stores through. -/
abbrev r1_0 : Rect S1024x256 := Rect.unit (s := S1024x256) ![0, 0] S1024x256.size inb_S1024x256_S1024x256_0_0

/-- The output's staging buffer after the body, as a function of the input blocks: the one store's payload laid
    over the whole block. -/
def out1_2 (x0 : Vec F S1024x256 .f32) (x1 : Vec F S256x256 .f32) : Vec F S1024x256 .bf16 :=
  View.canon [⟨r1_0, k1_pay1 (View.ld x0 (Rect.unit (s := S1024x256) ![0, 0] S1024x256.size inb_S1024x256_S1024x256_0_0)) (View.ld x1 (Rect.unit (s := S256x256) ![0, 0] S256x256.size inb_S256x256_S256x256_0_0))⟩]

/-- The store's rectangle is the whole block, so every index of the block lies in it. -/
theorem cover1_2 (p0 : Vec F S1024x256 .bf16) (y : S1024x256.Idx) :
    ∃ pc ∈ ([⟨r1_0, p0⟩] : List (View.Piece (Elt F) S1024x256 .bf16)), y ∈ pc.1.set :=
  View.cover_of_tiled [⟨r1_0, p0⟩] S1024x256.size (by rfl) y

/-! ## The body's triple -/

set_option maxHeartbeats 1000000 in
/-- The body on whole staging buffers, the inputs' reading `x0`, … and the output's holding anything, runs to a
    state where the inputs' read as before and the output's reads `out1_2` of them: three kinds of steps — a
    load of each input, a load of the output whose value nothing uses, and one store over the whole output block. -/
theorem sound_kernel1 (c : Dev nD) (E : Set ℕ) (i : grid1.Coords) (arg1 : Memref sig .tc .vmem S1024x256 .f32) (harg1 : arg1.IsWhole) (arg2 : Memref sig .tc .vmem S256x256 .f32) (harg2 : arg2.IsWhole) (arg3 : Memref sig .tc .vmem S1024x256 .bf16) (harg3 : arg3.IsWhole)
    (x0 : Vec F S1024x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__mm_kernel i arg1 harg1 arg2 harg2 arg3 harg3) K := by
  simp only [cc1__mm_kernel_eq_skeleton]; unfold cc1__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The region's proof data -/

/-- The proof data of region 1 on core `c`: the windows' arrays are `V`'s; after the body at point `t` each
    input's buffer holds its block and the output's holds `out1_2` of the input blocks; the invariant is the
    untouched rest of the core's state; nothing is owed and every share is whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are `V`'s. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- What the body finds in each input's buffer: that window's block at the point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body holds when it is called at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it holds when it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and what
    the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.KB.Half2.lean ====
import proofs.«106472_j56616258896068_2_alg».proof.Proof.Gen.Kernel.Launch
import proofs.«106472_j56616258896068_2_alg».proof.Proof.Gen.Kernel.Skeleton
import proofs.«106472_j56616258896068_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: the body's half of the frame

Region 2 runs `cc2__mm_bias_kernel` over a grid of `cfg2.N` points with 4 windows: window 0 (an input, block `S1024x128`), window 1 (an input, block `S128x64`), window 2 (an input, block `S1x64`)
and window 3 (the output, block `S1024x64`). Everything is stated at a parameter `V`, the contents of the core's
buffers when the region is entered. At a point `t` the body finds in each input's staging buffer that window's block of
`V` at `t`, whether or not the block was moved there at `t` itself (a block whose index did not change is still
in place), and leaves in the output's staging buffer one whole-block store: the payload `k2_pay1` of the input blocks.
The body also loads the output buffer once before storing; the loaded value is used by nothing, so any contents do.
-/

-- membership of an index in a rectangle of these extents is decided coordinate by coordinate along the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`: its array, as `V` has it, read through the block's view. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block of `V` at every point, for any proof data over `V`'s array
    (`hA`) whose body leaves that block where it found it (`hafter`): where the block was not moved in at `t`, its index
    is the previous point's, and so is the block. (This window's block is moved in at every point.) -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block of `V` at every point, for any proof data over `V`'s array
    (`hA`) whose body leaves that block where it found it (`hafter`): where the block was not moved in at `t`, its index
    is the previous point's, and so is the block. (This window's index map is constant: it is moved in once, at the first point.) -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block of `V` at every point, for any proof data over `V`'s array
    (`hA`) whose body leaves that block where it found it (`hafter`): where the block was not moved in at `t`, its index
    is the previous point's, and so is the block. (This window's index map is constant: it is moved in once, at the first point.) -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's one store -/

/-- The whole of the output block: the rectangle the body stores through. -/
abbrev r2_0 : Rect S1024x64 := Rect.unit (s := S1024x64) ![0, 0] S1024x64.size inb_S1024x64_S1024x64_0_0

/-- The output's staging buffer after the body, as a function of the input blocks: the one store's payload laid
    over the whole block. -/
def out2_3 (x0 : Vec F S1024x128 .f32) (x1 : Vec F S128x64 .f32) (x2 : Vec F S1x64 .f32) : Vec F S1024x64 .f32 :=
  View.canon [⟨r2_0, k2_pay1 (View.ld x0 (Rect.unit (s := S1024x128) ![0, 0] S1024x128.size inb_S1024x128_S1024x128_0_0)) (View.ld x1 (Rect.unit (s := S128x64) ![0, 0] S128x64.size inb_S128x64_S128x64_0_0)) (View.ld x2 (Rect.unit (s := S1x64) ![0, 0] S1x64.size inb_S1x64_S1x64_0_0))⟩]

/-- The store's rectangle is the whole block, so every index of the block lies in it. -/
theorem cover2_3 (p0 : Vec F S1024x64 .f32) (y : S1024x64.Idx) :
    ∃ pc ∈ ([⟨r2_0, p0⟩] : List (View.Piece (Elt F) S1024x64 .f32)), y ∈ pc.1.set :=
  View.cover_of_tiled [⟨r2_0, p0⟩] S1024x64.size (by rfl) y

/-! ## The body's triple -/

set_option maxHeartbeats 1000000 in
/-- The body on whole staging buffers, the inputs' reading `x0`, … and the output's holding anything, runs to a
    state where the inputs' read as before and the output's reads `out2_3` of them: three kinds of steps — a
    load of each input, a load of the output whose value nothing uses, and one store over the whole output block. -/
theorem sound_kernel2 (c : Dev nD) (E : Set ℕ) (i : grid2.Coords) (arg1 : Memref sig .tc .vmem S1024x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S1024x64 .f32) (harg4 : arg4.IsWhole)
    (x0 : Vec F S1024x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__mm_bias_kernel i arg1 harg1 arg2 harg2 arg3 harg3 arg4 harg4) K := by
  simp only [cc2__mm_bias_kernel_eq_skeleton]; unfold cc2__mm_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The region's proof data -/

/-- The proof data of region 2 on core `c`: the windows' arrays are `V`'s; after the body at point `t` each
    input's buffer holds its block and the output's holds `out2_3` of the input blocks; the invariant is the
    untouched rest of the core's state; nothing is owed and every share is whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are `V`'s. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- What the body finds in each input's buffer: that window's block at the point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- What the body holds when it is called at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it holds when it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and what
    the core owes pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 2, at every point. -/
theorem body_obligation2 (c : Dev nD) : BodyObligation (dat2 (F := F) V c) (defs₀ (F := F)) Variants.none () Set.univ := fun t => by
  rw [bigSep_W2, bigSep_W2]
  exact sound_body2 V c t

end Cert.Kernel.Gen

end
-- ==== Proof.KB.Half3.lean ====
/-
  The decoder's region: one tile of mu · muᵀ per grid point.

  The grid is 4 × 8. At point (i, j) the body reads rows 2048·i … 2048·i + 2047 of the matrix through its first
  window and rows 1024·j … 1024·j + 1023 of THE SAME matrix through its second, and stores their product
  (the second block transposed) as the (i, j) tile of the output. Both input windows look at one buffer, so the
  buffer's full share is dealt between them: the left half to the first window, the right half to the second.
  This file says what each window's staging buffer holds after the body at a point, and proves the body does that.
-/
import proofs.«106472_j56616258896068_2_alg».proof.Proof.Gen.Kernel.Launch
import proofs.«106472_j56616258896068_2_alg».proof.Proof.Gen.Kernel.Skeleton
import proofs.«106472_j56616258896068_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row-block window's staging buffer holds its block at every point, although it is fetched only when the
    row coordinate moves: between two fetches the block index stands still. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The column-block window's staging buffer holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_a : Rect S2048x64 := Rect.unit (s := S2048x64) ![0, 0] S2048x64.size inb_S2048x64_S2048x64_0_0
abbrev r3_b : Rect S1024x64 := Rect.unit (s := S1024x64) ![0, 0] S1024x64.size inb_S1024x64_S1024x64_0_0
abbrev r3_o : Rect S2048x1024 := Rect.unit (s := S2048x1024) ![0, 0] S2048x1024.size inb_S2048x1024_S2048x1024_0_0

/-! ## What the body leaves in the output window's buffer -/

/-- The output tile after the body: its one whole-tile store, whose value is the product of the two loaded blocks. -/
def out3_2 (x0 : Vec F S2048x64 .f32) (x1 : Vec F S1024x64 .f32) : Vec F S2048x1024 .f32 :=
  View.canon [⟨r3_o, k3_pay1 (View.ld x0 r3_a) (View.ld x1 r3_b)⟩]

/-- The one store covers the tile. -/
theorem cover3_2 (p0 : Vec F S2048x1024 .f32) (y : S2048x1024.Idx) :
    ∃ pc ∈ ([⟨r3_o, p0⟩] : List (View.Piece (Elt F) S2048x1024 .f32)), y ∈ pc.1.set :=
  View.cover_of_tiled [⟨r3_o, p0⟩] S2048x1024.size (by rfl) y

/-! ## The body's triple -/

set_option maxHeartbeats 1000000 in
/-- The body on whole staging memrefs — the inputs' at read contents x0, x1 and the output's at anything — runs to the
    continuation holding the inputs' as they were and the output's at the product tile. -/
theorem sound_kernel3 (c : Dev nD) (E : Set ℕ) (i : grid3.Coords)
    (arg2 : Memref sig .tc .vmem S2048x64 .f32) (harg2 : arg2.IsWhole) (arg3 : Memref sig .tc .vmem S1024x64 .f32) (harg3 : arg3.IsWhole)
    (arg4 : Memref sig .tc .vmem S2048x1024 .f32) (harg4 : arg4.IsWhole)
    (x0 : Vec F S2048x64 .f32) (x1 : Vec F S1024x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out3_2 x0 x1)) -∗ K ⟨⟩))
      ⊢ wp frame (wpE (defs₀ (F := F)) Variants.none c none) E (cc3__inner_kernel i arg2 harg2 arg3 harg3 arg4 harg4) K := by
  simp only [cc3__inner_kernel_eq_skeleton]; unfold cc3__inner_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The proof data -/

/-- The region's proof data on core c: the arrays as the region finds them; after the body at point t each input's
    buffer at its block and the output's at the product of the two blocks; between points nothing but the scoped
    rest and the generator register; nothing owed; the shared buffer's share dealt left and right. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Gen

end
-- ==== Proof.KB.Half4.lean ====
import proofs.«106472_j56616258896068_2_alg».proof.Proof.Gen.Kernel.Launch
import proofs.«106472_j56616258896068_2_alg».proof.Proof.Gen.Kernel.Skeleton
import proofs.«106472_j56616258896068_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 4: the body's half of the frame

Region 4 runs `cc4__mm_bias_kernel` over a grid of `cfg4.N` points with 4 windows: window 0 (an input, block `S1024x64`), window 1 (an input, block `S64x6`), window 2 (an input, block `S1x6`)
and window 3 (the output, block `S1024x6`). Everything is stated at a parameter `V`, the contents of the core's
buffers when the region is entered. At a point `t` the body finds in each input's staging buffer that window's block of
`V` at `t`, whether or not the block was moved there at `t` itself (a block whose index did not change is still
in place), and leaves in the output's staging buffer one whole-block store: the payload `k4_pay1` of the input blocks.
The body also loads the output buffer once before storing; the loaded value is used by nothing, so any contents do.
-/

-- membership of an index in a rectangle of these extents is decided coordinate by coordinate along the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`: its array, as `V` has it, read through the block's view. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block of `V` at every point, for any proof data over `V`'s array
    (`hA`) whose body leaves that block where it found it (`hafter`): where the block was not moved in at `t`, its index
    is the previous point's, and so is the block. (This window's block is moved in at every point.) -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block of `V` at every point, for any proof data over `V`'s array
    (`hA`) whose body leaves that block where it found it (`hafter`): where the block was not moved in at `t`, its index
    is the previous point's, and so is the block. (This window's index map is constant: it is moved in once, at the first point.) -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block of `V` at every point, for any proof data over `V`'s array
    (`hA`) whose body leaves that block where it found it (`hafter`): where the block was not moved in at `t`, its index
    is the previous point's, and so is the block. (This window's index map is constant: it is moved in once, at the first point.) -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's one store -/

/-- The whole of the output block: the rectangle the body stores through. -/
abbrev r4_0 : Rect S1024x6 := Rect.unit (s := S1024x6) ![0, 0] S1024x6.size inb_S1024x6_S1024x6_0_0

/-- The output's staging buffer after the body, as a function of the input blocks: the one store's payload laid
    over the whole block. -/
def out4_3 (x0 : Vec F S1024x64 .f32) (x1 : Vec F S64x6 .f32) (x2 : Vec F S1x6 .f32) : Vec F S1024x6 .f32 :=
  View.canon [⟨r4_0, k4_pay1 (View.ld x0 (Rect.unit (s := S1024x64) ![0, 0] S1024x64.size inb_S1024x64_S1024x64_0_0)) (View.ld x1 (Rect.unit (s := S64x6) ![0, 0] S64x6.size inb_S64x6_S64x6_0_0)) (View.ld x2 (Rect.unit (s := S1x6) ![0, 0] S1x6.size inb_S1x6_S1x6_0_0))⟩]

/-- The store's rectangle is the whole block, so every index of the block lies in it. -/
theorem cover4_3 (p0 : Vec F S1024x6 .f32) (y : S1024x6.Idx) :
    ∃ pc ∈ ([⟨r4_0, p0⟩] : List (View.Piece (Elt F) S1024x6 .f32)), y ∈ pc.1.set :=
  View.cover_of_tiled [⟨r4_0, p0⟩] S1024x6.size (by rfl) y

/-! ## The body's triple -/

set_option maxHeartbeats 1000000 in
/-- The body on whole staging buffers, the inputs' reading `x0`, … and the output's holding anything, runs to a
    state where the inputs' read as before and the output's reads `out4_3` of them: three kinds of steps — a
    load of each input, a load of the output whose value nothing uses, and one store over the whole output block. -/
theorem sound_kernel4 (c : Dev nD) (E : Set ℕ) (i : grid4.Coords) (arg1 : Memref sig .tc .vmem S1024x64 .f32) (harg1 : arg1.IsWhole) (arg2 : Memref sig .tc .vmem S64x6 .f32) (harg2 : arg2.IsWhole) (arg3 : Memref sig .tc .vmem S1x6 .f32) (harg3 : arg3.IsWhole) (arg4 : Memref sig .tc .vmem S1024x6 .f32) (harg4 : arg4.IsWhole)
    (x0 : Vec F S1024x64 .f32) (x1 : Vec F S64x6 .f32) (x2 : Vec F S1x6 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__mm_bias_kernel i arg1 harg1 arg2 harg2 arg3 harg3 arg4 harg4) K := by
  simp only [cc4__mm_bias_kernel_eq_skeleton]; unfold cc4__mm_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The region's proof data -/

/-- The proof data of region 4 on core `c`: the windows' arrays are `V`'s; after the body at point `t` each
    input's buffer holds its block and the output's holds `out4_3` of the input blocks; the invariant is the
    untouched rest of the core's state; nothing is owed and every share is whole. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are `V`'s. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

/-- What the body finds in each input's buffer: that window's block at the point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation -/

/-- What the body holds when it is called at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it holds when it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so the body's triple applies; the invariant and what
    the core owes pass through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 4, at every point. -/
theorem body_obligation4 (c : Dev nD) : BodyObligation (dat4 (F := F) V c) (defs₀ (F := F)) Variants.none () Set.univ := fun t => by
  rw [bigSep_W4, bigSep_W4]
  exact sound_body4 V c t

end Cert.Kernel.Gen

end
-- ==== Proof.KB.Chain.lean ====
/-
  The buffers' contents from the launch to the return, item by item.

  The program is eleven items in a row: five kernel regions with stretches of host operations between them. A host
  stretch changes the buffers as its operations say. A region changes exactly one buffer, its result, and leaves there
  what its write-backs have assembled by the last grid point. This file names the contents after every item (U0 … U11),
  starting from the launch memory, and the five results (res0, res1, res2, res3, res4) along the way.
-/
import proofs.«106472_j56616258896068_2_alg».proof.Proof.KB.Half0
import proofs.«106472_j56616258896068_2_alg».proof.Proof.KB.Half1
import proofs.«106472_j56616258896068_2_alg».proof.Proof.KB.Half2
import proofs.«106472_j56616258896068_2_alg».proof.Proof.KB.Half3
import proofs.«106472_j56616258896068_2_alg».proof.Proof.KB.Half4
import proofs.«106472_j56616258896068_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- A core's contents read at the TensorCore's references: what a region's proof data take. -/
abbrev tcv (W : Dev nD → Valuation τ sig (Elt F)) : (c : Dev nD) → (b : Ref sig .tc) → Buf (Elt F) ((c : Thread nD τ).loc b) :=
  fun c b => W c b

/-- At launch. -/
def U0 (c : Dev nD) : Valuation τ sig (Elt F) := fun b => m (c, b)
/-- The first product x · W1, as region 0 leaves it. -/
def res0 (c : Dev nD) : Buf (Elt F) ((c : Thread nD τ).loc main_v0) := (dat0 (tcv (U0 m)) c).arrAt 2 cfg0.N
/-- After region 0. -/
def U1 (c : Dev nD) : Valuation τ sig (Elt F) := Function.update (U0 m c) main_v0 (res0 m c)
/-- After the first sparse aggregation, -/
def U2 (c : Dev nD) : Valuation τ sig (Elt F) := StableHlo.after hostOps1 (U1 m c)
/-- the rectifier, -/
def U3 (c : Dev nD) : Valuation τ sig (Elt F) := StableHlo.after hostOps1_1 (U2 m c)
/-- and the two second-layer weight matrices laid side by side. -/
def U4 (c : Dev nD) : Valuation τ sig (Elt F) := StableHlo.after hostOps1_2 (U3 m c)
/-- The second product, as region 1 leaves it. -/
def res1 (c : Dev nD) : Buf (Elt F) ((c : Thread nD τ).loc main_v17) := (dat1 (tcv (U4 m)) c).arrAt 2 cfg1.N
/-- After region 1. -/
def U5 (c : Dev nD) : Valuation τ sig (Elt F) := Function.update (U4 m c) main_v17 (res1 m c)
/-- After the second sparse aggregation, its two column halves stacked on the row axis, and the bias reshaped. -/
def U6 (c : Dev nD) : Valuation τ sig (Elt F) := StableHlo.after hostOps2 (U5 m c)
/-- The stacked affine heads, as region 2 leaves them. -/
def res2 (c : Dev nD) : Buf (Elt F) ((c : Thread nD τ).loc main_v36) := (dat2 (tcv (U6 m)) c).arrAt 3 cfg2.N
/-- After region 2. -/
def U7 (c : Dev nD) : Valuation τ sig (Elt F) := Function.update (U6 m c) main_v36 (res2 m c)
/-- After the stack is cut back into the mean and the log-variance. -/
def U8 (c : Dev nD) : Valuation τ sig (Elt F) := StableHlo.after hostOps3 (U7 m c)
/-- The decoded adjacency, as region 3 leaves it. -/
def res3 (c : Dev nD) : Buf (Elt F) ((c : Thread nD τ).loc main_v39) := (dat3 (tcv (U8 m)) c).arrAt 2 cfg3.N
/-- After region 3. -/
def U9 (c : Dev nD) : Valuation τ sig (Elt F) := Function.update (U8 m c) main_v39 (res3 m c)
/-- After the last bias is reshaped. -/
def U10 (c : Dev nD) : Valuation τ sig (Elt F) := StableHlo.after hostOps4 (U9 m c)
/-- The six-way head, as region 4 leaves it. -/
def res4 (c : Dev nD) : Buf (Elt F) ((c : Thread nD τ).loc main_v41) := (dat4 (tcv (U10 m)) c).arrAt 3 cfg4.N
/-- At the return. -/
def U11 (c : Dev nD) : Valuation τ sig (Elt F) := Function.update (U10 m c) main_v41 (res4 m c)

/-! ## A region changes its result and nothing else -/

theorem U1_self (c : Dev nD) : U1 m c main_v0 = res0 m c := by unfold U1; exact Function.update_self ..
theorem U5_self (c : Dev nD) : U5 m c main_v17 = res1 m c := by unfold U5; exact Function.update_self ..
theorem U7_self (c : Dev nD) : U7 m c main_v36 = res2 m c := by unfold U7; exact Function.update_self ..
theorem U9_self (c : Dev nD) : U9 m c main_v39 = res3 m c := by unfold U9; exact Function.update_self ..
theorem U11_self (c : Dev nD) : U11 m c main_v41 = res4 m c := by unfold U11; exact Function.update_self ..

theorem U1_of_ne (c : Dev nD) (r : Ref sig .tc) (h : r ≠ main_v0) : U1 m c r = U0 m c r := by
  unfold U1; exact Function.update_of_ne (StableHlo.devRef_ne_of_ne h) ..
theorem U5_of_ne (c : Dev nD) (r : Ref sig .tc) (h : r ≠ main_v17) : U5 m c r = U4 m c r := by
  unfold U5; exact Function.update_of_ne (StableHlo.devRef_ne_of_ne h) ..
theorem U7_of_ne (c : Dev nD) (r : Ref sig .tc) (h : r ≠ main_v36) : U7 m c r = U6 m c r := by
  unfold U7; exact Function.update_of_ne (StableHlo.devRef_ne_of_ne h) ..
theorem U9_of_ne (c : Dev nD) (r : Ref sig .tc) (h : r ≠ main_v39) : U9 m c r = U8 m c r := by
  unfold U9; exact Function.update_of_ne (StableHlo.devRef_ne_of_ne h) ..
theorem U11_of_ne (c : Dev nD) (r : Ref sig .tc) (h : r ≠ main_v41) : U11 m c r = U10 m c r := by
  unfold U11; exact Function.update_of_ne (StableHlo.devRef_ne_of_ne h) ..

/-! ## The same contents, as the conditional frame's valuations at these results -/

/-- What each region leaves, as the family the generated valuations are written over. -/
def outs : Outs (F := F) := fun J r c => match J with
  | 1 => U1 m c r
  | 5 => U5 m c r
  | 7 => U7 m c r
  | 9 => U9 m c r
  | 11 => U11 m c r
  | _ => m ((c : Thread nD τ).loc r)

theorem V0_eq (c : Dev nD) : V0 m c = U0 m c := rfl
theorem V1_eq (c : Dev nD) : V1 m (outs m) c = U1 m c := by
  show Function.update (V0 m c) main_v0 (U1 m c main_v0) = U1 m c
  rw [U1_self]; rfl
theorem V2_eq (c : Dev nD) : V2 m (outs m) c = U2 m c := by
  show StableHlo.after hostOps1 (V1 m (outs m) c) = U2 m c
  rw [V1_eq]; rfl
theorem V3_eq (c : Dev nD) : V3 m (outs m) c = U3 m c := by
  show StableHlo.after hostOps1_1 (V2 m (outs m) c) = U3 m c
  rw [V2_eq]; rfl
theorem V4_eq (c : Dev nD) : V4 m (outs m) c = U4 m c := by
  show StableHlo.after hostOps1_2 (V3 m (outs m) c) = U4 m c
  rw [V3_eq]; rfl
theorem V5_eq (c : Dev nD) : V5 m (outs m) c = U5 m c := by
  show Function.update (V4 m (outs m) c) main_v17 (U5 m c main_v17) = U5 m c
  rw [U5_self, V4_eq]; rfl
theorem V6_eq (c : Dev nD) : V6 m (outs m) c = U6 m c := by
  show StableHlo.after hostOps2 (V5 m (outs m) c) = U6 m c
  rw [V5_eq]; rfl
theorem V7_eq (c : Dev nD) : V7 m (outs m) c = U7 m c := by
  show Function.update (V6 m (outs m) c) main_v36 (U7 m c main_v36) = U7 m c
  rw [U7_self, V6_eq]; rfl
theorem V8_eq (c : Dev nD) : V8 m (outs m) c = U8 m c := by
  show StableHlo.after hostOps3 (V7 m (outs m) c) = U8 m c
  rw [V7_eq]; rfl
theorem V9_eq (c : Dev nD) : V9 m (outs m) c = U9 m c := by
  show Function.update (V8 m (outs m) c) main_v39 (U9 m c main_v39) = U9 m c
  rw [U9_self, V8_eq]; rfl
theorem V10_eq (c : Dev nD) : V10 m (outs m) c = U10 m c := by
  show StableHlo.after hostOps4 (V9 m (outs m) c) = U10 m c
  rw [V9_eq]; rfl
theorem V11_eq (c : Dev nD) : V11 m (outs m) c = U11 m c := by
  show Function.update (V10 m (outs m) c) main_v41 (U11 m c main_v41) = U11 m c
  rw [U11_self, V10_eq]; rfl

/-! ## Every region's proof data, each at the contents its region is entered from -/

/-- No pallas_call has a prefetched table. -/
abbrev adm' : (p : Fin 5) → (pcfgs (F := F) p).Adm := fun p => (cfgs p).toPCfg_adm

/-- The five regions' proof data: a literal match, so that a numeral's configuration reduces to the printed one. -/
def pdats : (p : Fin 5) → (c : Dev nD) → Dat τ (Elt F) Unit ℕ (UR sig nD τ) ℕ (cfgs p) c
  | ⟨0, _⟩ => fun c => dat0 (tcv (U0 m)) c
  | ⟨1, _⟩ => fun c => dat1 (tcv (U4 m)) c
  | ⟨2, _⟩ => fun c => dat2 (tcv (U6 m)) c
  | ⟨3, _⟩ => fun c => dat3 (tcv (U8 m)) c
  | ⟨4, _⟩ => fun c => dat4 (tcv (U10 m)) c

/-! ## The thread state between items -/

/-- No variant, no level: no core owes another anything in this program. -/
abbrev 𝒱' : Variants := Variants.none
abbrev L' : GSem nD τ sig → Finset Unit := fun _ => ∅
abbrev lv' : GSem nD τ sig → Unit → ℕ := fun _ _ => 0
/-- What rides beside the buffers through every item: the core's generator register at some state, and its dues, none. -/
abbrev Rst (c : Dev nD) : sProp 𝕄 := iprop((∃ r, prngReg c r) ∗ ∃ W, owes (c : Thread nD τ) (0 : CellTallies nD τ sig Unit) W)

end Cert.Kernel.Gen

end
-- ==== Proof.KB.Regs.lean ====
/-
  The four regions whose windows look at distinct buffers, as items of the program.

  Each of these regions reads its operands through input windows, one buffer per window, and writes one result. Entered
  with every buffer at the item's contents, it leaves every buffer as it was but its result, which holds what the
  region's write-backs assembled.
-/
import proofs.«106472_j56616258896068_2_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## Region 0 -/

/-- At region 0's exit each of its arrays holds what the pipeline leaves there: an input what it held, the result its
    assembled write-backs. -/
theorem hF0 (c : Dev nD) : ∀ w : Fin cfg0.W, (dat0 (tcv (U0 m)) c).arrAt w cfg0.N = tcv (U1 m) c (Pipeline.arrRef spec0 w)
  | ⟨0, _⟩ => ((dat0 (tcv (U0 m)) c).arrAt_in 0 rfl _).trans ((A_eq0 (tcv (U0 m)) c 0).trans (U1_of_ne m c main_arg0 (by decide)).symm)
  | ⟨1, _⟩ => ((dat0 (tcv (U0 m)) c).arrAt_in 1 rfl _).trans ((A_eq0 (tcv (U0 m)) c 1).trans (U1_of_ne m c main_arg4 (by decide)).symm)
  | ⟨2, _⟩ => (U1_self m c).symm

/-- Every other buffer holds what it held at entry. -/
theorem hrest0 (c : Dev nD) : ∀ b, b ∉ Finset.univ.image (Pipeline.arrRef spec0) → tcv (U1 m) c b = tcv (U0 m) c b :=
  fun b hb => U1_of_ne m c b fun e => hb (Finset.mem_image.mpr ⟨2, Finset.mem_univ _, e.symm⟩)

set_option backward.isDefEq.respectTransparency.types false in
/-- Region 0 over the thread state "every unscoped buffer at the item's contents, the generator register at some state,
    nothing owed": its arrays are split out of the unscoped buffers at entry and put back at the exit contents; the
    generator register goes into the region's invariant and comes back; the kernel has no semaphore of its own. -/
def reg0 : Pipeline.RegionSeg (pcfgs (F := F)) adm' (pdats m) () defs₀ 𝒱' L' lv' 0 where
  win := launch0.win.to₀
  block_pos := launch0.block_pos
  stage_whole := launch0.stage_whole
  K := PEmpty
  osem k := k.elim
  ho := Pipeline.OwnSemFacts.none _
  hbody c := (body_obligation0 (tcv (U0 m)) c).loose
  hwaits := Pipeline.hwaits_of_owed_zero _ _ _ _ L' lv' 0 fun _ _ => rfl
  pre c := iprop(StableHlo.held (c : Thread nD τ) (Pipeline.ucRefs τ sig) (U0 m c) ∗ Rst c)
  post c := iprop(StableHlo.held (c : Thread nD τ) (Pipeline.ucRefs τ sig) (U1 m c) ∗ Rst c)
  X c := iprop(∃ r, prngReg c r)
  Y c := iprop(∃ r, prngReg c r)
  Z c := Pipeline.unscopedRest (Ix := Unit) (Name := ℕ) (U := UR sig nD τ) (Lvl := ℕ) spec0 c (tcv (U0 m) c)
  hentry c := by
    rw [Pipeline.ownSems0_none]
    have hsplit := Pipeline.arrays_of_unscopedBufs (p := 0) (pcfgs (F := F)) adm' (pdats m) launch0.win launch0.arr_whole c
      ((pdats m 0 c).share_full fun _ => rfl) (tcv (U0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (tcv (U0 m) c) (tcv (U1 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- At region 1's exit each of its arrays holds what the pipeline leaves there: an input what it held, the result its
    assembled write-backs. -/
theorem hF1 (c : Dev nD) : ∀ w : Fin cfg1.W, (dat1 (tcv (U4 m)) c).arrAt w cfg1.N = tcv (U5 m) c (Pipeline.arrRef spec1 w)
  | ⟨0, _⟩ => ((dat1 (tcv (U4 m)) c).arrAt_in 0 rfl _).trans ((A_eq1 (tcv (U4 m)) c 0).trans (U5_of_ne m c main_v15 (by decide)).symm)
  | ⟨1, _⟩ => ((dat1 (tcv (U4 m)) c).arrAt_in 1 rfl _).trans ((A_eq1 (tcv (U4 m)) c 1).trans (U5_of_ne m c main_v16 (by decide)).symm)
  | ⟨2, _⟩ => (U5_self m c).symm

/-- Every other buffer holds what it held at entry. -/
theorem hrest1 (c : Dev nD) : ∀ b, b ∉ Finset.univ.image (Pipeline.arrRef spec1) → tcv (U5 m) c b = tcv (U4 m) c b :=
  fun b hb => U5_of_ne m c b fun e => hb (Finset.mem_image.mpr ⟨2, Finset.mem_univ _, e.symm⟩)

set_option backward.isDefEq.respectTransparency.types false in
/-- Region 1 over the thread state "every unscoped buffer at the item's contents, the generator register at some state,
    nothing owed": its arrays are split out of the unscoped buffers at entry and put back at the exit contents; the
    generator register goes into the region's invariant and comes back; the kernel has no semaphore of its own. -/
def reg1 : Pipeline.RegionSeg (pcfgs (F := F)) adm' (pdats m) () defs₀ 𝒱' L' lv' 1 where
  win := launch1.win.to₀
  block_pos := launch1.block_pos
  stage_whole := launch1.stage_whole
  K := PEmpty
  osem k := k.elim
  ho := Pipeline.OwnSemFacts.none _
  hbody c := (body_obligation1 (tcv (U4 m)) c).loose
  hwaits := Pipeline.hwaits_of_owed_zero _ _ _ _ L' lv' 1 fun _ _ => rfl
  pre c := iprop(StableHlo.held (c : Thread nD τ) (Pipeline.ucRefs τ sig) (U4 m c) ∗ Rst c)
  post c := iprop(StableHlo.held (c : Thread nD τ) (Pipeline.ucRefs τ sig) (U5 m c) ∗ Rst c)
  X c := iprop(∃ r, prngReg c r)
  Y c := iprop(∃ r, prngReg c r)
  Z c := Pipeline.unscopedRest (Ix := Unit) (Name := ℕ) (U := UR sig nD τ) (Lvl := ℕ) spec1 c (tcv (U4 m) c)
  hentry c := by
    rw [Pipeline.ownSems0_none]
    have hsplit := Pipeline.arrays_of_unscopedBufs (p := 1) (pcfgs (F := F)) adm' (pdats m) launch1.win launch1.arr_whole c
      ((pdats m 1 c).share_full fun _ => rfl) (tcv (U4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (tcv (U4 m) c) (tcv (U5 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- At region 2's exit each of its arrays holds what the pipeline leaves there: an input what it held, the result its
    assembled write-backs. -/
theorem hF2 (c : Dev nD) : ∀ w : Fin cfg2.W, (dat2 (tcv (U6 m)) c).arrAt w cfg2.N = tcv (U7 m) c (Pipeline.arrRef spec2 w)
  | ⟨0, _⟩ => ((dat2 (tcv (U6 m)) c).arrAt_in 0 rfl _).trans ((A_eq2 (tcv (U6 m)) c 0).trans (U7_of_ne m c main_v34 (by decide)).symm)
  | ⟨1, _⟩ => ((dat2 (tcv (U6 m)) c).arrAt_in 1 rfl _).trans ((A_eq2 (tcv (U6 m)) c 1).trans (U7_of_ne m c main_arg7 (by decide)).symm)
  | ⟨2, _⟩ => ((dat2 (tcv (U6 m)) c).arrAt_in 2 rfl _).trans ((A_eq2 (tcv (U6 m)) c 2).trans (U7_of_ne m c main_v35 (by decide)).symm)
  | ⟨3, _⟩ => (U7_self m c).symm

/-- Every other buffer holds what it held at entry. -/
theorem hrest2 (c : Dev nD) : ∀ b, b ∉ Finset.univ.image (Pipeline.arrRef spec2) → tcv (U7 m) c b = tcv (U6 m) c b :=
  fun b hb => U7_of_ne m c b fun e => hb (Finset.mem_image.mpr ⟨3, Finset.mem_univ _, e.symm⟩)

set_option backward.isDefEq.respectTransparency.types false in
/-- Region 2 over the thread state "every unscoped buffer at the item's contents, the generator register at some state,
    nothing owed": its arrays are split out of the unscoped buffers at entry and put back at the exit contents; the
    generator register goes into the region's invariant and comes back; the kernel has no semaphore of its own. -/
def reg2 : Pipeline.RegionSeg (pcfgs (F := F)) adm' (pdats m) () defs₀ 𝒱' L' lv' 2 where
  win := launch2.win.to₀
  block_pos := launch2.block_pos
  stage_whole := launch2.stage_whole
  K := PEmpty
  osem k := k.elim
  ho := Pipeline.OwnSemFacts.none _
  hbody c := (body_obligation2 (tcv (U6 m)) c).loose
  hwaits := Pipeline.hwaits_of_owed_zero _ _ _ _ L' lv' 2 fun _ _ => rfl
  pre c := iprop(StableHlo.held (c : Thread nD τ) (Pipeline.ucRefs τ sig) (U6 m c) ∗ Rst c)
  post c := iprop(StableHlo.held (c : Thread nD τ) (Pipeline.ucRefs τ sig) (U7 m c) ∗ Rst c)
  X c := iprop(∃ r, prngReg c r)
  Y c := iprop(∃ r, prngReg c r)
  Z c := Pipeline.unscopedRest (Ix := Unit) (Name := ℕ) (U := UR sig nD τ) (Lvl := ℕ) spec2 c (tcv (U6 m) c)
  hentry c := by
    rw [Pipeline.ownSems0_none]
    have hsplit := Pipeline.arrays_of_unscopedBufs (p := 2) (pcfgs (F := F)) adm' (pdats m) launch2.win launch2.arr_whole c
      ((pdats m 2 c).share_full fun _ => rfl) (tcv (U6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m) ((pdats m 2 c).share_full fun _ => rfl)
      (tcv (U6 m) c) (tcv (U7 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4 -/

/-- At region 4's exit each of its arrays holds what the pipeline leaves there: an input what it held, the result its
    assembled write-backs. -/
theorem hF4 (c : Dev nD) : ∀ w : Fin cfg4.W, (dat4 (tcv (U10 m)) c).arrAt w cfg4.N = tcv (U11 m) c (Pipeline.arrRef spec4 w)
  | ⟨0, _⟩ => ((dat4 (tcv (U10 m)) c).arrAt_in 0 rfl _).trans ((A_eq4 (tcv (U10 m)) c 0).trans (U11_of_ne m c main_v37 (by decide)).symm)
  | ⟨1, _⟩ => ((dat4 (tcv (U10 m)) c).arrAt_in 1 rfl _).trans ((A_eq4 (tcv (U10 m)) c 1).trans (U11_of_ne m c main_arg9 (by decide)).symm)
  | ⟨2, _⟩ => ((dat4 (tcv (U10 m)) c).arrAt_in 2 rfl _).trans ((A_eq4 (tcv (U10 m)) c 2).trans (U11_of_ne m c main_v40 (by decide)).symm)
  | ⟨3, _⟩ => (U11_self m c).symm

/-- Every other buffer holds what it held at entry. -/
theorem hrest4 (c : Dev nD) : ∀ b, b ∉ Finset.univ.image (Pipeline.arrRef spec4) → tcv (U11 m) c b = tcv (U10 m) c b :=
  fun b hb => U11_of_ne m c b fun e => hb (Finset.mem_image.mpr ⟨3, Finset.mem_univ _, e.symm⟩)

set_option backward.isDefEq.respectTransparency.types false in
/-- Region 4 over the thread state "every unscoped buffer at the item's contents, the generator register at some state,
    nothing owed": its arrays are split out of the unscoped buffers at entry and put back at the exit contents; the
    generator register goes into the region's invariant and comes back; the kernel has no semaphore of its own. -/
def reg4 : Pipeline.RegionSeg (pcfgs (F := F)) adm' (pdats m) () defs₀ 𝒱' L' lv' 4 where
  win := launch4.win.to₀
  block_pos := launch4.block_pos
  stage_whole := launch4.stage_whole
  K := PEmpty
  osem k := k.elim
  ho := Pipeline.OwnSemFacts.none _
  hbody c := (body_obligation4 (tcv (U10 m)) c).loose
  hwaits := Pipeline.hwaits_of_owed_zero _ _ _ _ L' lv' 4 fun _ _ => rfl
  pre c := iprop(StableHlo.held (c : Thread nD τ) (Pipeline.ucRefs τ sig) (U10 m c) ∗ Rst c)
  post c := iprop(StableHlo.held (c : Thread nD τ) (Pipeline.ucRefs τ sig) (U11 m c) ∗ Rst c)
  X c := iprop(∃ r, prngReg c r)
  Y c := iprop(∃ r, prngReg c r)
  Z c := Pipeline.unscopedRest (Ix := Unit) (Name := ℕ) (U := UR sig nD τ) (Lvl := ℕ) spec4 c (tcv (U10 m) c)
  hentry c := by
    rw [Pipeline.ownSems0_none]
    have hsplit := Pipeline.arrays_of_unscopedBufs (p := 4) (pcfgs (F := F)) adm' (pdats m) launch4.win launch4.arr_whole c
      ((pdats m 4 c).share_full fun _ => rfl) (tcv (U10 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm' (Ix := Unit) (Name := ℕ) (U := UR sig nD τ) (Lvl := ℕ)
      launch4.win launch4.arr_whole c (pdats m) ((pdats m 4 c).share_full fun _ => rfl)
      (tcv (U10 m) c) (tcv (U11 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Reg3.lean ====
/-
  The decoder's region as an item of the program.

  Its two input windows look at ONE buffer, the matrix mu. At entry that buffer's full share is cut in two, the left half
  for the window that reads row blocks and the right half for the window that reads the blocks to be transposed; at exit
  the two halves, still at the same contents, are put together again, so that the next region finds the matrix whole.
-/
import proofs.«106472_j56616258896068_2_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers behind the region's arrays -/

/-- The region's three windows look at two buffers. -/
theorem arrImg3 : Finset.univ.image (Pipeline.arrRef spec3) = insert main_v37 ({main_v39} : Finset (Ref sig .tc)) := by
  ext b
  simp only [Finset.mem_image, Finset.mem_univ, true_and, Finset.mem_insert, Finset.mem_singleton]
  constructor
  · rintro ⟨w, rfl⟩
    match w with
    | ⟨0, _⟩ => exact Or.inl rfl
    | ⟨1, _⟩ => exact Or.inl rfl
    | ⟨2, _⟩ => exact Or.inr rfl
  · rintro (rfl | rfl)
    · exact ⟨0, rfl⟩
    · exact ⟨2, rfl⟩

section Shares

variable {c : Dev nD} (dat : Dat τ (Elt F) Unit ℕ (UR sig nD τ) ℕ cfg3 c)
  (hq0 : dat.q 0 = fullShare.left) (hq1 : dat.q 1 = fullShare.right)

include hq0 in
theorem share3_0 : dat.share 0 = fullShare.left := by
  unfold Dat.share; split
  · rename_i h; exact absurd h (by decide)
  · exact hq0
include hq1 in
theorem share3_1 : dat.share 1 = fullShare.right := by
  unfold Dat.share; split
  · rename_i h; exact absurd h (by decide)
  · exact hq1
theorem share3_2 : dat.share 2 = fullShare := by
  unfold Dat.share; split
  · rfl
  · rename_i h; exact absurd (by decide) h

include hq0 hq1 in
/-- The two buffers behind the arrays, each whole at contents V, ARE the three windows' arrays at those contents: the
    shared buffer's full share is the left half and the right half together. -/
theorem arrBufs3_iff (V : (b : Ref sig .tc) → Buf (Elt F) ((c : Thread nD τ).loc b)) :
    (Pipeline.arrBufs (Ix := Unit) (Name := ℕ) (U := UR sig nD τ) (Lvl := ℕ) spec3 c V : sProp 𝕄)
      ⊣⊢ dat.arrays (fun w => V (Pipeline.arrRef spec3 w)) := by
  unfold Pipeline.arrBufs Dat.arrays
  rw [arrImg3, bigSep_insert (by decide), bigSep_singleton, bigSep_W3,
    (arr_whole3 0).set_eq_univ, (arr_whole3 2).set_eq_univ,
    share3_0 dat hq0, share3_1 dat hq1, share3_2 dat]
  constructor
  · show iprop(_ ∗ _) ⊢ _
    iintro ⟨H0, H2⟩
    ihave H0' := (pointsTo_share (PosShare.mem_left_op_right fullShare)).1 $$ H0
    icases H0' with ⟨Hl, Hr⟩
    isplitl [Hl]; · iexact Hl
    isplitl [Hr]; · iexact Hr
    iexact H2
  · show _ ⊢ iprop(_ ∗ _)
    iintro ⟨Hl, Hr, H2⟩
    isplitl [Hl Hr]
    · iapply (pointsTo_share (PosShare.mem_left_op_right fullShare)).2
      isplitl [Hl]; · iexact Hl
      iexact Hr
    iexact H2

end Shares

/-! ## Region 3 -/

theorem hF3 (c : Dev nD) : ∀ w : Fin cfg3.W, (dat3 (tcv (U8 m)) c).arrAt w cfg3.N = tcv (U9 m) c (Pipeline.arrRef spec3 w)
  | ⟨0, _⟩ => ((dat3 (tcv (U8 m)) c).arrAt_in 0 rfl _).trans ((A_eq3 (tcv (U8 m)) c 0).trans (U9_of_ne m c main_v37 (by decide)).symm)
  | ⟨1, _⟩ => ((dat3 (tcv (U8 m)) c).arrAt_in 1 rfl _).trans ((A_eq3 (tcv (U8 m)) c 1).trans (U9_of_ne m c main_v37 (by decide)).symm)
  | ⟨2, _⟩ => (U9_self m c).symm

theorem hrest3 (c : Dev nD) : ∀ b, b ∉ Finset.univ.image (Pipeline.arrRef spec3) → tcv (U9 m) c b = tcv (U8 m) c b :=
  fun b hb => U9_of_ne m c b fun e => hb (Finset.mem_image.mpr ⟨2, Finset.mem_univ _, e.symm⟩)

/-- The windows' arrays are unscoped buffers. -/
theorem arr_unscoped3 : ∀ w, (Pipeline.arrRef spec3 w).isScoped = false := winFacts₀3.arr_unscoped

set_option backward.isDefEq.respectTransparency.types false in
/-- The decoder's region over the thread state "every unscoped buffer at the item's contents, the generator register at
    some state, nothing owed". -/
def reg3 : Pipeline.RegionSeg (pcfgs (F := F)) adm' (pdats m) () defs₀ 𝒱' L' lv' 3 where
  win := winFacts₀3
  block_pos := block_pos3
  stage_whole := stage_whole3
  K := PEmpty
  osem k := k.elim
  ho := Pipeline.OwnSemFacts.none _
  hbody c := (body_obligation3 (tcv (U8 m)) c).loose
  hwaits := Pipeline.hwaits_of_owed_zero _ _ _ _ L' lv' 3 fun _ _ => rfl
  pre c := iprop(StableHlo.held (c : Thread nD τ) (Pipeline.ucRefs τ sig) (U8 m c) ∗ Rst c)
  post c := iprop(StableHlo.held (c : Thread nD τ) (Pipeline.ucRefs τ sig) (U9 m c) ∗ Rst c)
  X c := iprop(∃ r, prngReg c r)
  Y c := iprop(∃ r, prngReg c r)
  Z c := Pipeline.unscopedRest (Ix := Unit) (Name := ℕ) (U := UR sig nD τ) (Lvl := ℕ) spec3 c (tcv (U8 m) c)
  hentry c := by
    rw [Pipeline.ownSems0_none]
    have hsplit : (StableHlo.held (c : Thread nD τ) (Pipeline.ucRefs τ sig) (U8 m c) : sProp 𝕄)
        ⊢ iprop((pdats m 3 c).arrays ((pdats m 3 c).arrAt · 0)
            ∗ Pipeline.unscopedRest (Ix := Unit) (Name := ℕ) (U := UR sig nD τ) (Lvl := ℕ) spec3 c (tcv (U8 m) c)) := by
      rw [← Pipeline.unscopedBufs_held (Ix := Unit) (Name := ℕ) (U := UR sig nD τ) (Lvl := ℕ) c (U8 m c),
        Pipeline.unscopedBufs_split₀ (Ix := Unit) (Name := ℕ) (U := UR sig nD τ) (Lvl := ℕ) cfgs 3 arr_unscoped3 c (tcv (U8 m) c)]
      exact sep_mono (arrBufs3_iff (dat3 (tcv (U8 m)) c) rfl rfl (tcv (U8 m) c)).1 .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m 3 c).arrays ((pdats m 3 c).arrAt · cfg3.N)
          ∗ Pipeline.unscopedRest (Ix := Unit) (Name := ℕ) (U := UR sig nD τ) (Lvl := ℕ) spec3 c (tcv (U8 m) c))
        ⊢ (StableHlo.held (c : Thread nD τ) (Pipeline.ucRefs τ sig) (U9 m c) : sProp 𝕄) := by
      rw [← Pipeline.unscopedBufs_held (Ix := Unit) (Name := ℕ) (U := UR sig nD τ) (Lvl := ℕ) c (U9 m c),
        Pipeline.unscopedBufs_split₀ (Ix := Unit) (Name := ℕ) (U := UR sig nD τ) (Lvl := ℕ) cfgs 3 arr_unscoped3 c (tcv (U9 m) c),
        show ((pdats m 3 c).arrAt · cfg3.N) = (fun w => tcv (U9 m) c (Pipeline.arrRef spec3 w)) from funext (hF3 m c)]
      refine sep_mono (arrBufs3_iff (dat3 (tcv (U8 m)) c) rfl rfl (tcv (U9 m) c)).2 (Entails.of_eq ?_)
      unfold Pipeline.unscopedRest
      exact bigSep_congr fun b hb => by rw [hrest3 m c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KB.Run.lean ====
/-
  The run of the whole program, and what its final memory holds.

  The eleven items are chained: each is entered from the thread state the one before it left — every unscoped buffer at
  the item's contents, the generator register at some state, nothing owed. Every weakly fair execution therefore
  terminates without a fault in a state whose unscoped buffers hold the last contents U11. Two things are read off
  that: no item writes an argument, so each argument ends as launched; and each result buffer ends at the contents its
  producing item left.
-/
import proofs.«106472_j56616258896068_2_alg».proof.Proof.KB.Regs
import proofs.«106472_j56616258896068_2_alg».proof.Proof.KB.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The items -/

/-- A stretch of host operations as an item: over the unscoped buffers from contents W, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱' L' lv' :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-- The program's eleven items in order. -/
abbrev items : List (Pipeline.Seg (pcfgs (F := F)) adm' (pdats m) () defs₀ 𝒱' L' lv') :=
  [ .region (reg0 m),
    .host (hseg hostOps1 hostOps1_sub hostOps1_fresh (U1 m)),
    .host (hseg hostOps1_1 hostOps1_1_sub hostOps1_1_fresh (U2 m)),
    .host (hseg hostOps1_2 hostOps1_2_sub hostOps1_2_fresh (U3 m)),
    .region (reg1 m),
    .host (hseg hostOps2 hostOps2_sub hostOps2_fresh (U5 m)),
    .region (reg2 m),
    .host (hseg hostOps3 hostOps3_sub hostOps3_fresh (U7 m)),
    .region (reg3 m),
    .host (hseg hostOps4 hostOps4_sub hostOps4_fresh (U9 m)),
    .region (reg4 m) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The run -/

set_option backward.isDefEq.respectTransparency.types false in
/-- Every weakly fair execution of the program from memory m with zero counters terminates, nothing faulting, and every
    unscoped buffer of every core ends at the last contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = U11 m c b) := by
  refine Pipeline.θ_run_regions_kit_dev (pcfgs (F := F)) adm' (pdats m) () cellOf_inj emb₁ defs₀ 𝒱' L' lv' m ρ main
    (fun _ => items m)
    (fun c Q => by
      rewrite [main_chain c, Seg.run_eq_chain,
        show (items m).map Seg.prog = [
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (fun c => by simp only [items, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ Rst c))
    (Tₙ := fun c => iprop(StableHlo.held (c : Thread nD τ) (Pipeline.ucRefs τ sig) (U11 m c) ∗ ∃ r, prngReg c r))
    (hch := fun c => ⟨.rfl, .rfl, .rfl, .rfl, .rfl, .rfl, .rfl, .rfl, .rfl, .rfl, .rfl, by
      show iprop(StableHlo.held (c : Thread nD τ) (Pipeline.ucRefs τ sig) (U11 m c) ∗ Rst c) ⊢ _
      iintro ⟨Hh, Hp, Ho⟩
      isplitl [Hh Hp]
      · isplitl [Hh]; · iexact Hh
        iexact Hp
      iexact Ho⟩)
    (hinit := by
      refine Pipeline.initEach L' lv' fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U11 m c b)
    (hfin := fun c s' => by
      iintro ⟨⟨Hh, -⟩, HSI⟩
      unfold StableHlo.held
      imodintro
      iapply (pointsTo_read_all (Pipeline.ucRefs τ sig) (fun b => (((c : Thread nD τ)).1, b)) (U11 m c) s')
      isplitl [Hh] <;> iassumption)
    (hQ := fun _ h => h)

/-! ## What the final memory holds -/

/-- An argument's buffer is never written: at the return it holds the launch contents. -/
theorem U11_arg (c : Dev nD) (r : Ref sig .tc) (h : V11 m (outs m) c r = m ((c : Thread nD τ).loc r)) :
    U11 m c r = m ((c : Thread nD τ).loc r) := (congrFun (V11_eq m c).symm _).trans h

/-- THE FRAME, at any float instance: the program runs to the end without a fault and every argument ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (U11_arg m c main_arg0 (V11_main_arg0 m (outs m) c)),
    (h c _ (mem_uc main_arg1 (by decide))).trans (U11_arg m c main_arg1 (V11_main_arg1 m (outs m) c)),
    (h c _ (mem_uc main_arg2 (by decide))).trans (U11_arg m c main_arg2 (V11_main_arg2 m (outs m) c)),
    (h c _ (mem_uc main_arg3 (by decide))).trans (U11_arg m c main_arg3 (V11_main_arg3 m (outs m) c)),
    (h c _ (mem_uc main_arg4 (by decide))).trans (U11_arg m c main_arg4 (V11_main_arg4 m (outs m) c)),
    (h c _ (mem_uc main_arg5 (by decide))).trans (U11_arg m c main_arg5 (V11_main_arg5 m (outs m) c)),
    (h c _ (mem_uc main_arg6 (by decide))).trans (U11_arg m c main_arg6 (V11_main_arg6 m (outs m) c)),
    (h c _ (mem_uc main_arg7 (by decide))).trans (U11_arg m c main_arg7 (V11_main_arg7 m (outs m) c)),
    (h c _ (mem_uc main_arg8 (by decide))).trans (U11_arg m c main_arg8 (V11_main_arg8 m (outs m) c)),
    (h c _ (mem_uc main_arg9 (by decide))).trans (U11_arg m c main_arg9 (V11_main_arg9 m (outs m) c)),
    (h c _ (mem_uc main_arg10 (by decide))).trans (U11_arg m c main_arg10 (V11_main_arg10 m (outs m) c))⟩) (run_all m ρ)

/-- THE RESULTS: the same run, with the four result buffers at the contents their producing items left and the arguments
    as launched. -/
theorem results (ρ : Dev nD → PrngReg) :
    θ_run defs (onTc (τ := τ) (main (F := F))) ⟨m, fun _ => 0, ρ⟩ (fun r => ∀ c : Dev nD,
      r.2.mem ((c.tc : Thread nD τ).loc main_v39) = U11 m c main_v39
      ∧ r.2.mem ((c.tc : Thread nD τ).loc main_v41) = U11 m c main_v41
      ∧ r.2.mem ((c.tc : Thread nD τ).loc main_v37) = U11 m c main_v37
      ∧ r.2.mem ((c.tc : Thread nD τ).loc main_v38) = U11 m c main_v38
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v39 (by decide)), h c _ (mem_uc main_v41 (by decide)),
    h c _ (mem_uc main_v37 (by decide)), h c _ (mem_uc main_v38 (by decide)),
    (h c _ (mem_uc main_arg0 (by decide))).trans (U11_arg m c main_arg0 (V11_main_arg0 m (outs m) c)),
    (h c _ (mem_uc main_arg1 (by decide))).trans (U11_arg m c main_arg1 (V11_main_arg1 m (outs m) c)),
    (h c _ (mem_uc main_arg2 (by decide))).trans (U11_arg m c main_arg2 (V11_main_arg2 m (outs m) c)),
    (h c _ (mem_uc main_arg3 (by decide))).trans (U11_arg m c main_arg3 (V11_main_arg3 m (outs m) c)),
    (h c _ (mem_uc main_arg4 (by decide))).trans (U11_arg m c main_arg4 (V11_main_arg4 m (outs m) c)),
    (h c _ (mem_uc main_arg5 (by decide))).trans (U11_arg m c main_arg5 (V11_main_arg5 m (outs m) c)),
    (h c _ (mem_uc main_arg6 (by decide))).trans (U11_arg m c main_arg6 (V11_main_arg6 m (outs m) c)),
    (h c _ (mem_uc main_arg7 (by decide))).trans (U11_arg m c main_arg7 (V11_main_arg7 m (outs m) c)),
    (h c _ (mem_uc main_arg8 (by decide))).trans (U11_arg m c main_arg8 (V11_main_arg8 m (outs m) c)),
    (h c _ (mem_uc main_arg9 (by decide))).trans (U11_arg m c main_arg9 (V11_main_arg9 m (outs m) c)),
    (h c _ (mem_uc main_arg10 (by decide))).trans (U11_arg m c main_arg10 (V11_main_arg10 m (outs m) c))⟩) (run_all m ρ)

end Cert.Kernel.Gen

end
-- ==== Proof.KI.Half0.lean ====
import proofs.«106472_j56616258896068_2_alg».proof.Proof.Gen.KernelIdeal.Launch
import proofs.«106472_j56616258896068_2_alg».proof.Proof.Gen.KernelIdeal.Skeleton
import proofs.«106472_j56616258896068_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: the body's half of the frame

Region 0 runs `cc0__mm_kernel` over a grid of `cfg0.N` points with 3 windows: window 0 (an input, block `S1024x512`), window 1 (an input, block `S512x256`)
and window 2 (the output, block `S1024x256`). Everything is stated at a parameter `V`, the contents of the core's
buffers when the region is entered. At a point `t` the body finds in each input's staging buffer that window's block of
`V` at `t`, whether or not the block was moved there at `t` itself (a block whose index did not change is still
in place), and leaves in the output's staging buffer one whole-block store: the payload `k0_pay1` of the input blocks.
The body also loads the output buffer once before storing; the loaded value is used by nothing, so any contents do.
-/

-- membership of an index in a rectangle of these extents is decided coordinate by coordinate along the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`: its array, as `V` has it, read through the block's view. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block of `V` at every point, for any proof data over `V`'s array
    (`hA`) whose body leaves that block where it found it (`hafter`): where the block was not moved in at `t`, its index
    is the previous point's, and so is the block. (This window's block is moved in at every point.) -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block of `V` at every point, for any proof data over `V`'s array
    (`hA`) whose body leaves that block where it found it (`hafter`): where the block was not moved in at `t`, its index
    is the previous point's, and so is the block. (This window's index map is constant: it is moved in once, at the first point.) -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's one store -/

/-- The whole of the output block: the rectangle the body stores through. -/
abbrev r0_0 : Rect S1024x256 := Rect.unit (s := S1024x256) ![0, 0] S1024x256.size inb_S1024x256_S1024x256_0_0

/-- The output's staging buffer after the body, as a function of the input blocks: the one store's payload laid
    over the whole block. -/
def out0_2 (x0 : Vec F S1024x512 .f32) (x1 : Vec F S512x256 .f32) : Vec F S1024x256 .bf16 :=
  View.canon [⟨r0_0, k0_pay1 (View.ld x0 (Rect.unit (s := S1024x512) ![0, 0] S1024x512.size inb_S1024x512_S1024x512_0_0)) (View.ld x1 (Rect.unit (s := S512x256) ![0, 0] S512x256.size inb_S512x256_S512x256_0_0))⟩]

/-- The store's rectangle is the whole block, so every index of the block lies in it. -/
theorem cover0_2 (p0 : Vec F S1024x256 .bf16) (y : S1024x256.Idx) :
    ∃ pc ∈ ([⟨r0_0, p0⟩] : List (View.Piece (Elt F) S1024x256 .bf16)), y ∈ pc.1.set :=
  View.cover_of_tiled [⟨r0_0, p0⟩] S1024x256.size (by rfl) y

/-! ## The body's triple -/

set_option maxHeartbeats 1000000 in
/-- The body on whole staging buffers, the inputs' reading `x0`, … and the output's holding anything, runs to a
    state where the inputs' read as before and the output's reads `out0_2` of them: three kinds of steps — a
    load of each input, a load of the output whose value nothing uses, and one store over the whole output block. -/
theorem sound_kernel0 (c : Dev nD) (E : Set ℕ) (i : grid0.Coords) (arg1 : Memref sig .tc .vmem S1024x512 .f32) (harg1 : arg1.IsWhole) (arg2 : Memref sig .tc .vmem S512x256 .f32) (harg2 : arg2.IsWhole) (arg3 : Memref sig .tc .vmem S1024x256 .bf16) (harg3 : arg3.IsWhole)
    (x0 : Vec F S1024x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of region 0 on core `c`: the windows' arrays are `V`'s; after the body at point `t` each
    input's buffer holds its block and the output's holds `out0_2` of the input blocks; the invariant is the
    untouched rest of the core's state; nothing is owed and every share is whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are `V`'s. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- What the body finds in each input's buffer: that window's block at the point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body holds when it is called at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it holds when it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and what
    the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.KI.Half1.lean ====
import proofs.«106472_j56616258896068_2_alg».proof.Proof.Gen.KernelIdeal.Launch
import proofs.«106472_j56616258896068_2_alg».proof.Proof.Gen.KernelIdeal.Skeleton
import proofs.«106472_j56616258896068_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: the body's half of the frame

Region 1 runs `cc1__mm_kernel` over a grid of `cfg1.N` points with 3 windows: window 0 (an input, block `S1024x256`), window 1 (an input, block `S256x256`)
and window 2 (the output, block `S1024x256`). Everything is stated at a parameter `V`, the contents of the core's
buffers when the region is entered. At a point `t` the body finds in each input's staging buffer that window's block of
`V` at `t`, whether or not the block was moved there at `t` itself (a block whose index did not change is still
in place), and leaves in the output's staging buffer one whole-block store: the payload `k1_pay1` of the input blocks.
The body also loads the output buffer once before storing; the loaded value is used by nothing, so any contents do.
-/

-- membership of an index in a rectangle of these extents is decided coordinate by coordinate along the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`: its array, as `V` has it, read through the block's view. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block of `V` at every point, for any proof data over `V`'s array
    (`hA`) whose body leaves that block where it found it (`hafter`): where the block was not moved in at `t`, its index
    is the previous point's, and so is the block. (This window's block is moved in at every point.) -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block of `V` at every point, for any proof data over `V`'s array
    (`hA`) whose body leaves that block where it found it (`hafter`): where the block was not moved in at `t`, its index
    is the previous point's, and so is the block. (This window's index map is constant: it is moved in once, at the first point.) -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's one store -/

/-- The whole of the output block: the rectangle the body stores through. -/
abbrev r1_0 : Rect S1024x256 := Rect.unit (s := S1024x256) ![0, 0] S1024x256.size inb_S1024x256_S1024x256_0_0

/-- The output's staging buffer after the body, as a function of the input blocks: the one store's payload laid
    over the whole block. -/
def out1_2 (x0 : Vec F S1024x256 .f32) (x1 : Vec F S256x256 .f32) : Vec F S1024x256 .bf16 :=
  View.canon [⟨r1_0, k1_pay1 (View.ld x0 (Rect.unit (s := S1024x256) ![0, 0] S1024x256.size inb_S1024x256_S1024x256_0_0)) (View.ld x1 (Rect.unit (s := S256x256) ![0, 0] S256x256.size inb_S256x256_S256x256_0_0))⟩]

/-- The store's rectangle is the whole block, so every index of the block lies in it. -/
theorem cover1_2 (p0 : Vec F S1024x256 .bf16) (y : S1024x256.Idx) :
    ∃ pc ∈ ([⟨r1_0, p0⟩] : List (View.Piece (Elt F) S1024x256 .bf16)), y ∈ pc.1.set :=
  View.cover_of_tiled [⟨r1_0, p0⟩] S1024x256.size (by rfl) y

/-! ## The body's triple -/

set_option maxHeartbeats 1000000 in
/-- The body on whole staging buffers, the inputs' reading `x0`, … and the output's holding anything, runs to a
    state where the inputs' read as before and the output's reads `out1_2` of them: three kinds of steps — a
    load of each input, a load of the output whose value nothing uses, and one store over the whole output block. -/
theorem sound_kernel1 (c : Dev nD) (E : Set ℕ) (i : grid1.Coords) (arg1 : Memref sig .tc .vmem S1024x256 .f32) (harg1 : arg1.IsWhole) (arg2 : Memref sig .tc .vmem S256x256 .f32) (harg2 : arg2.IsWhole) (arg3 : Memref sig .tc .vmem S1024x256 .bf16) (harg3 : arg3.IsWhole)
    (x0 : Vec F S1024x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__mm_kernel i arg1 harg1 arg2 harg2 arg3 harg3) K := by
  simp only [cc1__mm_kernel_eq_skeleton]; unfold cc1__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The region's proof data -/

/-- The proof data of region 1 on core `c`: the windows' arrays are `V`'s; after the body at point `t` each
    input's buffer holds its block and the output's holds `out1_2` of the input blocks; the invariant is the
    untouched rest of the core's state; nothing is owed and every share is whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are `V`'s. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- What the body finds in each input's buffer: that window's block at the point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body holds when it is called at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it holds when it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and what
    the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.KI.Half2.lean ====
import proofs.«106472_j56616258896068_2_alg».proof.Proof.Gen.KernelIdeal.Launch
import proofs.«106472_j56616258896068_2_alg».proof.Proof.Gen.KernelIdeal.Skeleton
import proofs.«106472_j56616258896068_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: the body's half of the frame

Region 2 runs `cc2__mm_bias_kernel` over a grid of `cfg2.N` points with 4 windows: window 0 (an input, block `S1024x128`), window 1 (an input, block `S128x64`), window 2 (an input, block `S1x64`)
and window 3 (the output, block `S1024x64`). Everything is stated at a parameter `V`, the contents of the core's
buffers when the region is entered. At a point `t` the body finds in each input's staging buffer that window's block of
`V` at `t`, whether or not the block was moved there at `t` itself (a block whose index did not change is still
in place), and leaves in the output's staging buffer one whole-block store: the payload `k2_pay1` of the input blocks.
The body also loads the output buffer once before storing; the loaded value is used by nothing, so any contents do.
-/

-- membership of an index in a rectangle of these extents is decided coordinate by coordinate along the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`: its array, as `V` has it, read through the block's view. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block of `V` at every point, for any proof data over `V`'s array
    (`hA`) whose body leaves that block where it found it (`hafter`): where the block was not moved in at `t`, its index
    is the previous point's, and so is the block. (This window's block is moved in at every point.) -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block of `V` at every point, for any proof data over `V`'s array
    (`hA`) whose body leaves that block where it found it (`hafter`): where the block was not moved in at `t`, its index
    is the previous point's, and so is the block. (This window's index map is constant: it is moved in once, at the first point.) -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block of `V` at every point, for any proof data over `V`'s array
    (`hA`) whose body leaves that block where it found it (`hafter`): where the block was not moved in at `t`, its index
    is the previous point's, and so is the block. (This window's index map is constant: it is moved in once, at the first point.) -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's one store -/

/-- The whole of the output block: the rectangle the body stores through. -/
abbrev r2_0 : Rect S1024x64 := Rect.unit (s := S1024x64) ![0, 0] S1024x64.size inb_S1024x64_S1024x64_0_0

/-- The output's staging buffer after the body, as a function of the input blocks: the one store's payload laid
    over the whole block. -/
def out2_3 (x0 : Vec F S1024x128 .f32) (x1 : Vec F S128x64 .f32) (x2 : Vec F S1x64 .f32) : Vec F S1024x64 .f32 :=
  View.canon [⟨r2_0, k2_pay1 (View.ld x0 (Rect.unit (s := S1024x128) ![0, 0] S1024x128.size inb_S1024x128_S1024x128_0_0)) (View.ld x1 (Rect.unit (s := S128x64) ![0, 0] S128x64.size inb_S128x64_S128x64_0_0)) (View.ld x2 (Rect.unit (s := S1x64) ![0, 0] S1x64.size inb_S1x64_S1x64_0_0))⟩]

/-- The store's rectangle is the whole block, so every index of the block lies in it. -/
theorem cover2_3 (p0 : Vec F S1024x64 .f32) (y : S1024x64.Idx) :
    ∃ pc ∈ ([⟨r2_0, p0⟩] : List (View.Piece (Elt F) S1024x64 .f32)), y ∈ pc.1.set :=
  View.cover_of_tiled [⟨r2_0, p0⟩] S1024x64.size (by rfl) y

/-! ## The body's triple -/

set_option maxHeartbeats 1000000 in
/-- The body on whole staging buffers, the inputs' reading `x0`, … and the output's holding anything, runs to a
    state where the inputs' read as before and the output's reads `out2_3` of them: three kinds of steps — a
    load of each input, a load of the output whose value nothing uses, and one store over the whole output block. -/
theorem sound_kernel2 (c : Dev nD) (E : Set ℕ) (i : grid2.Coords) (arg1 : Memref sig .tc .vmem S1024x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S1024x64 .f32) (harg4 : arg4.IsWhole)
    (x0 : Vec F S1024x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__mm_bias_kernel i arg1 harg1 arg2 harg2 arg3 harg3 arg4 harg4) K := by
  simp only [cc2__mm_bias_kernel_eq_skeleton]; unfold cc2__mm_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The region's proof data -/

/-- The proof data of region 2 on core `c`: the windows' arrays are `V`'s; after the body at point `t` each
    input's buffer holds its block and the output's holds `out2_3` of the input blocks; the invariant is the
    untouched rest of the core's state; nothing is owed and every share is whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are `V`'s. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- What the body finds in each input's buffer: that window's block at the point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- What the body holds when it is called at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it holds when it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and what
    the core owes pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Gen

end
-- ==== Proof.KI.Half3.lean ====
/-
  The decoder's region: one tile of mu · muᵀ per grid point.

  The grid is 4 × 8. At point (i, j) the body reads rows 2048·i … 2048·i + 2047 of the matrix through its first
  window and rows 1024·j … 1024·j + 1023 of THE SAME matrix through its second, and stores their product
  (the second block transposed) as the (i, j) tile of the output. Both input windows look at one buffer, so the
  buffer's full share is dealt between them: the left half to the first window, the right half to the second.
  This file says what each window's staging buffer holds after the body at a point, and proves the body does that.
-/
import proofs.«106472_j56616258896068_2_alg».proof.Proof.Gen.KernelIdeal.Launch
import proofs.«106472_j56616258896068_2_alg».proof.Proof.Gen.KernelIdeal.Skeleton
import proofs.«106472_j56616258896068_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row-block window's staging buffer holds its block at every point, although it is fetched only when the
    row coordinate moves: between two fetches the block index stands still. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The column-block window's staging buffer holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_a : Rect S2048x64 := Rect.unit (s := S2048x64) ![0, 0] S2048x64.size inb_S2048x64_S2048x64_0_0
abbrev r3_b : Rect S1024x64 := Rect.unit (s := S1024x64) ![0, 0] S1024x64.size inb_S1024x64_S1024x64_0_0
abbrev r3_o : Rect S2048x1024 := Rect.unit (s := S2048x1024) ![0, 0] S2048x1024.size inb_S2048x1024_S2048x1024_0_0

/-! ## What the body leaves in the output window's buffer -/

/-- The output tile after the body: its one whole-tile store, whose value is the product of the two loaded blocks. -/
def out3_2 (x0 : Vec F S2048x64 .f32) (x1 : Vec F S1024x64 .f32) : Vec F S2048x1024 .f32 :=
  View.canon [⟨r3_o, k3_pay1 (View.ld x0 r3_a) (View.ld x1 r3_b)⟩]

/-- The one store covers the tile. -/
theorem cover3_2 (p0 : Vec F S2048x1024 .f32) (y : S2048x1024.Idx) :
    ∃ pc ∈ ([⟨r3_o, p0⟩] : List (View.Piece (Elt F) S2048x1024 .f32)), y ∈ pc.1.set :=
  View.cover_of_tiled [⟨r3_o, p0⟩] S2048x1024.size (by rfl) y

/-! ## The body's triple -/

set_option maxHeartbeats 1000000 in
/-- The body on whole staging memrefs — the inputs' at read contents x0, x1 and the output's at anything — runs to the
    continuation holding the inputs' as they were and the output's at the product tile. -/
theorem sound_kernel3 (c : Dev nD) (E : Set ℕ) (i : grid3.Coords)
    (arg2 : Memref sig .tc .vmem S2048x64 .f32) (harg2 : arg2.IsWhole) (arg3 : Memref sig .tc .vmem S1024x64 .f32) (harg3 : arg3.IsWhole)
    (arg4 : Memref sig .tc .vmem S2048x1024 .f32) (harg4 : arg4.IsWhole)
    (x0 : Vec F S2048x64 .f32) (x1 : Vec F S1024x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out3_2 x0 x1)) -∗ K ⟨⟩))
      ⊢ wp frame (wpE (defs₀ (F := F)) Variants.none c none) E (cc3__inner_kernel i arg2 harg2 arg3 harg3 arg4 harg4) K := by
  simp only [cc3__inner_kernel_eq_skeleton]; unfold cc3__inner_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The proof data -/

/-- The region's proof data on core c: the arrays as the region finds them; after the body at point t each input's
    buffer at its block and the output's at the product of the two blocks; between points nothing but the scoped
    rest and the generator register; nothing owed; the shared buffer's share dealt left and right. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Gen

end
-- ==== Proof.KI.Half4.lean ====
import proofs.«106472_j56616258896068_2_alg».proof.Proof.Gen.KernelIdeal.Launch
import proofs.«106472_j56616258896068_2_alg».proof.Proof.Gen.KernelIdeal.Skeleton
import proofs.«106472_j56616258896068_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 4: the body's half of the frame

Region 4 runs `cc4__mm_bias_kernel` over a grid of `cfg4.N` points with 4 windows: window 0 (an input, block `S1024x64`), window 1 (an input, block `S64x6`), window 2 (an input, block `S1x6`)
and window 3 (the output, block `S1024x6`). Everything is stated at a parameter `V`, the contents of the core's
buffers when the region is entered. At a point `t` the body finds in each input's staging buffer that window's block of
`V` at `t`, whether or not the block was moved there at `t` itself (a block whose index did not change is still
in place), and leaves in the output's staging buffer one whole-block store: the payload `k4_pay1` of the input blocks.
The body also loads the output buffer once before storing; the loaded value is used by nothing, so any contents do.
-/

-- membership of an index in a rectangle of these extents is decided coordinate by coordinate along the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`: its array, as `V` has it, read through the block's view. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block of `V` at every point, for any proof data over `V`'s array
    (`hA`) whose body leaves that block where it found it (`hafter`): where the block was not moved in at `t`, its index
    is the previous point's, and so is the block. (This window's block is moved in at every point.) -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block of `V` at every point, for any proof data over `V`'s array
    (`hA`) whose body leaves that block where it found it (`hafter`): where the block was not moved in at `t`, its index
    is the previous point's, and so is the block. (This window's index map is constant: it is moved in once, at the first point.) -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block of `V` at every point, for any proof data over `V`'s array
    (`hA`) whose body leaves that block where it found it (`hafter`): where the block was not moved in at `t`, its index
    is the previous point's, and so is the block. (This window's index map is constant: it is moved in once, at the first point.) -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's one store -/

/-- The whole of the output block: the rectangle the body stores through. -/
abbrev r4_0 : Rect S1024x6 := Rect.unit (s := S1024x6) ![0, 0] S1024x6.size inb_S1024x6_S1024x6_0_0

/-- The output's staging buffer after the body, as a function of the input blocks: the one store's payload laid
    over the whole block. -/
def out4_3 (x0 : Vec F S1024x64 .f32) (x1 : Vec F S64x6 .f32) (x2 : Vec F S1x6 .f32) : Vec F S1024x6 .f32 :=
  View.canon [⟨r4_0, k4_pay1 (View.ld x0 (Rect.unit (s := S1024x64) ![0, 0] S1024x64.size inb_S1024x64_S1024x64_0_0)) (View.ld x1 (Rect.unit (s := S64x6) ![0, 0] S64x6.size inb_S64x6_S64x6_0_0)) (View.ld x2 (Rect.unit (s := S1x6) ![0, 0] S1x6.size inb_S1x6_S1x6_0_0))⟩]

/-- The store's rectangle is the whole block, so every index of the block lies in it. -/
theorem cover4_3 (p0 : Vec F S1024x6 .f32) (y : S1024x6.Idx) :
    ∃ pc ∈ ([⟨r4_0, p0⟩] : List (View.Piece (Elt F) S1024x6 .f32)), y ∈ pc.1.set :=
  View.cover_of_tiled [⟨r4_0, p0⟩] S1024x6.size (by rfl) y

/-! ## The body's triple -/

set_option maxHeartbeats 1000000 in
/-- The body on whole staging buffers, the inputs' reading `x0`, … and the output's holding anything, runs to a
    state where the inputs' read as before and the output's reads `out4_3` of them: three kinds of steps — a
    load of each input, a load of the output whose value nothing uses, and one store over the whole output block. -/
theorem sound_kernel4 (c : Dev nD) (E : Set ℕ) (i : grid4.Coords) (arg1 : Memref sig .tc .vmem S1024x64 .f32) (harg1 : arg1.IsWhole) (arg2 : Memref sig .tc .vmem S64x6 .f32) (harg2 : arg2.IsWhole) (arg3 : Memref sig .tc .vmem S1x6 .f32) (harg3 : arg3.IsWhole) (arg4 : Memref sig .tc .vmem S1024x6 .f32) (harg4 : arg4.IsWhole)
    (x0 : Vec F S1024x64 .f32) (x1 : Vec F S64x6 .f32) (x2 : Vec F S1x6 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__mm_bias_kernel i arg1 harg1 arg2 harg2 arg3 harg3 arg4 harg4) K := by
  simp only [cc4__mm_bias_kernel_eq_skeleton]; unfold cc4__mm_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The region's proof data -/

/-- The proof data of region 4 on core `c`: the windows' arrays are `V`'s; after the body at point `t` each
    input's buffer holds its block and the output's holds `out4_3` of the input blocks; the invariant is the
    untouched rest of the core's state; nothing is owed and every share is whole. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are `V`'s. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

/-- What the body finds in each input's buffer: that window's block at the point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation -/

/-- What the body holds when it is called at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it holds when it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so the body's triple applies; the invariant and what
    the core owes pass through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 4, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Gen

end
-- ==== Proof.KI.Chain.lean ====
/-
  The buffers' contents from the launch to the return, item by item.

  The program is eleven items in a row: five kernel regions with stretches of host operations between them. A host
  stretch changes the buffers as its operations say. A region changes exactly one buffer, its result, and leaves there
  what its write-backs have assembled by the last grid point. This file names the contents after every item (U0 … U11),
  starting from the launch memory, and the five results (res0, res1, res2, res3, res4) along the way.
-/
import proofs.«106472_j56616258896068_2_alg».proof.Proof.KI.Half0
import proofs.«106472_j56616258896068_2_alg».proof.Proof.KI.Half1
import proofs.«106472_j56616258896068_2_alg».proof.Proof.KI.Half2
import proofs.«106472_j56616258896068_2_alg».proof.Proof.KI.Half3
import proofs.«106472_j56616258896068_2_alg».proof.Proof.KI.Half4
import proofs.«106472_j56616258896068_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- A core's contents read at the TensorCore's references: what a region's proof data take. -/
abbrev tcv (W : Dev nD → Valuation τ sig (Elt F)) : (c : Dev nD) → (b : Ref sig .tc) → Buf (Elt F) ((c : Thread nD τ).loc b) :=
  fun c b => W c b

/-- At launch. -/
def U0 (c : Dev nD) : Valuation τ sig (Elt F) := fun b => m (c, b)
/-- The first product x · W1, as region 0 leaves it. -/
def res0 (c : Dev nD) : Buf (Elt F) ((c : Thread nD τ).loc main_v0) := (dat0 (tcv (U0 m)) c).arrAt 2 cfg0.N
/-- After region 0. -/
def U1 (c : Dev nD) : Valuation τ sig (Elt F) := Function.update (U0 m c) main_v0 (res0 m c)
/-- After the first sparse aggregation, -/
def U2 (c : Dev nD) : Valuation τ sig (Elt F) := StableHlo.after hostOps1 (U1 m c)
/-- the rectifier, -/
def U3 (c : Dev nD) : Valuation τ sig (Elt F) := StableHlo.after hostOps1_1 (U2 m c)
/-- and the two second-layer weight matrices laid side by side. -/
def U4 (c : Dev nD) : Valuation τ sig (Elt F) := StableHlo.after hostOps1_2 (U3 m c)
/-- The second product, as region 1 leaves it. -/
def res1 (c : Dev nD) : Buf (Elt F) ((c : Thread nD τ).loc main_v17) := (dat1 (tcv (U4 m)) c).arrAt 2 cfg1.N
/-- After region 1. -/
def U5 (c : Dev nD) : Valuation τ sig (Elt F) := Function.update (U4 m c) main_v17 (res1 m c)
/-- After the second sparse aggregation, its two column halves stacked on the row axis, and the bias reshaped. -/
def U6 (c : Dev nD) : Valuation τ sig (Elt F) := StableHlo.after hostOps2 (U5 m c)
/-- The stacked affine heads, as region 2 leaves them. -/
def res2 (c : Dev nD) : Buf (Elt F) ((c : Thread nD τ).loc main_v36) := (dat2 (tcv (U6 m)) c).arrAt 3 cfg2.N
/-- After region 2. -/
def U7 (c : Dev nD) : Valuation τ sig (Elt F) := Function.update (U6 m c) main_v36 (res2 m c)
/-- After the stack is cut back into the mean and the log-variance. -/
def U8 (c : Dev nD) : Valuation τ sig (Elt F) := StableHlo.after hostOps3 (U7 m c)
/-- The decoded adjacency, as region 3 leaves it. -/
def res3 (c : Dev nD) : Buf (Elt F) ((c : Thread nD τ).loc main_v39) := (dat3 (tcv (U8 m)) c).arrAt 2 cfg3.N
/-- After region 3. -/
def U9 (c : Dev nD) : Valuation τ sig (Elt F) := Function.update (U8 m c) main_v39 (res3 m c)
/-- After the last bias is reshaped. -/
def U10 (c : Dev nD) : Valuation τ sig (Elt F) := StableHlo.after hostOps4 (U9 m c)
/-- The six-way head, as region 4 leaves it. -/
def res4 (c : Dev nD) : Buf (Elt F) ((c : Thread nD τ).loc main_v41) := (dat4 (tcv (U10 m)) c).arrAt 3 cfg4.N
/-- At the return. -/
def U11 (c : Dev nD) : Valuation τ sig (Elt F) := Function.update (U10 m c) main_v41 (res4 m c)

/-! ## A region changes its result and nothing else -/

theorem U1_self (c : Dev nD) : U1 m c main_v0 = res0 m c := by unfold U1; exact Function.update_self ..
theorem U5_self (c : Dev nD) : U5 m c main_v17 = res1 m c := by unfold U5; exact Function.update_self ..
theorem U7_self (c : Dev nD) : U7 m c main_v36 = res2 m c := by unfold U7; exact Function.update_self ..
theorem U9_self (c : Dev nD) : U9 m c main_v39 = res3 m c := by unfold U9; exact Function.update_self ..
theorem U11_self (c : Dev nD) : U11 m c main_v41 = res4 m c := by unfold U11; exact Function.update_self ..

theorem U1_of_ne (c : Dev nD) (r : Ref sig .tc) (h : r ≠ main_v0) : U1 m c r = U0 m c r := by
  unfold U1; exact Function.update_of_ne (StableHlo.devRef_ne_of_ne h) ..
theorem U5_of_ne (c : Dev nD) (r : Ref sig .tc) (h : r ≠ main_v17) : U5 m c r = U4 m c r := by
  unfold U5; exact Function.update_of_ne (StableHlo.devRef_ne_of_ne h) ..
theorem U7_of_ne (c : Dev nD) (r : Ref sig .tc) (h : r ≠ main_v36) : U7 m c r = U6 m c r := by
  unfold U7; exact Function.update_of_ne (StableHlo.devRef_ne_of_ne h) ..
theorem U9_of_ne (c : Dev nD) (r : Ref sig .tc) (h : r ≠ main_v39) : U9 m c r = U8 m c r := by
  unfold U9; exact Function.update_of_ne (StableHlo.devRef_ne_of_ne h) ..
theorem U11_of_ne (c : Dev nD) (r : Ref sig .tc) (h : r ≠ main_v41) : U11 m c r = U10 m c r := by
  unfold U11; exact Function.update_of_ne (StableHlo.devRef_ne_of_ne h) ..

/-! ## The same contents, as the conditional frame's valuations at these results -/

/-- What each region leaves, as the family the generated valuations are written over. -/
def outs : Outs (F := F) := fun J r c => match J with
  | 1 => U1 m c r
  | 5 => U5 m c r
  | 7 => U7 m c r
  | 9 => U9 m c r
  | 11 => U11 m c r
  | _ => m ((c : Thread nD τ).loc r)

theorem V0_eq (c : Dev nD) : V0 m c = U0 m c := rfl
theorem V1_eq (c : Dev nD) : V1 m (outs m) c = U1 m c := by
  show Function.update (V0 m c) main_v0 (U1 m c main_v0) = U1 m c
  rw [U1_self]; rfl
theorem V2_eq (c : Dev nD) : V2 m (outs m) c = U2 m c := by
  show StableHlo.after hostOps1 (V1 m (outs m) c) = U2 m c
  rw [V1_eq]; rfl
theorem V3_eq (c : Dev nD) : V3 m (outs m) c = U3 m c := by
  show StableHlo.after hostOps1_1 (V2 m (outs m) c) = U3 m c
  rw [V2_eq]; rfl
theorem V4_eq (c : Dev nD) : V4 m (outs m) c = U4 m c := by
  show StableHlo.after hostOps1_2 (V3 m (outs m) c) = U4 m c
  rw [V3_eq]; rfl
theorem V5_eq (c : Dev nD) : V5 m (outs m) c = U5 m c := by
  show Function.update (V4 m (outs m) c) main_v17 (U5 m c main_v17) = U5 m c
  rw [U5_self, V4_eq]; rfl
theorem V6_eq (c : Dev nD) : V6 m (outs m) c = U6 m c := by
  show StableHlo.after hostOps2 (V5 m (outs m) c) = U6 m c
  rw [V5_eq]; rfl
theorem V7_eq (c : Dev nD) : V7 m (outs m) c = U7 m c := by
  show Function.update (V6 m (outs m) c) main_v36 (U7 m c main_v36) = U7 m c
  rw [U7_self, V6_eq]; rfl
theorem V8_eq (c : Dev nD) : V8 m (outs m) c = U8 m c := by
  show StableHlo.after hostOps3 (V7 m (outs m) c) = U8 m c
  rw [V7_eq]; rfl
theorem V9_eq (c : Dev nD) : V9 m (outs m) c = U9 m c := by
  show Function.update (V8 m (outs m) c) main_v39 (U9 m c main_v39) = U9 m c
  rw [U9_self, V8_eq]; rfl
theorem V10_eq (c : Dev nD) : V10 m (outs m) c = U10 m c := by
  show StableHlo.after hostOps4 (V9 m (outs m) c) = U10 m c
  rw [V9_eq]; rfl
theorem V11_eq (c : Dev nD) : V11 m (outs m) c = U11 m c := by
  show Function.update (V10 m (outs m) c) main_v41 (U11 m c main_v41) = U11 m c
  rw [U11_self, V10_eq]; rfl

/-! ## Every region's proof data, each at the contents its region is entered from -/

/-- No pallas_call has a prefetched table. -/
abbrev adm' : (p : Fin 5) → (pcfgs (F := F) p).Adm := fun p => (cfgs p).toPCfg_adm

/-- The five regions' proof data: a literal match, so that a numeral's configuration reduces to the printed one. -/
def pdats : (p : Fin 5) → (c : Dev nD) → Dat τ (Elt F) Unit ℕ (UR sig nD τ) ℕ (cfgs p) c
  | ⟨0, _⟩ => fun c => dat0 (tcv (U0 m)) c
  | ⟨1, _⟩ => fun c => dat1 (tcv (U4 m)) c
  | ⟨2, _⟩ => fun c => dat2 (tcv (U6 m)) c
  | ⟨3, _⟩ => fun c => dat3 (tcv (U8 m)) c
  | ⟨4, _⟩ => fun c => dat4 (tcv (U10 m)) c

/-! ## The thread state between items -/

/-- No variant, no level: no core owes another anything in this program. -/
abbrev 𝒱' : Variants := Variants.none
abbrev L' : GSem nD τ sig → Finset Unit := fun _ => ∅
abbrev lv' : GSem nD τ sig → Unit → ℕ := fun _ _ => 0
/-- What rides beside the buffers through every item: the core's generator register at some state, and its dues, none. -/
abbrev Rst (c : Dev nD) : sProp 𝕄 := iprop((∃ r, prngReg c r) ∗ ∃ W, owes (c : Thread nD τ) (0 : CellTallies nD τ sig Unit) W)

end Cert.KernelIdeal.Gen

end
-- ==== Proof.KI.Regs.lean ====
/-
  The four regions whose windows look at distinct buffers, as items of the program.

  Each of these regions reads its operands through input windows, one buffer per window, and writes one result. Entered
  with every buffer at the item's contents, it leaves every buffer as it was but its result, which holds what the
  region's write-backs assembled.
-/
import proofs.«106472_j56616258896068_2_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## Region 0 -/

/-- At region 0's exit each of its arrays holds what the pipeline leaves there: an input what it held, the result its
    assembled write-backs. -/
theorem hF0 (c : Dev nD) : ∀ w : Fin cfg0.W, (dat0 (tcv (U0 m)) c).arrAt w cfg0.N = tcv (U1 m) c (Pipeline.arrRef spec0 w)
  | ⟨0, _⟩ => ((dat0 (tcv (U0 m)) c).arrAt_in 0 rfl _).trans ((A_eq0 (tcv (U0 m)) c 0).trans (U1_of_ne m c main_arg0 (by decide)).symm)
  | ⟨1, _⟩ => ((dat0 (tcv (U0 m)) c).arrAt_in 1 rfl _).trans ((A_eq0 (tcv (U0 m)) c 1).trans (U1_of_ne m c main_arg4 (by decide)).symm)
  | ⟨2, _⟩ => (U1_self m c).symm

/-- Every other buffer holds what it held at entry. -/
theorem hrest0 (c : Dev nD) : ∀ b, b ∉ Finset.univ.image (Pipeline.arrRef spec0) → tcv (U1 m) c b = tcv (U0 m) c b :=
  fun b hb => U1_of_ne m c b fun e => hb (Finset.mem_image.mpr ⟨2, Finset.mem_univ _, e.symm⟩)

set_option backward.isDefEq.respectTransparency.types false in
/-- Region 0 over the thread state "every unscoped buffer at the item's contents, the generator register at some state,
    nothing owed": its arrays are split out of the unscoped buffers at entry and put back at the exit contents; the
    generator register goes into the region's invariant and comes back; the kernel has no semaphore of its own. -/
def reg0 : Pipeline.RegionSeg (pcfgs (F := F)) adm' (pdats m) () defs₀ 𝒱' L' lv' 0 where
  win := launch0.win.to₀
  block_pos := launch0.block_pos
  stage_whole := launch0.stage_whole
  K := PEmpty
  osem k := k.elim
  ho := Pipeline.OwnSemFacts.none _
  hbody c := (body_obligation0 (tcv (U0 m)) c).loose
  hwaits := Pipeline.hwaits_of_owed_zero _ _ _ _ L' lv' 0 fun _ _ => rfl
  pre c := iprop(StableHlo.held (c : Thread nD τ) (Pipeline.ucRefs τ sig) (U0 m c) ∗ Rst c)
  post c := iprop(StableHlo.held (c : Thread nD τ) (Pipeline.ucRefs τ sig) (U1 m c) ∗ Rst c)
  X c := iprop(∃ r, prngReg c r)
  Y c := iprop(∃ r, prngReg c r)
  Z c := Pipeline.unscopedRest (Ix := Unit) (Name := ℕ) (U := UR sig nD τ) (Lvl := ℕ) spec0 c (tcv (U0 m) c)
  hentry c := by
    rw [Pipeline.ownSems0_none]
    have hsplit := Pipeline.arrays_of_unscopedBufs (p := 0) (pcfgs (F := F)) adm' (pdats m) launch0.win launch0.arr_whole c
      ((pdats m 0 c).share_full fun _ => rfl) (tcv (U0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (tcv (U0 m) c) (tcv (U1 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- At region 1's exit each of its arrays holds what the pipeline leaves there: an input what it held, the result its
    assembled write-backs. -/
theorem hF1 (c : Dev nD) : ∀ w : Fin cfg1.W, (dat1 (tcv (U4 m)) c).arrAt w cfg1.N = tcv (U5 m) c (Pipeline.arrRef spec1 w)
  | ⟨0, _⟩ => ((dat1 (tcv (U4 m)) c).arrAt_in 0 rfl _).trans ((A_eq1 (tcv (U4 m)) c 0).trans (U5_of_ne m c main_v15 (by decide)).symm)
  | ⟨1, _⟩ => ((dat1 (tcv (U4 m)) c).arrAt_in 1 rfl _).trans ((A_eq1 (tcv (U4 m)) c 1).trans (U5_of_ne m c main_v16 (by decide)).symm)
  | ⟨2, _⟩ => (U5_self m c).symm

/-- Every other buffer holds what it held at entry. -/
theorem hrest1 (c : Dev nD) : ∀ b, b ∉ Finset.univ.image (Pipeline.arrRef spec1) → tcv (U5 m) c b = tcv (U4 m) c b :=
  fun b hb => U5_of_ne m c b fun e => hb (Finset.mem_image.mpr ⟨2, Finset.mem_univ _, e.symm⟩)

set_option backward.isDefEq.respectTransparency.types false in
/-- Region 1 over the thread state "every unscoped buffer at the item's contents, the generator register at some state,
    nothing owed": its arrays are split out of the unscoped buffers at entry and put back at the exit contents; the
    generator register goes into the region's invariant and comes back; the kernel has no semaphore of its own. -/
def reg1 : Pipeline.RegionSeg (pcfgs (F := F)) adm' (pdats m) () defs₀ 𝒱' L' lv' 1 where
  win := launch1.win.to₀
  block_pos := launch1.block_pos
  stage_whole := launch1.stage_whole
  K := PEmpty
  osem k := k.elim
  ho := Pipeline.OwnSemFacts.none _
  hbody c := (body_obligation1 (tcv (U4 m)) c).loose
  hwaits := Pipeline.hwaits_of_owed_zero _ _ _ _ L' lv' 1 fun _ _ => rfl
  pre c := iprop(StableHlo.held (c : Thread nD τ) (Pipeline.ucRefs τ sig) (U4 m c) ∗ Rst c)
  post c := iprop(StableHlo.held (c : Thread nD τ) (Pipeline.ucRefs τ sig) (U5 m c) ∗ Rst c)
  X c := iprop(∃ r, prngReg c r)
  Y c := iprop(∃ r, prngReg c r)
  Z c := Pipeline.unscopedRest (Ix := Unit) (Name := ℕ) (U := UR sig nD τ) (Lvl := ℕ) spec1 c (tcv (U4 m) c)
  hentry c := by
    rw [Pipeline.ownSems0_none]
    have hsplit := Pipeline.arrays_of_unscopedBufs (p := 1) (pcfgs (F := F)) adm' (pdats m) launch1.win launch1.arr_whole c
      ((pdats m 1 c).share_full fun _ => rfl) (tcv (U4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (tcv (U4 m) c) (tcv (U5 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- At region 2's exit each of its arrays holds what the pipeline leaves there: an input what it held, the result its
    assembled write-backs. -/
theorem hF2 (c : Dev nD) : ∀ w : Fin cfg2.W, (dat2 (tcv (U6 m)) c).arrAt w cfg2.N = tcv (U7 m) c (Pipeline.arrRef spec2 w)
  | ⟨0, _⟩ => ((dat2 (tcv (U6 m)) c).arrAt_in 0 rfl _).trans ((A_eq2 (tcv (U6 m)) c 0).trans (U7_of_ne m c main_v34 (by decide)).symm)
  | ⟨1, _⟩ => ((dat2 (tcv (U6 m)) c).arrAt_in 1 rfl _).trans ((A_eq2 (tcv (U6 m)) c 1).trans (U7_of_ne m c main_arg7 (by decide)).symm)
  | ⟨2, _⟩ => ((dat2 (tcv (U6 m)) c).arrAt_in 2 rfl _).trans ((A_eq2 (tcv (U6 m)) c 2).trans (U7_of_ne m c main_v35 (by decide)).symm)
  | ⟨3, _⟩ => (U7_self m c).symm

/-- Every other buffer holds what it held at entry. -/
theorem hrest2 (c : Dev nD) : ∀ b, b ∉ Finset.univ.image (Pipeline.arrRef spec2) → tcv (U7 m) c b = tcv (U6 m) c b :=
  fun b hb => U7_of_ne m c b fun e => hb (Finset.mem_image.mpr ⟨3, Finset.mem_univ _, e.symm⟩)

set_option backward.isDefEq.respectTransparency.types false in
/-- Region 2 over the thread state "every unscoped buffer at the item's contents, the generator register at some state,
    nothing owed": its arrays are split out of the unscoped buffers at entry and put back at the exit contents; the
    generator register goes into the region's invariant and comes back; the kernel has no semaphore of its own. -/
def reg2 : Pipeline.RegionSeg (pcfgs (F := F)) adm' (pdats m) () defs₀ 𝒱' L' lv' 2 where
  win := launch2.win.to₀
  block_pos := launch2.block_pos
  stage_whole := launch2.stage_whole
  K := PEmpty
  osem k := k.elim
  ho := Pipeline.OwnSemFacts.none _
  hbody c := (body_obligation2 (tcv (U6 m)) c).loose
  hwaits := Pipeline.hwaits_of_owed_zero _ _ _ _ L' lv' 2 fun _ _ => rfl
  pre c := iprop(StableHlo.held (c : Thread nD τ) (Pipeline.ucRefs τ sig) (U6 m c) ∗ Rst c)
  post c := iprop(StableHlo.held (c : Thread nD τ) (Pipeline.ucRefs τ sig) (U7 m c) ∗ Rst c)
  X c := iprop(∃ r, prngReg c r)
  Y c := iprop(∃ r, prngReg c r)
  Z c := Pipeline.unscopedRest (Ix := Unit) (Name := ℕ) (U := UR sig nD τ) (Lvl := ℕ) spec2 c (tcv (U6 m) c)
  hentry c := by
    rw [Pipeline.ownSems0_none]
    have hsplit := Pipeline.arrays_of_unscopedBufs (p := 2) (pcfgs (F := F)) adm' (pdats m) launch2.win launch2.arr_whole c
      ((pdats m 2 c).share_full fun _ => rfl) (tcv (U6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m) ((pdats m 2 c).share_full fun _ => rfl)
      (tcv (U6 m) c) (tcv (U7 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4 -/

/-- At region 4's exit each of its arrays holds what the pipeline leaves there: an input what it held, the result its
    assembled write-backs. -/
theorem hF4 (c : Dev nD) : ∀ w : Fin cfg4.W, (dat4 (tcv (U10 m)) c).arrAt w cfg4.N = tcv (U11 m) c (Pipeline.arrRef spec4 w)
  | ⟨0, _⟩ => ((dat4 (tcv (U10 m)) c).arrAt_in 0 rfl _).trans ((A_eq4 (tcv (U10 m)) c 0).trans (U11_of_ne m c main_v37 (by decide)).symm)
  | ⟨1, _⟩ => ((dat4 (tcv (U10 m)) c).arrAt_in 1 rfl _).trans ((A_eq4 (tcv (U10 m)) c 1).trans (U11_of_ne m c main_arg9 (by decide)).symm)
  | ⟨2, _⟩ => ((dat4 (tcv (U10 m)) c).arrAt_in 2 rfl _).trans ((A_eq4 (tcv (U10 m)) c 2).trans (U11_of_ne m c main_v40 (by decide)).symm)
  | ⟨3, _⟩ => (U11_self m c).symm

/-- Every other buffer holds what it held at entry. -/
theorem hrest4 (c : Dev nD) : ∀ b, b ∉ Finset.univ.image (Pipeline.arrRef spec4) → tcv (U11 m) c b = tcv (U10 m) c b :=
  fun b hb => U11_of_ne m c b fun e => hb (Finset.mem_image.mpr ⟨3, Finset.mem_univ _, e.symm⟩)

set_option backward.isDefEq.respectTransparency.types false in
/-- Region 4 over the thread state "every unscoped buffer at the item's contents, the generator register at some state,
    nothing owed": its arrays are split out of the unscoped buffers at entry and put back at the exit contents; the
    generator register goes into the region's invariant and comes back; the kernel has no semaphore of its own. -/
def reg4 : Pipeline.RegionSeg (pcfgs (F := F)) adm' (pdats m) () defs₀ 𝒱' L' lv' 4 where
  win := launch4.win.to₀
  block_pos := launch4.block_pos
  stage_whole := launch4.stage_whole
  K := PEmpty
  osem k := k.elim
  ho := Pipeline.OwnSemFacts.none _
  hbody c := (body_obligation4 (tcv (U10 m)) c).loose
  hwaits := Pipeline.hwaits_of_owed_zero _ _ _ _ L' lv' 4 fun _ _ => rfl
  pre c := iprop(StableHlo.held (c : Thread nD τ) (Pipeline.ucRefs τ sig) (U10 m c) ∗ Rst c)
  post c := iprop(StableHlo.held (c : Thread nD τ) (Pipeline.ucRefs τ sig) (U11 m c) ∗ Rst c)
  X c := iprop(∃ r, prngReg c r)
  Y c := iprop(∃ r, prngReg c r)
  Z c := Pipeline.unscopedRest (Ix := Unit) (Name := ℕ) (U := UR sig nD τ) (Lvl := ℕ) spec4 c (tcv (U10 m) c)
  hentry c := by
    rw [Pipeline.ownSems0_none]
    have hsplit := Pipeline.arrays_of_unscopedBufs (p := 4) (pcfgs (F := F)) adm' (pdats m) launch4.win launch4.arr_whole c
      ((pdats m 4 c).share_full fun _ => rfl) (tcv (U10 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm' (Ix := Unit) (Name := ℕ) (U := UR sig nD τ) (Lvl := ℕ)
      launch4.win launch4.arr_whole c (pdats m) ((pdats m 4 c).share_full fun _ => rfl)
      (tcv (U10 m) c) (tcv (U11 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Reg3.lean ====
/-
  The decoder's region as an item of the program.

  Its two input windows look at ONE buffer, the matrix mu. At entry that buffer's full share is cut in two, the left half
  for the window that reads row blocks and the right half for the window that reads the blocks to be transposed; at exit
  the two halves, still at the same contents, are put together again, so that the next region finds the matrix whole.
-/
import proofs.«106472_j56616258896068_2_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers behind the region's arrays -/

/-- The region's three windows look at two buffers. -/
theorem arrImg3 : Finset.univ.image (Pipeline.arrRef spec3) = insert main_v37 ({main_v39} : Finset (Ref sig .tc)) := by
  ext b
  simp only [Finset.mem_image, Finset.mem_univ, true_and, Finset.mem_insert, Finset.mem_singleton]
  constructor
  · rintro ⟨w, rfl⟩
    match w with
    | ⟨0, _⟩ => exact Or.inl rfl
    | ⟨1, _⟩ => exact Or.inl rfl
    | ⟨2, _⟩ => exact Or.inr rfl
  · rintro (rfl | rfl)
    · exact ⟨0, rfl⟩
    · exact ⟨2, rfl⟩

section Shares

variable {c : Dev nD} (dat : Dat τ (Elt F) Unit ℕ (UR sig nD τ) ℕ cfg3 c)
  (hq0 : dat.q 0 = fullShare.left) (hq1 : dat.q 1 = fullShare.right)

include hq0 in
theorem share3_0 : dat.share 0 = fullShare.left := by
  unfold Dat.share; split
  · rename_i h; exact absurd h (by decide)
  · exact hq0
include hq1 in
theorem share3_1 : dat.share 1 = fullShare.right := by
  unfold Dat.share; split
  · rename_i h; exact absurd h (by decide)
  · exact hq1
theorem share3_2 : dat.share 2 = fullShare := by
  unfold Dat.share; split
  · rfl
  · rename_i h; exact absurd (by decide) h

include hq0 hq1 in
/-- The two buffers behind the arrays, each whole at contents V, ARE the three windows' arrays at those contents: the
    shared buffer's full share is the left half and the right half together. -/
theorem arrBufs3_iff (V : (b : Ref sig .tc) → Buf (Elt F) ((c : Thread nD τ).loc b)) :
    (Pipeline.arrBufs (Ix := Unit) (Name := ℕ) (U := UR sig nD τ) (Lvl := ℕ) spec3 c V : sProp 𝕄)
      ⊣⊢ dat.arrays (fun w => V (Pipeline.arrRef spec3 w)) := by
  unfold Pipeline.arrBufs Dat.arrays
  rw [arrImg3, bigSep_insert (by decide), bigSep_singleton, bigSep_W3,
    (arr_whole3 0).set_eq_univ, (arr_whole3 2).set_eq_univ,
    share3_0 dat hq0, share3_1 dat hq1, share3_2 dat]
  constructor
  · show iprop(_ ∗ _) ⊢ _
    iintro ⟨H0, H2⟩
    ihave H0' := (pointsTo_share (PosShare.mem_left_op_right fullShare)).1 $$ H0
    icases H0' with ⟨Hl, Hr⟩
    isplitl [Hl]; · iexact Hl
    isplitl [Hr]; · iexact Hr
    iexact H2
  · show _ ⊢ iprop(_ ∗ _)
    iintro ⟨Hl, Hr, H2⟩
    isplitl [Hl Hr]
    · iapply (pointsTo_share (PosShare.mem_left_op_right fullShare)).2
      isplitl [Hl]; · iexact Hl
      iexact Hr
    iexact H2

end Shares

/-! ## Region 3 -/

theorem hF3 (c : Dev nD) : ∀ w : Fin cfg3.W, (dat3 (tcv (U8 m)) c).arrAt w cfg3.N = tcv (U9 m) c (Pipeline.arrRef spec3 w)
  | ⟨0, _⟩ => ((dat3 (tcv (U8 m)) c).arrAt_in 0 rfl _).trans ((A_eq3 (tcv (U8 m)) c 0).trans (U9_of_ne m c main_v37 (by decide)).symm)
  | ⟨1, _⟩ => ((dat3 (tcv (U8 m)) c).arrAt_in 1 rfl _).trans ((A_eq3 (tcv (U8 m)) c 1).trans (U9_of_ne m c main_v37 (by decide)).symm)
  | ⟨2, _⟩ => (U9_self m c).symm

theorem hrest3 (c : Dev nD) : ∀ b, b ∉ Finset.univ.image (Pipeline.arrRef spec3) → tcv (U9 m) c b = tcv (U8 m) c b :=
  fun b hb => U9_of_ne m c b fun e => hb (Finset.mem_image.mpr ⟨2, Finset.mem_univ _, e.symm⟩)

/-- The windows' arrays are unscoped buffers. -/
theorem arr_unscoped3 : ∀ w, (Pipeline.arrRef spec3 w).isScoped = false := winFacts₀3.arr_unscoped

set_option backward.isDefEq.respectTransparency.types false in
/-- The decoder's region over the thread state "every unscoped buffer at the item's contents, the generator register at
    some state, nothing owed". -/
def reg3 : Pipeline.RegionSeg (pcfgs (F := F)) adm' (pdats m) () defs₀ 𝒱' L' lv' 3 where
  win := winFacts₀3
  block_pos := block_pos3
  stage_whole := stage_whole3
  K := PEmpty
  osem k := k.elim
  ho := Pipeline.OwnSemFacts.none _
  hbody c := (body_obligation3 (tcv (U8 m)) c).loose
  hwaits := Pipeline.hwaits_of_owed_zero _ _ _ _ L' lv' 3 fun _ _ => rfl
  pre c := iprop(StableHlo.held (c : Thread nD τ) (Pipeline.ucRefs τ sig) (U8 m c) ∗ Rst c)
  post c := iprop(StableHlo.held (c : Thread nD τ) (Pipeline.ucRefs τ sig) (U9 m c) ∗ Rst c)
  X c := iprop(∃ r, prngReg c r)
  Y c := iprop(∃ r, prngReg c r)
  Z c := Pipeline.unscopedRest (Ix := Unit) (Name := ℕ) (U := UR sig nD τ) (Lvl := ℕ) spec3 c (tcv (U8 m) c)
  hentry c := by
    rw [Pipeline.ownSems0_none]
    have hsplit : (StableHlo.held (c : Thread nD τ) (Pipeline.ucRefs τ sig) (U8 m c) : sProp 𝕄)
        ⊢ iprop((pdats m 3 c).arrays ((pdats m 3 c).arrAt · 0)
            ∗ Pipeline.unscopedRest (Ix := Unit) (Name := ℕ) (U := UR sig nD τ) (Lvl := ℕ) spec3 c (tcv (U8 m) c)) := by
      rw [← Pipeline.unscopedBufs_held (Ix := Unit) (Name := ℕ) (U := UR sig nD τ) (Lvl := ℕ) c (U8 m c),
        Pipeline.unscopedBufs_split₀ (Ix := Unit) (Name := ℕ) (U := UR sig nD τ) (Lvl := ℕ) cfgs 3 arr_unscoped3 c (tcv (U8 m) c)]
      exact sep_mono (arrBufs3_iff (dat3 (tcv (U8 m)) c) rfl rfl (tcv (U8 m) c)).1 .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m 3 c).arrays ((pdats m 3 c).arrAt · cfg3.N)
          ∗ Pipeline.unscopedRest (Ix := Unit) (Name := ℕ) (U := UR sig nD τ) (Lvl := ℕ) spec3 c (tcv (U8 m) c))
        ⊢ (StableHlo.held (c : Thread nD τ) (Pipeline.ucRefs τ sig) (U9 m c) : sProp 𝕄) := by
      rw [← Pipeline.unscopedBufs_held (Ix := Unit) (Name := ℕ) (U := UR sig nD τ) (Lvl := ℕ) c (U9 m c),
        Pipeline.unscopedBufs_split₀ (Ix := Unit) (Name := ℕ) (U := UR sig nD τ) (Lvl := ℕ) cfgs 3 arr_unscoped3 c (tcv (U9 m) c),
        show ((pdats m 3 c).arrAt · cfg3.N) = (fun w => tcv (U9 m) c (Pipeline.arrRef spec3 w)) from funext (hF3 m c)]
      refine sep_mono (arrBufs3_iff (dat3 (tcv (U8 m)) c) rfl rfl (tcv (U9 m) c)).2 (Entails.of_eq ?_)
      unfold Pipeline.unscopedRest
      exact bigSep_congr fun b hb => by rw [hrest3 m c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KI.Run.lean ====
/-
  The run of the whole program, and what its final memory holds.

  The eleven items are chained: each is entered from the thread state the one before it left — every unscoped buffer at
  the item's contents, the generator register at some state, nothing owed. Every weakly fair execution therefore
  terminates without a fault in a state whose unscoped buffers hold the last contents U11. Two things are read off
  that: no item writes an argument, so each argument ends as launched; and each result buffer ends at the contents its
  producing item left.
-/
import proofs.«106472_j56616258896068_2_alg».proof.Proof.KI.Regs
import proofs.«106472_j56616258896068_2_alg».proof.Proof.KI.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The items -/

/-- A stretch of host operations as an item: over the unscoped buffers from contents W, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱' L' lv' :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-- The program's eleven items in order. -/
abbrev items : List (Pipeline.Seg (pcfgs (F := F)) adm' (pdats m) () defs₀ 𝒱' L' lv') :=
  [ .region (reg0 m),
    .host (hseg hostOps1 hostOps1_sub hostOps1_fresh (U1 m)),
    .host (hseg hostOps1_1 hostOps1_1_sub hostOps1_1_fresh (U2 m)),
    .host (hseg hostOps1_2 hostOps1_2_sub hostOps1_2_fresh (U3 m)),
    .region (reg1 m),
    .host (hseg hostOps2 hostOps2_sub hostOps2_fresh (U5 m)),
    .region (reg2 m),
    .host (hseg hostOps3 hostOps3_sub hostOps3_fresh (U7 m)),
    .region (reg3 m),
    .host (hseg hostOps4 hostOps4_sub hostOps4_fresh (U9 m)),
    .region (reg4 m) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The run -/

set_option backward.isDefEq.respectTransparency.types false in
/-- Every weakly fair execution of the program from memory m with zero counters terminates, nothing faulting, and every
    unscoped buffer of every core ends at the last contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = U11 m c b) := by
  refine Pipeline.θ_run_regions_kit_dev (pcfgs (F := F)) adm' (pdats m) () cellOf_inj emb₁ defs₀ 𝒱' L' lv' m ρ main
    (fun _ => items m)
    (fun c Q => by
      rewrite [main_chain c, Seg.run_eq_chain,
        show (items m).map Seg.prog = [
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (fun c => by simp only [items, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ Rst c))
    (Tₙ := fun c => iprop(StableHlo.held (c : Thread nD τ) (Pipeline.ucRefs τ sig) (U11 m c) ∗ ∃ r, prngReg c r))
    (hch := fun c => ⟨.rfl, .rfl, .rfl, .rfl, .rfl, .rfl, .rfl, .rfl, .rfl, .rfl, .rfl, by
      show iprop(StableHlo.held (c : Thread nD τ) (Pipeline.ucRefs τ sig) (U11 m c) ∗ Rst c) ⊢ _
      iintro ⟨Hh, Hp, Ho⟩
      isplitl [Hh Hp]
      · isplitl [Hh]; · iexact Hh
        iexact Hp
      iexact Ho⟩)
    (hinit := by
      refine Pipeline.initEach L' lv' fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U11 m c b)
    (hfin := fun c s' => by
      iintro ⟨⟨Hh, -⟩, HSI⟩
      unfold StableHlo.held
      imodintro
      iapply (pointsTo_read_all (Pipeline.ucRefs τ sig) (fun b => (((c : Thread nD τ)).1, b)) (U11 m c) s')
      isplitl [Hh] <;> iassumption)
    (hQ := fun _ h => h)

/-! ## What the final memory holds -/

/-- An argument's buffer is never written: at the return it holds the launch contents. -/
theorem U11_arg (c : Dev nD) (r : Ref sig .tc) (h : V11 m (outs m) c r = m ((c : Thread nD τ).loc r)) :
    U11 m c r = m ((c : Thread nD τ).loc r) := (congrFun (V11_eq m c).symm _).trans h

/-- THE FRAME, at any float instance: the program runs to the end without a fault and every argument ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (U11_arg m c main_arg0 (V11_main_arg0 m (outs m) c)),
    (h c _ (mem_uc main_arg1 (by decide))).trans (U11_arg m c main_arg1 (V11_main_arg1 m (outs m) c)),
    (h c _ (mem_uc main_arg2 (by decide))).trans (U11_arg m c main_arg2 (V11_main_arg2 m (outs m) c)),
    (h c _ (mem_uc main_arg3 (by decide))).trans (U11_arg m c main_arg3 (V11_main_arg3 m (outs m) c)),
    (h c _ (mem_uc main_arg4 (by decide))).trans (U11_arg m c main_arg4 (V11_main_arg4 m (outs m) c)),
    (h c _ (mem_uc main_arg5 (by decide))).trans (U11_arg m c main_arg5 (V11_main_arg5 m (outs m) c)),
    (h c _ (mem_uc main_arg6 (by decide))).trans (U11_arg m c main_arg6 (V11_main_arg6 m (outs m) c)),
    (h c _ (mem_uc main_arg7 (by decide))).trans (U11_arg m c main_arg7 (V11_main_arg7 m (outs m) c)),
    (h c _ (mem_uc main_arg8 (by decide))).trans (U11_arg m c main_arg8 (V11_main_arg8 m (outs m) c)),
    (h c _ (mem_uc main_arg9 (by decide))).trans (U11_arg m c main_arg9 (V11_main_arg9 m (outs m) c)),
    (h c _ (mem_uc main_arg10 (by decide))).trans (U11_arg m c main_arg10 (V11_main_arg10 m (outs m) c))⟩) (run_all m ρ)

/-- THE RESULTS: the same run, with the four result buffers at the contents their producing items left and the arguments
    as launched. -/
theorem results (ρ : Dev nD → PrngReg) :
    θ_run defs (onTc (τ := τ) (main (F := F))) ⟨m, fun _ => 0, ρ⟩ (fun r => ∀ c : Dev nD,
      r.2.mem ((c.tc : Thread nD τ).loc main_v39) = U11 m c main_v39
      ∧ r.2.mem ((c.tc : Thread nD τ).loc main_v41) = U11 m c main_v41
      ∧ r.2.mem ((c.tc : Thread nD τ).loc main_v37) = U11 m c main_v37
      ∧ r.2.mem ((c.tc : Thread nD τ).loc main_v38) = U11 m c main_v38
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v39 (by decide)), h c _ (mem_uc main_v41 (by decide)),
    h c _ (mem_uc main_v37 (by decide)), h c _ (mem_uc main_v38 (by decide)),
    (h c _ (mem_uc main_arg0 (by decide))).trans (U11_arg m c main_arg0 (V11_main_arg0 m (outs m) c)),
    (h c _ (mem_uc main_arg1 (by decide))).trans (U11_arg m c main_arg1 (V11_main_arg1 m (outs m) c)),
    (h c _ (mem_uc main_arg2 (by decide))).trans (U11_arg m c main_arg2 (V11_main_arg2 m (outs m) c)),
    (h c _ (mem_uc main_arg3 (by decide))).trans (U11_arg m c main_arg3 (V11_main_arg3 m (outs m) c)),
    (h c _ (mem_uc main_arg4 (by decide))).trans (U11_arg m c main_arg4 (V11_main_arg4 m (outs m) c)),
    (h c _ (mem_uc main_arg5 (by decide))).trans (U11_arg m c main_arg5 (V11_main_arg5 m (outs m) c)),
    (h c _ (mem_uc main_arg6 (by decide))).trans (U11_arg m c main_arg6 (V11_main_arg6 m (outs m) c)),
    (h c _ (mem_uc main_arg7 (by decide))).trans (U11_arg m c main_arg7 (V11_main_arg7 m (outs m) c)),
    (h c _ (mem_uc main_arg8 (by decide))).trans (U11_arg m c main_arg8 (V11_main_arg8 m (outs m) c)),
    (h c _ (mem_uc main_arg9 (by decide))).trans (U11_arg m c main_arg9 (V11_main_arg9 m (outs m) c)),
    (h c _ (mem_uc main_arg10 (by decide))).trans (U11_arg m c main_arg10 (V11_main_arg10 m (outs m) c))⟩) (run_all m ρ)

end Cert.KernelIdeal.Gen

end
-- ==== Proof.LibRowGather.lean ====
/-
  Picking rows by an array of integers.

  What `x[idx]` lowers to when `idx` is a vector of R integers presented as an [R, 1] array of start indices: a
  gather that collapses the operand's first axis, takes slices of one row, and reads the one component of each start
  index along the second axis of the start indices. Two operand ranks occur: a vector of N numbers (the result is a
  vector of R numbers) and an N-by-C matrix (the result is the R-by-C matrix of the picked rows). In both, result
  row p reads operand row `clampRow N (idx[p, 0])`: the start index read as a signed integer and clamped into
  [0, N - 1], so a negative index reads row 0 and an index past the end reads the last row. Consequently a quantity
  computed row by row from a matrix, then picked, is the same quantity computed from the picked rows.
-/
import Idealize.ShloMosaic.PureOps.ShapeOps
import Idealize.ShloMosaic.PureOps.Dims
import Idealize.ShloMosaic.Lib.ValueIdx

noncomputable section

namespace Cert.Lib.RowGather

open Idealize.ShloMosaic Idealize.ShloMosaic.ValueIdx

/-- The operand row a start index word selects among N rows: the word read signed, clamped into [0, N - 1]. -/
def clampRow (N : Nat) (hN : 0 < N) {w : Nat} (v : BitVec w) : Fin N := ⟨min v.toInt.toNat (N - 1), by omega⟩

/-- The dimension numbers of picking entries of a vector of N numbers by an [R, 1] array of start indices. -/
abbrev pickDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The dimension numbers of picking rows of an N-by-C matrix by an [R, 1] array of start indices. -/
abbrev pickRowsDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry p of the picked vector is the operand's entry at the clamped p-th start index. -/
theorem pick_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (p : Fin R) :
    Host.gather (pickDims N R wf) x idx (ix1 p)
      = x (ix1 (clampRow N hN (idx (ix2 (n0 := R) (n1 := 1) p ⟨0, Nat.one_pos⟩)))) := by
  unfold Host.gather
  congr 1
  funext a
  obtain rfl : a = 0 := Subsingleton.elim _ _
  refine Fin.ext ?_
  show (pickDims N R wf).start (ix1 p) idx 0 + (pickDims N R wf).batchCoord (ix1 p) 0 + (pickDims N R wf).offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (pickDims N R wf).startIndexMap from List.mem_singleton.mpr rfl)]
  have hsi : (pickDims N R wf).siIdx (ix1 p) ⟨List.idxOf (0 : Fin 1) (pickDims N R wf).startIndexMap,
      List.idxOf_lt_length_iff.2 (List.mem_singleton.mpr rfl)⟩ = ix2 (n0 := R) (n1 := 1) p ⟨0, Nat.one_pos⟩ := by
    funext b; refine Fin.ext ?_
    match b with
    | ⟨0, _⟩ => rfl
    | ⟨1, _⟩ => rfl
  rw [hsi]
  rfl

/-- Entry (p, q) of the picked rows is the operand's entry in column q of the row at the clamped p-th start index. -/
theorem pickRows_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (p : Fin R) (q : Fin C) :
    Host.gather (pickRowsDims N C R wf) x idx (ix2 p q)
      = x (ix2 (clampRow N hN (idx (ix2 (n0 := R) (n1 := 1) p ⟨0, Nat.one_pos⟩))) q) := by
  have key0 : (pickRowsDims N C R wf).start (ix2 p q) idx (0 : Fin 2) + (pickRowsDims N C R wf).batchCoord (ix2 p q) (0 : Fin 2)
      + (pickRowsDims N C R wf).offCoord (ix2 p q) (0 : Fin 2)
      = (clampRow N hN (idx (ix2 (n0 := R) (n1 := 1) p ⟨0, Nat.one_pos⟩))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (pickRowsDims N C R wf).startIndexMap from List.mem_singleton.mpr rfl)]
    have hsi : (pickRowsDims N C R wf).siIdx (ix2 p q) ⟨List.idxOf (0 : Fin 2) (pickRowsDims N C R wf).startIndexMap,
        List.idxOf_lt_length_iff.2 (List.mem_singleton.mpr rfl)⟩ = ix2 (n0 := R) (n1 := 1) p ⟨0, Nat.one_pos⟩ := by
      funext b; refine Fin.ext ?_
      match b with
      | ⟨0, _⟩ => rfl
      | ⟨1, _⟩ => rfl
    rw [hsi]
    rfl
  have h1m : ¬ (1 : Fin 2) ∈ (pickRowsDims N C R wf).startIndexMap := by
    show ¬ (1 : Fin 2) ∈ ([0] : List (Fin 2)); decide
  have h1c : ¬ (1 : Fin 2) ∈ (pickRowsDims N C R wf).collapsedSliceDims := by
    show ¬ (1 : Fin 2) ∈ ([0] : List (Fin 2)); decide
  have h1k : (1 : Fin 2) ∈ (pickRowsDims N C R wf).sKept := (GatherDims.mem_sKept _ _).mpr ⟨h1c, List.not_mem_nil⟩
  have key1 : (pickRowsDims N C R wf).start (ix2 p q) idx (1 : Fin 2) + (pickRowsDims N C R wf).batchCoord (ix2 p q) (1 : Fin 2)
      + (pickRowsDims N C R wf).offCoord (ix2 p q) (1 : Fin 2) = q.val := by
    rw [GatherDims.batchCoord_eq_zero _ _ _ List.not_mem_nil]
    unfold GatherDims.start
    rw [dif_neg h1m]
    unfold GatherDims.offCoord
    rw [dif_pos h1k]
    simp only [Nat.add_zero, Nat.zero_add]
    rfl
  unfold Host.gather
  congr 1
  funext a
  refine Fin.ext ?_
  match a with
  | ⟨0, _⟩ => exact key0
  | ⟨1, _⟩ => exact key1

end Cert.Lib.RowGather

end
-- ==== Proof.Spec.lean ====
/-
  The mathematics both programs compute, entry by entry, on extended reals.

  A graph-convolutional encoder and an inner-product decoder.  With A the sparse N×N matrix whose e-th
  stored entry has value vals[e], row label rows[e] and column label cols[e], and `A ⊙ S` its product
  with a dense matrix S taken one stored entry at a time,

      hidden = max (A ⊙ (x · W1)) 0
      mu0    = A ⊙ (hidden · W2)          logvar0 = A ⊙ (hidden · W3)
      mu     = mu0 · Wd + bd              logvar  = logvar0 · Wd + bd
      adj    = mu · muᵀ                   out6    = mu · We + be

  Every operation below is stated per entry, as a function of row and column coordinates, so that a
  re-tiling of a product, a side-by-side concatenation of two weight matrices, or a stacking of two
  operands on the row axis is visibly the same entry.
-/
import Idealize.ShloMosaic.PureOps.Ideal
import Idealize.ShloMosaic.Lib.ValueIdx
import proofs.«106472_j56616258896068_2_alg».proof.Proof.LibRowGather

noncomputable section

namespace Cert.Spec

open Idealize.ShloMosaic Idealize.ShloMosaic.ValueIdx Cert.Lib.RowGather

/-- An M×N matrix of extended reals, as a function of its index. -/
abbrev Mat (M N : Nat) : Type := (⟨2, ![M, N]⟩ : Shape).Idx → EReal
/-- A vector of N extended reals. -/
abbrev Vec1 (N : Nat) : Type := (⟨1, ![N]⟩ : Shape).Idx → EReal
/-- A column of E 32-bit labels, one per stored entry of the sparse matrix. -/
abbrev Labels (E : Nat) : Type := IVec (⟨2, ![E, 1]⟩ : Shape) 32

/-- A matrix from its entries by row and column. -/
def mat {M N : Nat} (f : Fin M → Fin N → EReal) : Mat M N := fun i => f (i 0) (i 1)

@[simp] theorem mat_ix2 {M N : Nat} (f : Fin M → Fin N → EReal) (p : Fin M) (q : Fin N) : mat f (ix2 p q) = f p q := rfl

theorem mat_apply {M N : Nat} (f : Fin M → Fin N → EReal) (i : (⟨2, ![M, N]⟩ : Shape).Idx) : mat f i = f (i 0) (i 1) := rfl

/-- Two matrices with the same entries at every pair of coordinates are equal. -/
theorem mat_ext {M N : Nat} {A B : Mat M N} (h : ∀ (p : Fin M) (q : Fin N), A (ix2 p q) = B (ix2 p q)) : A = B := by
  funext i; rw [eq_ix2 i]; exact h _ _

/-- The product A · B: entry (p, q) is the sum over k of A[p, k] · B[k, q]. -/
def mm {M K N : Nat} (A : Mat M K) (B : Mat K N) : Mat M N :=
  mat fun p q => ∑ k : Fin K, A (ix2 p k) * B (ix2 k q)

/-- The product A · Bᵀ: entry (p, q) is the sum over k of A[p, k] · B[q, k]. -/
def mmT {M K N : Nat} (A : Mat M K) (B : Mat N K) : Mat M N :=
  mat fun p q => ∑ k : Fin K, A (ix2 p k) * B (ix2 q k)

/-- The rectifier, entry by entry. -/
def relu {M N : Nat} (A : Mat M N) : Mat M N := fun i => max (A i) 0

/-- One bias row added to every row. -/
def addRow {M N : Nat} (A : Mat M N) (b : Vec1 N) : Mat M N :=
  mat fun p q => A (ix2 p q) + b (ix1 q)

/-- The sparse product A ⊙ S, one stored entry at a time: entry (r, c) is the sum, over the stored entries e
    whose row label read as a signed integer is r, of vals[e] times S at column c of the row the e-th column
    label selects (that label read signed and clamped into [0, N-1], as a gather reads it).  A row label outside
    [0, N) names no row: its term is dropped. -/
def spmm {E N D : Nat} (hN : 0 < N) (gi si : Labels E) (vals : Vec1 E) (S : Mat N D) : Mat N D :=
  mat fun r c => ∑ e : Fin E,
    if (si (ix2 e (0 : Fin 1))).toInt = (r.val : Int)
    then vals (ix1 e) * S (ix2 (clampRow N hN (gi (ix2 e (0 : Fin 1)))) c) else 0

section Model

variable {E N : Nat} (hN : 0 < N) (gi si : Labels E) (vals : Vec1 E)
variable (x : Mat N 512) (W1 : Mat 512 256) (W2 W3 : Mat 256 128) (Wd : Mat 128 64) (bd : Vec1 64) (We : Mat 64 6) (be : Vec1 6)

/-- The first layer's activations. -/
def hidden : Mat N 256 := relu (spmm hN gi si vals (mm x W1))
/-- The mean head before its affine map, -/
def mu0 : Mat N 128 := spmm hN gi si vals (mm (hidden hN gi si vals x W1) W2)
/-- and the log-variance head before its. -/
def logvar0 : Mat N 128 := spmm hN gi si vals (mm (hidden hN gi si vals x W1) W3)
/-- The mean, -/
def mu : Mat N 64 := addRow (mm (mu0 hN gi si vals x W1 W2) Wd) bd
/-- the log-variance, -/
def logvar : Mat N 64 := addRow (mm (logvar0 hN gi si vals x W1 W3) Wd) bd
/-- the decoded adjacency mu · muᵀ, -/
def adj : Mat N N := mmT (mu hN gi si vals x W1 W2 Wd bd) (mu hN gi si vals x W1 W2 Wd bd)
/-- and the six-way output head. -/
def out6 : Mat N 6 := addRow (mm (mu hN gi si vals x W1 W2 Wd bd) We) be

end Model

end Cert.Spec

end
-- ==== Proof.LibSegmentRows.lean ====
/-
  The accumulating scatter of the rows of a matrix of updates into the rows of a matrix that a column of integer
  labels names (a segment sum of rows: result row r is the operand's row r plus the sum of the update rows whose
  label is r), read at an entry of the result.
-/
import Idealize.ShloMosaic.Lib.ValueIdx
import Idealize.ShloMosaic.PureOps.Ideal

open scoped BigOperators

namespace Cert.Lib.SegmentRows

open Idealize.ShloMosaic Idealize.ShloMosaic.ValueIdx

/-- The scatter dimension numbers of a segment sum of rows: an operand `[N, D]`, scatter indices `[K, 1]` (one
    label per update row, the index vector on the last axis), updates `[K, D]`; the updates' second axis is the
    window (a whole row), the operand's first axis is inserted and named by the one index component. Their
    conditions `wf` are decided on a program's literal shapes. -/
abbrev segRowsDims (N K D : Nat) (wf : ScatterDims.WF ⟨2, ![N, D]⟩ ⟨2, ![K, 1]⟩ ⟨2, ![K, D]⟩ [1] [0] [0] 1) :
    ScatterDims ⟨2, ![N, D]⟩ ⟨2, ![K, 1]⟩ ⟨2, ![K, D]⟩ where
  updateWindowDims := [1]
  insertedWindowDims := [0]
  scatterDimsToOperandDims := [0]
  indexVectorDim := 1
  wf := wf

section
variable {N K D w : Nat} (wf : ScatterDims.WF ⟨2, ![N, D]⟩ ⟨2, ![K, 1]⟩ ⟨2, ![K, D]⟩ [1] [0] [0] 1)
  (idx : IVec ⟨2, ![K, 1]⟩ w) (e : Fin K) (d : Fin D)

/-- On the row axis, the window of update entry `(e, d)` starts at row `e`'s label, read signed. -/
theorem segRows_start0 : (segRowsDims N K D wf).start (ix2 e d) idx (0 : Fin 2) = (idx (ix2 e (0 : Fin 1))).toInt := by
  unfold ScatterDims.start
  rw [dif_pos (show (0 : Fin 2) ∈ (segRowsDims N K D wf).scatterDimsToOperandDims from List.mem_singleton.mpr rfl)]
  have hsi : (segRowsDims N K D wf).siIdx (ix2 e d) ⟨List.idxOf (0 : Fin 2) (segRowsDims N K D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which no index component names, it starts at 0. -/
theorem segRows_start1 : (segRowsDims N K D wf).start (ix2 e d) idx (1 : Fin 2) = 0 := by
  unfold ScatterDims.start
  rw [dif_neg (show ¬ (1 : Fin 2) ∈ (segRowsDims N K D wf).scatterDimsToOperandDims from by
    show ¬ (1 : Fin 2) ∈ ([0] : List (Fin 2)); decide)]

/-- The row axis is inserted: no window coordinate on it. -/
theorem segRows_window0 : (segRowsDims N K D wf).window (ix2 e d) (0 : Fin 2) = 0 := by
  unfold ScatterDims.window
  rw [dif_neg]
  intro h
  have h2 := (List.mem_filter.mp h).2
  simp at h2

/-- The column axis carries the window: update entry `(e, d)` sits at column `d` of its row. -/
theorem segRows_window1 : (segRowsDims N K D wf).window (ix2 e d) (1 : Fin 2) = d.val := by
  unfold ScatterDims.window
  rw [dif_pos (show (1 : Fin 2) ∈ (segRowsDims N K D wf).sKept from by
    show (1 : Fin 2) ∈ (List.finRange 2).filter (· ∉ ([0] : List (Fin 2))); decide)]
  rfl

/-- Update entry `(e, d)` lands on operand entry `(r, c)` exactly when row `e`'s label, read signed, is `r` and
    `d` is `c`. -/
theorem segRows_resultIdx?_eq_some_iff (r : Fin N) (c : Fin D) :
    (segRowsDims N K D wf).resultIdx? (ix2 e d) idx = some (ix2 r c) ↔
      (idx (ix2 e (0 : Fin 1))).toInt = (r.val : Int) ∧ d = c := by
  have hr : r.val < N := r.isLt
  have hd : d.val < D := d.isLt
  unfold ScatterDims.resultIdx?
  by_cases hc : ∀ a, 0 ≤ (segRowsDims N K D wf).start (ix2 e d) idx a + (segRowsDims N K D wf).window (ix2 e d) a ∧
      (segRowsDims N K D wf).start (ix2 e d) idx a + (segRowsDims N K D wf).window (ix2 e d) a < (⟨2, ![N, D]⟩ : Shape).size a
  · rw [dif_pos hc]
    have h0 := hc (0 : Fin 2)
    rw [segRows_start0, segRows_window0] at h0
    constructor
    · intro h
      have h1 := congrArg Fin.val (congrFun (Option.some.inj h) (0 : Fin 2))
      have h2 : ((segRowsDims N K D wf).start (ix2 e d) idx (0 : Fin 2) + (segRowsDims N K D wf).window (ix2 e d) (0 : Fin 2)).toNat = r.val := h1
      rw [segRows_start0, segRows_window0] at h2
      have h3 := congrArg Fin.val (congrFun (Option.some.inj h) (1 : Fin 2))
      have h4 : ((segRowsDims N K D wf).start (ix2 e d) idx (1 : Fin 2) + (segRowsDims N K D wf).window (ix2 e d) (1 : Fin 2)).toNat = c.val := h3
      rw [segRows_start1, segRows_window1] at h4
      refine ⟨by omega, Fin.ext (by omega)⟩
    · rintro ⟨h, rfl⟩
      congr 1
      funext a
      refine Fin.ext ?_
      match a with
      | ⟨0, _⟩ =>
        show ((segRowsDims N K D wf).start (ix2 e d) idx (0 : Fin 2) + (segRowsDims N K D wf).window (ix2 e d) (0 : Fin 2)).toNat = r.val
        rw [segRows_start0, segRows_window0]
        omega
      | ⟨1, _⟩ =>
        show ((segRowsDims N K D wf).start (ix2 e d) idx (1 : Fin 2) + (segRowsDims N K D wf).window (ix2 e d) (1 : Fin 2)).toNat = d.val
        rw [segRows_start1, segRows_window1]
        omega
  · rw [dif_neg hc]
    constructor
    · intro h; cases h
    · rintro ⟨h, rfl⟩
      exfalso
      apply hc
      intro a
      match a with
      | ⟨0, _⟩ =>
        show 0 ≤ (segRowsDims N K D wf).start (ix2 e d) idx (0 : Fin 2) + (segRowsDims N K D wf).window (ix2 e d) (0 : Fin 2) ∧
          (segRowsDims N K D wf).start (ix2 e d) idx (0 : Fin 2) + (segRowsDims N K D wf).window (ix2 e d) (0 : Fin 2) < ((N : Nat) : Int)
        rw [segRows_start0, segRows_window0]
        omega
      | ⟨1, _⟩ =>
        show 0 ≤ (segRowsDims N K D wf).start (ix2 e d) idx (1 : Fin 2) + (segRowsDims N K D wf).window (ix2 e d) (1 : Fin 2) ∧
          (segRowsDims N K D wf).start (ix2 e d) idx (1 : Fin 2) + (segRowsDims N K D wf).window (ix2 e d) (1 : Fin 2) < ((D : Nat) : Int)
        rw [segRows_start1, segRows_window1]
        omega

end

/-- THE SEGMENT SUM OF ROWS READ AT `(r, c)`: the operand at `(r, c)` plus the sum, over the update rows whose
    label read signed is `r`, of their entry in column `c` (a label outside `[0, N)` names no row: its update row
    is dropped). -/
theorem hostScatterAdd_segRows_apply {N K D w : Nat}
    (wf : ScatterDims.WF ⟨2, ![N, D]⟩ ⟨2, ![K, 1]⟩ ⟨2, ![K, D]⟩ [1] [0] [0] 1)
    (x : (⟨2, ![N, D]⟩ : Shape).Idx → EReal) (idx : IVec ⟨2, ![K, 1]⟩ w) (upd : (⟨2, ![K, D]⟩ : Shape).Idx → EReal)
    (r : Fin N) (c : Fin D) :
    Ideal.hostScatterAdd (segRowsDims N K D wf) x idx upd (ix2 r c) =
      x (ix2 r c) + ∑ e : Fin K, if (idx (ix2 e (0 : Fin 1))).toInt = (r.val : Int) then upd (ix2 e c) else 0 := by
  unfold Ideal.hostScatterAdd
  congr 1
  rw [Finset.sum_filter, sum_idx2]
  refine Finset.sum_congr rfl fun e _ => ?_
  by_cases h : (idx (ix2 e (0 : Fin 1))).toInt = (r.val : Int)
  · rw [if_pos h]
    rw [Finset.sum_eq_single c]
    · rw [if_pos ((segRows_resultIdx?_eq_some_iff wf idx e c r c).2 ⟨h, rfl⟩)]
    · intro d _ hd
      rw [if_neg (fun h' => hd ((segRows_resultIdx?_eq_some_iff wf idx e d r c).1 h').2)]
    · intro hc; exact absurd (Finset.mem_univ c) hc
  · rw [if_neg h]
    refine Finset.sum_eq_zero fun d _ => ?_
    rw [if_neg (fun h' => h ((segRows_resultIdx?_eq_some_iff wf idx e d r c).1 h').1)]

end Cert.Lib.SegmentRows
-- ==== Proof.RefIsSpec.lean ====
/-
  The reference program computes the specification.

  Each of the reference's host operations is read at an entry and identified with one operation of the
  specification: a dot_general with the matrix product, the broadcast / gather / multiply / scatter-add group
  with the sparse product taken one stored entry at a time, the outlined maximum with the rectifier, a product
  followed by a broadcast bias with the affine map, and the product with a transposed operand with A · Bᵀ.
  The label columns of the sparse product are the reference's own integer operations on its two index arguments.
-/
import proofs.«106472_j56616258896068_2_alg».proof.Proof.Gen.ReferenceIdeal.Read
import proofs.«106472_j56616258896068_2_alg».proof.Proof.Spec
import proofs.«106472_j56616258896068_2_alg».proof.Proof.LibRowGather
import proofs.«106472_j56616258896068_2_alg».proof.Proof.LibSegmentRows

open scoped BigOperators

noncomputable section

namespace Cert.RefSide

open Cert.ReferenceIdeal Cert.ReferenceIdeal.Gen Cert.ReferenceIdeal.Read Idealize.ShloMosaic Idealize.ShloMosaic.ValueIdx
  Idealize.ShloMosaic.StableHlo Cert.Lib.RowGather Cert.Lib.SegmentRows Cert.Spec

/-- An array of 32-bit floats of shape `S`, at the extended reals. -/
abbrev FA (S : Shape) : Type := (⟨S, .f32⟩ : BufTy).Contents (Elt Ideal)
/-- An array of 32-bit integers of shape `S`. -/
abbrev IA (S : Shape) : Type := (⟨S, .i32⟩ : BufTy).Contents (Elt Ideal)

/-! ## The operations of the specification, recognised from their entries -/

/-- A matrix whose entry (p, q) is the sum over k of A at (p, k) times B at (k, q) is A · B. -/
theorem eq_mm {M K N : Nat} (A : Mat M K) (B : Mat K N) (V : Mat M N)
    (l : (⟨2, ![M, N]⟩ : Shape).Idx → Fin K → (⟨2, ![M, K]⟩ : Shape).Idx)
    (r : (⟨2, ![M, N]⟩ : Shape).Idx → Fin K → (⟨2, ![K, N]⟩ : Shape).Idx)
    (hl : ∀ p q k, l (ix2 p q) k = ix2 p k) (hr : ∀ p q k, r (ix2 p q) k = ix2 k q)
    (h : ∀ i, V i = ∑ k : Fin K, A (l i k) * B (r i k)) : V = mm A B := by
  refine mat_ext fun p q => ?_
  rw [h, mm, mat_ix2]
  refine Finset.sum_congr rfl fun k _ => ?_
  rw [hl, hr]

/-- A matrix whose entry (p, q) is A at (p, q) plus b at q is A with the row b added. -/
theorem eq_addRow {M N : Nat} (A : Mat M N) (b : Vec1 N) (V : Mat M N)
    (h : ∀ p q, V (ix2 p q) = A (ix2 p q) + b (ix1 q)) : V = addRow A b := by
  refine mat_ext fun p q => ?_
  rw [h, addRow, mat_ix2]

/-- THE SPARSE PRODUCT AS THE REFERENCE TAKES IT: the values broadcast along the rows of the picked rows,
    multiplied entry by entry with the rows of S that the gather labels pick, and scatter-added by the scatter
    labels into a matrix of zeros. -/
theorem eq_spmm {N E D : Nat} (hN : 0 < N)
    (gwf : GatherDims.WF ⟨2, ![N, D]⟩ ⟨2, ![E, 1]⟩ ⟨2, ![E, D]⟩ [1] [0] [] [0] [] 1 ![1, D])
    (swf : ScatterDims.WF ⟨2, ![N, D]⟩ ⟨2, ![E, 1]⟩ ⟨2, ![E, D]⟩ [1] [0] [0] 1)
    (gi si : Labels E) (vals : Vec1 E) (S : Mat N D)
    (valsB : Mat E D) (hvals : ∀ e d, valsB (ix2 e d) = vals (ix1 e))
    (zero : Mat N D) (hz : ∀ r c, zero (ix2 r c) = 0) :
    Host.scatterAdd (F := Ideal) (φ := .f32) (segRowsDims N E D swf) zero si
        (mulf (F := Ideal) (φ := .f32) valsB (Host.gather (pickRowsDims N D E gwf) S gi))
      = spmm hN gi si vals S := by
  refine mat_ext fun r c => ?_
  show Ideal.hostScatterAdd (segRowsDims N E D swf) zero si _ (ix2 r c) = _
  rw [hostScatterAdd_segRows_apply, hz, zero_add, spmm, mat_ix2]
  refine Finset.sum_congr rfl fun e _ => ?_
  by_cases h : (si (ix2 e (0 : Fin 1))).toInt = (r.val : Int)
  · rw [if_pos h, if_pos h]
    show valsB (ix2 e c) * Host.gather (pickRowsDims N D E gwf) S gi (ix2 e c) = _
    rw [hvals, pickRows_apply hN]
    rfl
  · rw [if_neg h, if_neg h]

/-! ## The reference's label columns -/

/-- The gather's label column: the reference's own integer operations on its column-label argument (a negative
    label has the row count added), presented as a column. -/
def gi (cols : IA S262144) : Labels 262144 := val_main_v7 (F := Ideal) cols
/-- The scatter's label column: the row-label argument presented as a column. -/
def si (rows : IA S262144) : Labels 262144 := val_main_v12 (F := Ideal) rows

/-- The scatter's label of stored entry e is the e-th row-label argument. -/
theorem si_apply (rows : IA S262144) (e : Fin 262144) : si rows (ix2 e (0 : Fin 1)) = rows (ix1 e) := by
  rw [si, val_main_v12_apply]
  congr 1
  funext a; exact Fin.ext (by match a with | ⟨0, _⟩ => rfl)

/-- The gather's label of stored entry e is the e-th column-label argument, with 8192 added when it is negative. -/
theorem gi_apply (cols : IA S262144) (e : Fin 262144) :
    gi cols (ix2 e (0 : Fin 1))
      = Scalar.select (IntOp.cmpi .slt (cols (ix1 e)) 0#32) (IntOp.addi (cols (ix1 e)) 8192#32) (cols (ix1 e)) := by
  have hi : idx_main_v7 (ix2 e (0 : Fin 1)) = ix1 e :=
    funext fun a => Fin.ext (by match a with | ⟨0, _⟩ => rfl)
  rw [gi, val_main_v7_apply, hi, val_main_v6_apply, val_main_v3_apply, val_main_v5_apply, val_main_v2_apply,
    val_main_v4_apply, val_main_c_apply, val_main_c_0_apply]

section Stages

variable (x0 : FA S8192x512) (x1 x2 : IA S262144) (x3 : FA S262144) (x4 : FA S512x256) (x5 x6 : FA S256x128)
  (x7 : FA S128x64) (x8 : FA S64) (x9 : FA S64x6) (x10 : FA S6)

/-! ## Stage by stage -/

/-- x · W1. -/
theorem v0_eq : val_main_v0 (F := Ideal) x0 x4 = mm x0 x4 :=
  eq_mm x0 x4 _ lidx_main_v0 ridx_main_v0
    (fun p q k => funext fun a => Fin.ext (by match a with | ⟨0, _⟩ => rfl | ⟨1, _⟩ => rfl))
    (fun p q k => funext fun a => Fin.ext (by match a with | ⟨0, _⟩ => rfl | ⟨1, _⟩ => rfl))
    (val_main_v0_apply x0 x4)

/-- The values broadcast to 256 columns: entry (e, d) is the e-th value. -/
theorem v9_apply (e : Fin 262144) (d : Fin 256) : val_main_v9 (F := Ideal) x3 (ix2 e d) = x3 (ix1 e) := by
  rw [val_main_v9_apply, val_main_v1_apply]
  congr 1
  funext a; exact Fin.ext (by match a with | ⟨0, _⟩ => rfl)

/-- The zero matrix the first scatter accumulates into. -/
theorem v11_apply (r : Fin 8192) (c : Fin 256) : val_main_v11 (F := Ideal) (ix2 r c) = 0 := by
  rw [val_main_v11_apply, val_main_cst_apply]
  exact Ideal.ofBits_zero_f32

/-- The first sparse product. -/
theorem v13_eq : val_main_v13 (F := Ideal) x0 x1 x2 x3 x4
    = spmm (by decide : 0 < 8192) (gi x2) (si x1) x3 (mm x0 x4) := by
  rw [← v0_eq]
  exact eq_spmm (by decide : 0 < 8192) gather_S8192x256_S262144x1_S262144x256_1_0_n_n_0_1_1256_wf
    scatter_S8192x256_S262144x1_S262144x256_1_0_0_1_wf (gi x2) (si x1) x3 (val_main_v0 (F := Ideal) x0 x4)
    (val_main_v9 (F := Ideal) x3) (v9_apply x3) (val_main_v11 (F := Ideal)) v11_apply

/-- The rectifier (the outlined maximum with a zero matrix). -/
theorem v14_eq : val_main_v14 (F := Ideal) x0 x1 x2 x3 x4
    = hidden (by decide : 0 < 8192) (gi x2) (si x1) x3 x0 x4 := by
  funext i
  rw [val_main_v14_apply, val_main_call0_v0_apply, val_main_call0_cst_apply, v13_eq]
  show max _ (Ideal.ofBits .f32 0x00000000#32) = _
  rw [Ideal.ofBits_zero_f32]
  rfl

/-- hidden · W2. -/
theorem v15_eq : val_main_v15 (F := Ideal) x0 x1 x2 x3 x4 x5
    = mm (hidden (by decide : 0 < 8192) (gi x2) (si x1) x3 x0 x4) x5 := by
  rw [← v14_eq]
  exact eq_mm (val_main_v14 (F := Ideal) x0 x1 x2 x3 x4) x5 _ lidx_main_v15 ridx_main_v15
    (fun p q k => funext fun a => Fin.ext (by match a with | ⟨0, _⟩ => rfl | ⟨1, _⟩ => rfl))
    (fun p q k => funext fun a => Fin.ext (by match a with | ⟨0, _⟩ => rfl | ⟨1, _⟩ => rfl))
    (val_main_v15_apply x0 x1 x2 x3 x4 x5)

/-- hidden · W3. -/
theorem v29_eq : val_main_v29 (F := Ideal) x0 x1 x2 x3 x4 x6
    = mm (hidden (by decide : 0 < 8192) (gi x2) (si x1) x3 x0 x4) x6 := by
  rw [← v14_eq]
  exact eq_mm (val_main_v14 (F := Ideal) x0 x1 x2 x3 x4) x6 _ lidx_main_v29 ridx_main_v29
    (fun p q k => funext fun a => Fin.ext (by match a with | ⟨0, _⟩ => rfl | ⟨1, _⟩ => rfl))
    (fun p q k => funext fun a => Fin.ext (by match a with | ⟨0, _⟩ => rfl | ⟨1, _⟩ => rfl))
    (val_main_v29_apply x0 x1 x2 x3 x4 x6)

/-- The values broadcast to 128 columns (the second pass's copy). -/
theorem v24_apply (e : Fin 262144) (d : Fin 128) : val_main_v24 (F := Ideal) x3 (ix2 e d) = x3 (ix1 e) := by
  rw [val_main_v24_apply, val_main_v16_apply]
  congr 1
  funext a; exact Fin.ext (by match a with | ⟨0, _⟩ => rfl)

/-- The values broadcast to 128 columns (the third pass's copy). -/
theorem v38_apply (e : Fin 262144) (d : Fin 128) : val_main_v38 (F := Ideal) x3 (ix2 e d) = x3 (ix1 e) := by
  rw [val_main_v38_apply, val_main_v30_apply]
  congr 1
  funext a; exact Fin.ext (by match a with | ⟨0, _⟩ => rfl)

/-- The zero matrices the second and third scatters accumulate into. -/
theorem v26_apply (r : Fin 8192) (c : Fin 128) : val_main_v26 (F := Ideal) (ix2 r c) = 0 := by
  rw [val_main_v26_apply, val_main_cst_3_apply]
  exact Ideal.ofBits_zero_f32
theorem v40_apply (r : Fin 8192) (c : Fin 128) : val_main_v40 (F := Ideal) (ix2 r c) = 0 := by
  rw [val_main_v40_apply, val_main_cst_6_apply]
  exact Ideal.ofBits_zero_f32

/-- The second sparse product: the mean head before its affine map. -/
theorem v28_eq : val_main_v28 (F := Ideal) x0 x1 x2 x3 x4 x5
    = mu0 (by decide : 0 < 8192) (gi x2) (si x1) x3 x0 x4 x5 := by
  unfold mu0
  rw [← v15_eq]
  exact eq_spmm (by decide : 0 < 8192) gather_S8192x128_S262144x1_S262144x128_1_0_n_n_0_1_1128_wf
    scatter_S8192x128_S262144x1_S262144x128_1_0_0_1_wf (gi x2) (si x1) x3 (val_main_v15 (F := Ideal) x0 x1 x2 x3 x4 x5)
    (val_main_v24 (F := Ideal) x3) (v24_apply x3) (val_main_v26 (F := Ideal)) v26_apply

/-- The third sparse product: the log-variance head before its affine map. -/
theorem v42_eq : val_main_v42 (F := Ideal) x0 x1 x2 x3 x4 x6
    = logvar0 (by decide : 0 < 8192) (gi x2) (si x1) x3 x0 x4 x6 := by
  unfold logvar0
  rw [← v29_eq]
  exact eq_spmm (by decide : 0 < 8192) gather_S8192x128_S262144x1_S262144x128_1_0_n_n_0_1_1128_wf
    scatter_S8192x128_S262144x1_S262144x128_1_0_0_1_wf (gi x2) (si x1) x3 (val_main_v29 (F := Ideal) x0 x1 x2 x3 x4 x6)
    (val_main_v38 (F := Ideal) x3) (v38_apply x3) (val_main_v40 (F := Ideal)) v40_apply

/-- mu0 · Wd. -/
theorem v43_eq : val_main_v43 (F := Ideal) x0 x1 x2 x3 x4 x5 x7
    = mm (mu0 (by decide : 0 < 8192) (gi x2) (si x1) x3 x0 x4 x5) x7 := by
  rw [← v28_eq]
  exact eq_mm (val_main_v28 (F := Ideal) x0 x1 x2 x3 x4 x5) x7 _ lidx_main_v43 ridx_main_v43
    (fun p q k => funext fun a => Fin.ext (by match a with | ⟨0, _⟩ => rfl | ⟨1, _⟩ => rfl))
    (fun p q k => funext fun a => Fin.ext (by match a with | ⟨0, _⟩ => rfl | ⟨1, _⟩ => rfl))
    (val_main_v43_apply x0 x1 x2 x3 x4 x5 x7)

/-- logvar0 · Wd. -/
theorem v47_eq : val_main_v47 (F := Ideal) x0 x1 x2 x3 x4 x6 x7
    = mm (logvar0 (by decide : 0 < 8192) (gi x2) (si x1) x3 x0 x4 x6) x7 := by
  rw [← v42_eq]
  exact eq_mm (val_main_v42 (F := Ideal) x0 x1 x2 x3 x4 x6) x7 _ lidx_main_v47 ridx_main_v47
    (fun p q k => funext fun a => Fin.ext (by match a with | ⟨0, _⟩ => rfl | ⟨1, _⟩ => rfl))
    (fun p q k => funext fun a => Fin.ext (by match a with | ⟨0, _⟩ => rfl | ⟨1, _⟩ => rfl))
    (val_main_v47_apply x0 x1 x2 x3 x4 x6 x7)

/-- The bias bd broadcast to every row (the mean head's copy, then the log-variance head's). -/
theorem v45_apply (p : Fin 8192) (q : Fin 64) : val_main_v45 (F := Ideal) x8 (ix2 p q) = x8 (ix1 q) := by
  rw [val_main_v45_apply, val_main_v44_apply]
  congr 1
  funext a; exact Fin.ext (by match a with | ⟨0, _⟩ => rfl)
theorem v49_apply (p : Fin 8192) (q : Fin 64) : val_main_v49 (F := Ideal) x8 (ix2 p q) = x8 (ix1 q) := by
  rw [val_main_v49_apply, val_main_v48_apply]
  congr 1
  funext a; exact Fin.ext (by match a with | ⟨0, _⟩ => rfl)

/-- The mean. -/
theorem v46_eq : val_main_v46 (F := Ideal) x0 x1 x2 x3 x4 x5 x7 x8
    = mu (by decide : 0 < 8192) (gi x2) (si x1) x3 x0 x4 x5 x7 x8 := by
  unfold mu
  rw [← v43_eq]
  exact eq_addRow (val_main_v43 (F := Ideal) x0 x1 x2 x3 x4 x5 x7) x8 _ (fun p q => by
    rw [val_main_v46_apply, v45_apply]; rfl)

/-- The log-variance. -/
theorem v50_eq : val_main_v50 (F := Ideal) x0 x1 x2 x3 x4 x6 x7 x8
    = logvar (by decide : 0 < 8192) (gi x2) (si x1) x3 x0 x4 x6 x7 x8 := by
  unfold logvar
  rw [← v47_eq]
  exact eq_addRow (val_main_v47 (F := Ideal) x0 x1 x2 x3 x4 x6 x7) x8 _ (fun p q => by
    rw [val_main_v50_apply, v49_apply]; rfl)

/-- The decoded adjacency: the product of mu with its transpose is mu · muᵀ. -/
theorem v52_eq : val_main_v52 (F := Ideal) x0 x1 x2 x3 x4 x5 x7 x8
    = adj (by decide : 0 < 8192) (gi x2) (si x1) x3 x0 x4 x5 x7 x8 := by
  unfold adj
  rw [← v46_eq]
  refine mat_ext fun p q => ?_
  rw [val_main_v52_apply, mmT, mat_ix2]
  refine Finset.sum_congr rfl fun k _ => ?_
  rw [val_main_v51_apply]
  have e1 : lidx_main_v52 (ix2 p q) k = ix2 p k :=
    funext fun a => Fin.ext (by match a with | ⟨0, _⟩ => rfl | ⟨1, _⟩ => rfl)
  have e2 : idx_main_v51 (ridx_main_v52 (ix2 p q) k) = ix2 q k :=
    funext fun a => Fin.ext (by match a with | ⟨0, _⟩ => rfl | ⟨1, _⟩ => rfl)
  rw [e1, e2]

/-- mu · We. -/
theorem v53_eq : val_main_v53 (F := Ideal) x0 x1 x2 x3 x4 x5 x7 x8 x9
    = mm (mu (by decide : 0 < 8192) (gi x2) (si x1) x3 x0 x4 x5 x7 x8) x9 := by
  rw [← v46_eq]
  exact eq_mm (val_main_v46 (F := Ideal) x0 x1 x2 x3 x4 x5 x7 x8) x9 _ lidx_main_v53 ridx_main_v53
    (fun p q k => funext fun a => Fin.ext (by match a with | ⟨0, _⟩ => rfl | ⟨1, _⟩ => rfl))
    (fun p q k => funext fun a => Fin.ext (by match a with | ⟨0, _⟩ => rfl | ⟨1, _⟩ => rfl))
    (val_main_v53_apply x0 x1 x2 x3 x4 x5 x7 x8 x9)

/-- The bias be broadcast to every row. -/
theorem v55_apply (p : Fin 8192) (q : Fin 6) : val_main_v55 (F := Ideal) x10 (ix2 p q) = x10 (ix1 q) := by
  rw [val_main_v55_apply, val_main_v54_apply]
  congr 1
  funext a; exact Fin.ext (by match a with | ⟨0, _⟩ => rfl)

/-- The six-way output head. -/
theorem v56_eq : val_main_v56 (F := Ideal) x0 x1 x2 x3 x4 x5 x7 x8 x9 x10
    = out6 (by decide : 0 < 8192) (gi x2) (si x1) x3 x0 x4 x5 x7 x8 x9 x10 := by
  unfold out6
  rw [← v53_eq]
  exact eq_addRow (val_main_v53 (F := Ideal) x0 x1 x2 x3 x4 x5 x7 x8 x9) x10 _ (fun p q => by
    rw [val_main_v56_apply, v55_apply]; rfl)

end Stages

/-! ## The reference's run ends at the specification -/

section Run

open Idealize.ShloMosaic.TcCoe Idealize.SL.Sem

variable (m : (ℓ : Loc nD τ sig) → Buf (Elt Ideal) ℓ) (c : Dev nD)

/-- The label columns, the values and the dense arguments as the run finds them on device `c`. -/
abbrev aGi : Labels 262144 := gi (m ((c.tc : Thread nD τ).loc main_arg2))
abbrev aSi : Labels 262144 := si (m ((c.tc : Thread nD τ).loc main_arg1))

/-- On every device, every weakly fair execution of the reference terminates with its four results at the
    specification's adjacency, six-way head, mean and log-variance of the arguments, and the arguments unchanged. -/
theorem ref_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v52)
          = adj (by decide : 0 < 8192) (aGi m c) (aSi m c) (m ((c.tc : Thread nD τ).loc main_arg3))
              (m ((c.tc : Thread nD τ).loc main_arg0)) (m ((c.tc : Thread nD τ).loc main_arg4))
              (m ((c.tc : Thread nD τ).loc main_arg5)) (m ((c.tc : Thread nD τ).loc main_arg7))
              (m ((c.tc : Thread nD τ).loc main_arg8))
      ∧ r.2.mem ((c.tc : Thread nD τ).loc main_v56)
          = out6 (by decide : 0 < 8192) (aGi m c) (aSi m c) (m ((c.tc : Thread nD τ).loc main_arg3))
              (m ((c.tc : Thread nD τ).loc main_arg0)) (m ((c.tc : Thread nD τ).loc main_arg4))
              (m ((c.tc : Thread nD τ).loc main_arg5)) (m ((c.tc : Thread nD τ).loc main_arg7))
              (m ((c.tc : Thread nD τ).loc main_arg8)) (m ((c.tc : Thread nD τ).loc main_arg9))
              (m ((c.tc : Thread nD τ).loc main_arg10))
      ∧ r.2.mem ((c.tc : Thread nD τ).loc main_v46)
          = mu (by decide : 0 < 8192) (aGi m c) (aSi m c) (m ((c.tc : Thread nD τ).loc main_arg3))
              (m ((c.tc : Thread nD τ).loc main_arg0)) (m ((c.tc : Thread nD τ).loc main_arg4))
              (m ((c.tc : Thread nD τ).loc main_arg5)) (m ((c.tc : Thread nD τ).loc main_arg7))
              (m ((c.tc : Thread nD τ).loc main_arg8))
      ∧ r.2.mem ((c.tc : Thread nD τ).loc main_v50)
          = logvar (by decide : 0 < 8192) (aGi m c) (aSi m c) (m ((c.tc : Thread nD τ).loc main_arg3))
              (m ((c.tc : Thread nD τ).loc main_arg0)) (m ((c.tc : Thread nD τ).loc main_arg4))
              (m ((c.tc : Thread nD τ).loc main_arg6)) (m ((c.tc : Thread nD τ).loc main_arg7))
              (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run _ _ _).mono (fun r h c => by
    obtain ⟨h52, h56, h46, h50, hargs⟩ := h c
    refine ⟨?_, ?_, ?_, ?_, hargs⟩
    · exact h52.trans ((val_main_v52_eq m c).trans (v52_eq _ _ _ _ _ _ _ _))
    · exact h56.trans ((val_main_v56_eq _ _ _ _ _ _ _ _ _ _).trans (v56_eq _ _ _ _ _ _ _ _ _ _))
    · exact h46.trans ((val_main_v46_eq _ _ _ _ _ _ _ _).trans (v46_eq _ _ _ _ _ _ _ _))
    · exact h50.trans ((val_main_v50_eq _ _ _ _ _ _ _ _).trans (v50_eq _ _ _ _ _ _ _ _)))
    (Cert.ReferenceIdeal.Value.run m ρ)

end Run

end Cert.RefSide

end
-- ==== Proof.KI.Stages.lean ====
/-
  Between the regions: the kernel program's host operations, read entry by entry.

  The rectifier is a maximum with a zero matrix. The two second-layer weight matrices are laid side by side, so that
  columns 0 … 127 of the pair are W2's and columns 128 … 255 are W3's. After the second sparse aggregation the two
  column halves are cut apart again and stacked on the row axis, rows 0 … 8191 the first half and rows 8192 … 16383
  the second; after the affine map the stack is cut back into its two row halves. A bias vector is presented as a
  one-row matrix.
-/
import proofs.«106472_j56616258896068_2_alg».proof.Proof.KI.Chain
import proofs.«106472_j56616258896068_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

open scoped BigOperators

noncomputable section

namespace Cert.KernelIdeal.Val

open Cert.KernelIdeal Cert.KernelIdeal.Gen Idealize.ShloMosaic Idealize.ShloMosaic.ValueIdx Idealize.ShloMosaic.StableHlo
  Idealize.ShloMosaic.TcCoe Cert.Spec

/-- Running two stretches of host operations one after the other is running their concatenation. -/
theorem after_append {Val : EltTy → Type} : ∀ (l₁ l₂ : List (HloOp τ sig Val)) (V : Valuation τ sig Val),
    StableHlo.after (l₁ ++ l₂) V = StableHlo.after l₂ (StableHlo.after l₁ V)
  | [], _, _ => rfl
  | op :: l₁, l₂, V => by rw [List.cons_append, StableHlo.after_cons, StableHlo.after_cons, after_append l₁ l₂]

variable (W : Valuation τ sig (Elt Ideal))

/-! ## The rectifier -/

/-- The outlined maximum with a zero matrix is the rectifier. -/
theorem relu_stage : StableHlo.after (hostOps1_1 (F := Ideal)) W main_v15 = relu (W main_v14) := by
  have e : StableHlo.after (hostOps1_1 (F := Ideal)) W main_v15
      = maximumf (F := Ideal) (φ := .f32) (W main_v14)
          (broadcastInDim S8192x256 ![] bcast_S_S8192x256 (constant (F := Ideal) S_ .f32 0x00000000#32)) := by
    dsimp only [hostOps1_1]; after_results; try rfl
  rw [e]
  funext i
  show max _ (Ideal.ofBits .f32 0x00000000#32) = _
  rw [Ideal.ofBits_zero_f32]
  rfl

/-! ## The two weight matrices side by side -/

theorem wcat_eq : StableHlo.after (hostOps1_2 (F := Ideal)) W main_v16
    = concatenate S256x256 1 [⟨S256x128, W main_arg5⟩, ⟨S256x128, W main_arg6⟩] concatenates_S256x128_S256x128_S256x256_d1 := by
  dsimp only [hostOps1_2]; after_results; try rfl

/-- Columns 0 … 127 of the pair are the first matrix's. -/
theorem wcat_left (k : Fin 256) (q : Fin 128) :
    StableHlo.after (hostOps1_2 (F := Ideal)) W main_v16 (ix2 k (⟨q.val, by omega⟩ : Fin 256)) = W main_arg5 (ix2 k q) := by
  rw [wcat_eq]
  exact concatenate_pair_apply_left (t := S256x256) (s₁ := S256x128) (s₂ := S256x128) (1 : Fin 2) _ _ _
    (ix2 k (⟨q.val, by omega⟩ : Fin 256)) rfl (ix2 k q)
    (fun b => by match b with | ⟨0, _⟩ => rfl | ⟨1, _⟩ => rfl)

/-- Columns 128 … 255 of the pair are the second matrix's. -/
theorem wcat_right (k : Fin 256) (q : Fin 128) :
    StableHlo.after (hostOps1_2 (F := Ideal)) W main_v16 (ix2 k (⟨q.val + 128, by omega⟩ : Fin 256)) = W main_arg6 (ix2 k q) := by
  rw [wcat_eq]
  exact concatenate_pair_apply_right (t := S256x256) (s₁ := S256x128) (s₂ := S256x128) (1 : Fin 2) _ _ _
    (ix2 k (⟨q.val + 128, by omega⟩ : Fin 256)) rfl rfl (ix2 k q)
    (fun b hb => by match b with | ⟨0, _⟩ => rfl | ⟨1, _⟩ => exact absurd (Fin.ext rfl) hb) rfl

/-! ## After the second aggregation: cut in two column halves, stacked on the row axis

The last four operations of the second host stretch, over whatever the operations before them left. -/

/-- The two column slices, their stacking on the row axis, and the first bias as a one-row matrix. -/
abbrev tail2 : List (HloOp τ sig (Elt Ideal)) :=
  [ StableHlo.unary main_v31 main_v32 ((extractStridedSlice S8192x128 ![0, 0] · slices_S8192x256_S8192x128_0_0) : (⟨S8192x256, .f32⟩ : BufTy).Contents (Elt Ideal) → (⟨S8192x128, .f32⟩ : BufTy).Contents (Elt Ideal)),
    StableHlo.unary main_v31 main_v33 ((extractStridedSlice S8192x128 ![0, 128] · slices_S8192x256_S8192x128_0_128) : (⟨S8192x256, .f32⟩ : BufTy).Contents (Elt Ideal) → (⟨S8192x128, .f32⟩ : BufTy).Contents (Elt Ideal)),
    StableHlo.binary main_v32 main_v33 main_v34 ((fun a b => concatenate S16384x128 0 [⟨S8192x128, a⟩, ⟨S8192x128, b⟩] concatenates_S8192x128_S8192x128_S16384x128_d0) : (⟨S8192x128, .f32⟩ : BufTy).Contents (Elt Ideal) → (⟨S8192x128, .f32⟩ : BufTy).Contents (Elt Ideal) → (⟨S16384x128, .f32⟩ : BufTy).Contents (Elt Ideal)),
    StableHlo.reshape main_arg8 main_v35 rfl shapeCasts_S64_S1x64 ]

/-- The sparse aggregation itself: the stretch's first seventeen operations. -/
abbrev head2 : List (HloOp τ sig (Elt Ideal)) := (hostOps2 (F := Ideal)).take 17

/-- The second host stretch is the aggregation followed by the four layout operations. -/
theorem hostOps2_split : (hostOps2 (F := Ideal)) = head2 ++ tail2 := rfl

theorem after_hostOps2 : StableHlo.after (hostOps2 (F := Ideal)) W = StableHlo.after tail2 (StableHlo.after head2 W) := by
  rw [hostOps2_split, after_append]

theorem t_v31 : StableHlo.after tail2 W main_v31 = W main_v31 := by
  dsimp only [tail2]; after_results; try rfl
theorem t_arg7 : StableHlo.after tail2 W main_arg7 = W main_arg7 := by
  dsimp only [tail2]; after_results; try rfl
theorem t_v32 : StableHlo.after tail2 W main_v32
    = extractStridedSlice S8192x128 ![0, 0] (W main_v31) slices_S8192x256_S8192x128_0_0 := by
  dsimp only [tail2]; after_results; try rfl
theorem t_v33 : StableHlo.after tail2 W main_v33
    = extractStridedSlice S8192x128 ![0, 128] (W main_v31) slices_S8192x256_S8192x128_0_128 := by
  dsimp only [tail2]; after_results; try rfl
theorem t_v34 : StableHlo.after tail2 W main_v34
    = concatenate S16384x128 0 [⟨S8192x128, extractStridedSlice S8192x128 ![0, 0] (W main_v31) slices_S8192x256_S8192x128_0_0⟩,
        ⟨S8192x128, extractStridedSlice S8192x128 ![0, 128] (W main_v31) slices_S8192x256_S8192x128_0_128⟩]
        concatenates_S8192x128_S8192x128_S16384x128_d0 := by
  dsimp only [tail2]; after_results; try rfl
theorem t_v35 : StableHlo.after tail2 W main_v35 = shapeCast S1x64 (W main_arg8) shapeCasts_S64_S1x64 := by
  dsimp only [tail2]; after_results; try rfl

/-- The first column half read at an entry. -/
theorem slice_lo (X : (⟨S8192x256, .f32⟩ : BufTy).Contents (Elt Ideal)) (r : Fin 8192) (q : Fin 128) :
    extractStridedSlice S8192x128 ![0, 0] X slices_S8192x256_S8192x128_0_0 (ix2 r q) = X (ix2 r (⟨q.val, by omega⟩ : Fin 256)) :=
  extractStridedSlice_apply _ _ _ (ix2 r q) (ix2 r (⟨q.val, by omega⟩ : Fin 256))
    (fun a => by match a with | ⟨0, _⟩ => exact (Nat.zero_add _).symm | ⟨1, _⟩ => exact (Nat.zero_add _).symm)

/-- The second column half read at an entry. -/
theorem slice_hi (X : (⟨S8192x256, .f32⟩ : BufTy).Contents (Elt Ideal)) (r : Fin 8192) (q : Fin 128) :
    extractStridedSlice S8192x128 ![0, 128] X slices_S8192x256_S8192x128_0_128 (ix2 r q) = X (ix2 r (⟨q.val + 128, by omega⟩ : Fin 256)) :=
  extractStridedSlice_apply _ _ _ (ix2 r q) (ix2 r (⟨q.val + 128, by omega⟩ : Fin 256))
    (fun a => by match a with | ⟨0, _⟩ => exact (Nat.zero_add _).symm | ⟨1, _⟩ => exact Nat.add_comm _ _)

/-- Rows 0 … 8191 of the stack are the first column half of the aggregate, -/
theorem v34_top (r : Fin 8192) (k : Fin 128) :
    StableHlo.after tail2 W main_v34 (ix2 (⟨r.val, by omega⟩ : Fin 16384) k) = W main_v31 (ix2 r (⟨k.val, by omega⟩ : Fin 256)) := by
  rw [t_v34]
  refine (concatenate_pair_apply_left (t := S16384x128) (s₁ := S8192x128) (s₂ := S8192x128) (0 : Fin 2) _ _ _
    (ix2 (⟨r.val, by omega⟩ : Fin 16384) k) rfl (ix2 r k)
    (fun b => by match b with | ⟨0, _⟩ => rfl | ⟨1, _⟩ => rfl)).trans ?_
  exact slice_lo _ r k

/-- and rows 8192 … 16383 the second. -/
theorem v34_bot (r : Fin 8192) (k : Fin 128) :
    StableHlo.after tail2 W main_v34 (ix2 (⟨r.val + 8192, by omega⟩ : Fin 16384) k) = W main_v31 (ix2 r (⟨k.val + 128, by omega⟩ : Fin 256)) := by
  rw [t_v34]
  refine (concatenate_pair_apply_right (t := S16384x128) (s₁ := S8192x128) (s₂ := S8192x128) (0 : Fin 2) _ _ _
    (ix2 (⟨r.val + 8192, by omega⟩ : Fin 16384) k) rfl rfl (ix2 r k)
    (fun b hb => by match b with | ⟨0, _⟩ => exact absurd (Fin.ext rfl) hb | ⟨1, _⟩ => rfl) rfl).trans ?_
  exact slice_hi _ r k

/-- The first bias as a one-row matrix. -/
theorem v35_apply (q : Fin 64) : StableHlo.after tail2 W main_v35 (ix2 (0 : Fin 1) q) = W main_arg8 (ix1 q) := by
  rw [t_v35]
  exact shapeCast_apply _ _ (ix2 (0 : Fin 1) q) (ix1 q)
    (by rw [Shape.rowMajor_val_one, Shape.rowMajor_val_two]; show q.val = 0 * 64 + q.val; omega)

/-! ## After the affine map: the stack cut back in two -/

theorem v37_eq : StableHlo.after (hostOps3 (F := Ideal)) W main_v37
    = extractStridedSlice S8192x64 ![0, 0] (W main_v36) slices_S16384x64_S8192x64_0_0 := by
  dsimp only [hostOps3]; after_results; try rfl
theorem v38_eq : StableHlo.after (hostOps3 (F := Ideal)) W main_v38
    = extractStridedSlice S8192x64 ![8192, 0] (W main_v36) slices_S16384x64_S8192x64_8192_0 := by
  dsimp only [hostOps3]; after_results; try rfl

/-- The mean is rows 0 … 8191 of the stack, -/
theorem v37_apply (r : Fin 8192) (q : Fin 64) :
    StableHlo.after (hostOps3 (F := Ideal)) W main_v37 (ix2 r q) = W main_v36 (ix2 (⟨r.val, by omega⟩ : Fin 16384) q) := by
  rw [v37_eq]
  exact extractStridedSlice_apply _ _ _ (ix2 r q) (ix2 (⟨r.val, by omega⟩ : Fin 16384) q)
    (fun a => by match a with | ⟨0, _⟩ => exact (Nat.zero_add _).symm | ⟨1, _⟩ => exact (Nat.zero_add _).symm)

/-- the log-variance rows 8192 … 16383. -/
theorem v38_apply (r : Fin 8192) (q : Fin 64) :
    StableHlo.after (hostOps3 (F := Ideal)) W main_v38 (ix2 r q) = W main_v36 (ix2 (⟨r.val + 8192, by omega⟩ : Fin 16384) q) := by
  rw [v38_eq]
  exact extractStridedSlice_apply _ _ _ (ix2 r q) (ix2 (⟨r.val + 8192, by omega⟩ : Fin 16384) q)
    (fun a => by match a with | ⟨0, _⟩ => exact Nat.add_comm _ _ | ⟨1, _⟩ => exact (Nat.zero_add _).symm)

/-! ## The last bias -/

theorem v40_eq : StableHlo.after (hostOps4 (F := Ideal)) W main_v40 = shapeCast S1x6 (W main_arg10) shapeCasts_S6_S1x6 := by
  dsimp only [hostOps4]; after_results; try rfl

/-- The second bias as a one-row matrix. -/
theorem v40_apply (q : Fin 6) :
    StableHlo.after (hostOps4 (F := Ideal)) W main_v40 (ix2 (0 : Fin 1) q) = W main_arg10 (ix1 q) := by
  rw [v40_eq]
  exact shapeCast_apply _ _ (ix2 (0 : Fin 1) q) (ix1 q)
    (by rw [Shape.rowMajor_val_one, Shape.rowMajor_val_two]; show q.val = 0 * 6 + q.val; omega)

end Cert.KernelIdeal.Val

end
-- ==== Proof.KI.HostStage.lean ====
/-
  The kernel program's sparse aggregation is the specification's sparse product.

  Between its regions the kernel program aggregates on the host exactly as the reference does: the stored values
  broadcast along the rows, the rows of the dense operand picked by the column labels (a negative label has the row
  count added), the two multiplied entry by entry, and the products scatter-added by the row labels into a matrix of
  zeros. The one extra operation, a widening of the picked rows' format, is the identity on extended reals. The label
  columns are the same terms as the reference's.
-/
import proofs.«106472_j56616258896068_2_alg».proof.Proof.Gen.KernelIdeal.Launch
import proofs.«106472_j56616258896068_2_alg».proof.Proof.RefIsSpec
import Idealize.ShloMosaic.Lib.StableHlo.Run
import Idealize.ShloMosaic.Lib.Pipeline.Value

open scoped BigOperators

noncomputable section

namespace Cert.KernelIdeal.Val

open Cert.KernelIdeal Cert.KernelIdeal.Gen Idealize.ShloMosaic Idealize.ShloMosaic.TcCoe Idealize.ShloMosaic.ValueIdx
  Idealize.ShloMosaic.StableHlo Cert.Lib.RowGather Cert.Lib.SegmentRows

/-! ## The label columns -/

/-- The gather's label column: the column labels, 8192 added to a negative one, presented as a column. -/
def kgi (cols : (⟨S262144, .i32⟩ : BufTy).Contents (Elt Ideal)) : Cert.Spec.Labels 262144 :=
  broadcastInDim S262144x1 ![0] bcast_S262144_S262144x1_0
    (select (cmpi .slt cols (broadcastInDim S262144 ![] bcast_S_S262144 (constantI S_ 32 0#32)))
      (addi cols (broadcastInDim S262144 ![] bcast_S_S262144 (constantI S_ 32 8192#32))) cols)

/-- The scatter's label column: the row labels presented as a column. -/
def ksi (rows : (⟨S262144, .i32⟩ : BufTy).Contents (Elt Ideal)) : Cert.Spec.Labels 262144 :=
  broadcastInDim S262144x1 ![0] bcast_S262144_S262144x1_0 rows

/-- They are the reference's. -/
theorem kgi_eq (cols : (⟨S262144, .i32⟩ : BufTy).Contents (Elt Ideal)) : kgi cols = Cert.RefSide.gi cols := rfl
theorem ksi_eq (rows : (⟨S262144, .i32⟩ : BufTy).Contents (Elt Ideal)) : ksi rows = Cert.RefSide.si rows := rfl

/-! ## The broadcasts at an entry -/

/-- The values broadcast to a column and then along 256 columns: entry (e, d) is the e-th value. -/
theorem valsB_apply (vals : (⟨S262144, .f32⟩ : BufTy).Contents (Elt Ideal)) (e : Fin 262144) (d : Fin 256) :
    (broadcastInDim S262144x256 ![0, 1] bcast_S262144x1_S262144x256_0_1
        (broadcastInDim S262144x1 ![0] bcast_S262144_S262144x1_0 vals) : Cert.Spec.Mat 262144 256) (ix2 e d)
      = (vals : Cert.Spec.Vec1 262144) (ix1 e) := by
  refine (broadcastInDim_apply _ bcast_S262144x1_S262144x256_0_1 _ (ix2 e d) (ix2 e (0 : Fin 1)) (fun a => by
    match a with
    | ⟨0, _⟩ => show e.val = if (262144 : Nat) = 1 then 0 else e.val; rw [if_neg (by decide)]
    | ⟨1, _⟩ => show 0 = if (1 : Nat) = 1 then 0 else d.val; rw [if_pos rfl])).trans ?_
  exact broadcastInDim_apply _ bcast_S262144_S262144x1_0 vals (ix2 e (0 : Fin 1)) (ix1 e) (fun a => by
    match a with
    | ⟨0, _⟩ => show e.val = if (262144 : Nat) = 1 then 0 else e.val; rw [if_neg (by decide)])

/-- The zero constant broadcast to the accumulator's shape is zero at every entry. -/
theorem zero_apply (r : Fin 8192) (c : Fin 256) :
    (broadcastInDim S8192x256 ![] bcast_S_S8192x256 (constant (F := Ideal) S_ .f32 0x00000000#32) : Cert.Spec.Mat 8192 256) (ix2 r c) = 0 := by
  refine (broadcastInDim_apply _ bcast_S_S8192x256 _ (ix2 r c) (fun a => a.elim0) (fun a => a.elim0)).trans ?_
  exact Ideal.ofBits_zero_f32

/-! ## The aggregation group -/

/-- The group over abstract operands: whatever the values' broadcast and the zero matrix are called. -/
theorem group_core (S : Cert.Spec.Mat 8192 256) (gi si : Cert.Spec.Labels 262144)
    (vals : Cert.Spec.Vec1 262144) (valsB : Cert.Spec.Mat 262144 256) (zero : Cert.Spec.Mat 8192 256)
    (hvals : ∀ e d, valsB (ix2 e d) = vals (ix1 e)) (hz : ∀ r c, zero (ix2 r c) = 0) :
    Host.scatterAdd (F := Ideal) (φ := .f32) scatter_S8192x256_S262144x1_S262144x256_1_0_0_1 zero si
        (mulf (F := Ideal) (φ := .f32) valsB
            (Host.gather gather_S8192x256_S262144x1_S262144x256_1_0_n_n_0_1_1256 S gi))
      = Cert.Spec.spmm (by decide : 0 < 8192) gi si vals S :=
  Cert.RefSide.eq_spmm (by decide : 0 < 8192) gather_S8192x256_S262144x1_S262144x256_1_0_n_n_0_1_1256_wf
    scatter_S8192x256_S262144x1_S262144x256_1_0_0_1_wf gi si vals S valsB hvals zero hz

/-- Widening the picked rows' format changes nothing on extended reals. -/
theorem extf_gather (S : (⟨S8192x256, .bf16⟩ : BufTy).Contents (Elt Ideal)) (gi : Cert.Spec.Labels 262144) :
    extf (F := Ideal) .f32
        (Host.gather gather_S8192x256_S262144x1_S262144x256_1_0_n_n_0_1_1256 S gi) bitsLt_bf16_f32
      = (Host.gather gather_S8192x256_S262144x1_S262144x256_1_0_n_n_0_1_1256 (S : Cert.Spec.Mat 8192 256) gi : Cert.Spec.Mat 262144 256) :=
  funext fun i => rfl

/-- THE GROUP OF OPERATIONS, on any dense operand S, values and label arguments: the specification's sparse product. -/
theorem group_eq (S : (⟨S8192x256, .bf16⟩ : BufTy).Contents (Elt Ideal)) (rows cols : (⟨S262144, .i32⟩ : BufTy).Contents (Elt Ideal))
    (vals : (⟨S262144, .f32⟩ : BufTy).Contents (Elt Ideal)) :
    Host.scatterAdd (F := Ideal) scatter_S8192x256_S262144x1_S262144x256_1_0_0_1
        (broadcastInDim S8192x256 ![] bcast_S_S8192x256 (constant (F := Ideal) S_ .f32 0x00000000#32))
        (broadcastInDim S262144x1 ![0] bcast_S262144_S262144x1_0 rows)
        (mulf (F := Ideal)
          (broadcastInDim S262144x256 ![0, 1] bcast_S262144x1_S262144x256_0_1
            (broadcastInDim S262144x1 ![0] bcast_S262144_S262144x1_0 vals))
          (extf (F := Ideal) .f32
            (Host.gather gather_S8192x256_S262144x1_S262144x256_1_0_n_n_0_1_1256 S (kgi cols)) bitsLt_bf16_f32))
      = Cert.Spec.spmm (E := 262144) (N := 8192) (D := 256) (by decide : 0 < 8192) (kgi cols) (ksi rows)
          (vals : Cert.Spec.Vec1 262144) (S : Cert.Spec.Mat 8192 256) := by
  have h2 := group_core (S : Cert.Spec.Mat 8192 256) (kgi cols) (ksi rows) (vals : Cert.Spec.Vec1 262144)
    (broadcastInDim S262144x256 ![0, 1] bcast_S262144x1_S262144x256_0_1
      (broadcastInDim S262144x1 ![0] bcast_S262144_S262144x1_0 vals))
    (broadcastInDim S8192x256 ![] bcast_S_S8192x256 (constant (F := Ideal) S_ .f32 0x00000000#32))
    (valsB_apply vals) zero_apply
  have h1 := extf_gather S (kgi cols)
  rw [h1]
  exact h2

/-! ## The first aggregation -/

set_option maxHeartbeats 8000000 in
/-- After the first host stretch the aggregated array is the sparse product of the region's result. -/
theorem spmm1 (W : Valuation τ sig (Elt Ideal)) :
    StableHlo.after (hostOps1 (F := Ideal)) W (Proc.devRef .tc main_v14)
      = Cert.Spec.spmm (E := 262144) (N := 8192) (D := 256) (by decide : 0 < 8192)
          (kgi (W (Proc.devRef .tc main_arg2))) (ksi (W (Proc.devRef .tc main_arg1)))
          (W (Proc.devRef .tc main_arg3) : Cert.Spec.Vec1 262144) (W (Proc.devRef .tc main_v0) : Cert.Spec.Mat 8192 256) := by
  have h := group_eq (W (Proc.devRef .tc main_v0)) (W (Proc.devRef .tc main_arg1)) (W (Proc.devRef .tc main_arg2))
    (W (Proc.devRef .tc main_arg3))
  refine Eq.trans ?_ h
  dsimp only [hostOps1]
  after_results_simp
  rfl

/-! ## The second aggregation -/

set_option maxHeartbeats 8000000 in
/-- After the aggregation operations of the second host stretch (its first seventeen: up to the scatter) the
    aggregated array is the sparse product of the second region's result. -/
theorem spmm2 (W : Valuation τ sig (Elt Ideal)) :
    StableHlo.after ((hostOps2 (F := Ideal)).take 17) W (Proc.devRef .tc main_v31)
      = Cert.Spec.spmm (E := 262144) (N := 8192) (D := 256) (by decide : 0 < 8192)
          (kgi (W (Proc.devRef .tc main_arg2))) (ksi (W (Proc.devRef .tc main_arg1)))
          (W (Proc.devRef .tc main_arg3) : Cert.Spec.Vec1 262144) (W (Proc.devRef .tc main_v17) : Cert.Spec.Mat 8192 256) := by
  have h := group_eq (W (Proc.devRef .tc main_v17)) (W (Proc.devRef .tc main_arg1)) (W (Proc.devRef .tc main_arg2))
    (W (Proc.devRef .tc main_arg3))
  refine Eq.trans ?_ h
  dsimp only [hostOps2, List.take]
  after_results_simp
  rfl

end Cert.KernelIdeal.Val

end
-- ==== Proof.KI.Val0.lean ====
import proofs.«106472_j56616258896068_2_alg».proof.Proof.KI.Half0
import proofs.«106472_j56616258896068_2_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# Region 0: the value of its result array

Region 0 multiplies the [8192, 512] array `main_arg0` by the [512, 256] array `main_arg4`, 8 row tiles of 1024 rows
at a time: point `t` reads rows 1024·t … 1024·t + 1023 of the left operand and the whole right operand, and writes rows
1024·t … 1024·t + 1023 of the result. On extended reals the narrowing of the operands to bf16 is the identity, so entry (r, q)
of the result is the sum over k of `main_arg0`[r, k] · `main_arg4`[k, q]: the tiles are restrictions of one whole-array
function, and every row lies in exactly the tile numbered r / 1024.
-/

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The block product at an entry -/

/-- The left operand's index at output index `i` and contraction index `q` has row `i 0`. -/
theorem lhs0_row (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
/-- The left operand's index at output index `i` and contraction index `q` has column `q`'s one coordinate. -/
theorem lhs0_col (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q
/-- The right operand's index at output index `i` and contraction index `q` has row `q`'s one coordinate. -/
theorem rhs0_row (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q
/-- The right operand's index at output index `i` and contraction index `q` has column `i 1`. -/
theorem rhs0_col (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

/-- The block product into a zero accumulator: entry (p, q) is the sum over k of a[p, k] · b[k, q]. -/
theorem mm0_apply (a : FVec Ideal S1024x512 .bf16) (b : FVec Ideal S512x256 .bf16) (p : Fin 1024) (q : Fin 256) :
    matmul dot_S1024x512_S512x256_S1024x256_1_0_0_1_n_n none a b (constant (F := Ideal) S1024x256 .f32 0x00000000#32) (ix2 p q) = ∑ k : Fin 512, a (ix2 p k) * b (ix2 k q) := by
  refine (Ideal.matmul_constant_zero_apply dot_S1024x512_S512x256_S1024x256_1_0_0_1_n_n none a b (ix2 p q)).trans ?_
  rw [← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  have el : dot_S1024x512_S512x256_S1024x256_1_0_0_1_n_n.lhsIdx (ix2 p q) ((contrEquiv1 dot_S1024x512_S512x256_S1024x256_1_0_0_1_n_n 512 rfl rfl).symm k) = ix2 p k := funext fun d => Fin.ext (by
    match d with
    | ⟨0, _⟩ => exact lhs0_row _ _
    | ⟨1, _⟩ => exact (lhs0_col _ _).trans hk)
  have er : dot_S1024x512_S512x256_S1024x256_1_0_0_1_n_n.rhsIdx (ix2 p q) ((contrEquiv1 dot_S1024x512_S512x256_S1024x256_1_0_0_1_n_n 512 rfl rfl).symm k) = ix2 k q := funext fun d => Fin.ext (by
    match d with
    | ⟨0, _⟩ => exact (rhs0_row _ _).trans hk
    | ⟨1, _⟩ => exact rhs0_col _ _)
  rw [el, er]

/-! ## The body's payload at an entry -/

/-- Narrowing to bf16 changes no extended real: entry (p, q) of the payload is the
    sum over k of x0[p, k] · x1[k, q]. -/
theorem pay0_apply (x0 : Vec Ideal S1024x512 .f32) (x1 : Vec Ideal S512x256 .f32) (p : Fin 1024) (q : Fin 256) :
    k0_pay1 (F := Ideal) x0 x1 (ix2 p q) = ∑ k : Fin 512, x0 (ix2 p k) * x1 (ix2 k q) := by
  unfold k0_pay1
  exact mm0_apply _ _ p q

/-! ## The specification at an index -/

/-- A product at an index: the sum over k of A[i 0, k] · B[k, i 1]. -/
theorem spec0_entry {M K N : Nat} (A : Cert.Spec.Mat M K) (B : Cert.Spec.Mat K N) (i : (⟨2, ![M, N]⟩ : Shape).Idx) :
    Cert.Spec.mm A B i = ∑ k : Fin K, A (ix2 (i 0) k) * B (ix2 k (i 1)) := rfl

/-! ## The blocks' places in their arrays -/

/-- A rectangle at offsets (0, 0). -/
theorem zero_offsets0 : (![0, 0] : Fin 2 → Nat) = fun _ => 0 := funext fun a => by fin_cases a <;> rfl

/-- The block indices at point `t`, decided over the 8 points: the left operand's and the result's row tile is `t`,
    every other block index is 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the left operand's block at point `t` is entry (1024·t + p, k) of its array. -/
theorem blk0_0_apply (V : (c : Dev nD) → (b : Ref sig .tc) → Buf (Elt Ideal) ((c : Thread nD τ).loc b)) (c : Dev nD) (t : Fin cfg0.N) (p : Fin 1024) (k : Fin 512) (r : Fin 8192) (k' : Fin 512)
    (hr : r.val = 1024 * t.val + p.val) (hk : k'.val = k.val) :
    (iblk0 V c 0 t : Vec Ideal S1024x512 .f32) (ix2 p k) = (V c main_arg0 : Cert.Spec.Mat 8192 512) (ix2 r k') := by
  obtain ⟨e0, e1, -⟩ := idx_facts0 t
  show V c main_arg0 (((cfg0.win 0).blk t).view.emb (ix2 p k)) = V c main_arg0 (ix2 r k')
  refine congrArg _ (funext fun a => Fin.ext ?_)
  match a with
  | ⟨0, _⟩ => show win0_0.index t (0 : Fin 2) * 1024 + 1 * p.val = r.val; omega
  | ⟨1, _⟩ => show win0_0.index t (1 : Fin 2) * 512 + 1 * k.val = k'.val; omega

/-- The right operand's block at every point is its whole array. -/
theorem blk0_1_apply (V : (c : Dev nD) → (b : Ref sig .tc) → Buf (Elt Ideal) ((c : Thread nD τ).loc b)) (c : Dev nD) (t : Fin cfg0.N) (k : Fin 512) (q : Fin 256) (k' : Fin 512) (q' : Fin 256)
    (hk : k'.val = k.val) (hq : q'.val = q.val) :
    (iblk0 V c 1 t : Vec Ideal S512x256 .f32) (ix2 k q) = (V c main_arg4 : Cert.Spec.Mat 512 256) (ix2 k' q') := by
  obtain ⟨-, -, e2, e3, -⟩ := idx_facts0 t
  show V c main_arg4 (((cfg0.win 1).blk t).view.emb (ix2 k q)) = V c main_arg4 (ix2 k' q')
  refine congrArg _ (funext fun a => Fin.ext ?_)
  match a with
  | ⟨0, _⟩ => show win0_1.index t (0 : Fin 2) * 512 + 1 * k.val = k'.val; omega
  | ⟨1, _⟩ => show win0_1.index t (1 : Fin 2) * 256 + 1 * q.val = q'.val; omega

/-- Entry (p, q) of the result's block at point `t` sits at entry (1024·t + p, q) of the result array. -/
theorem blk0_2_emb (t : Fin cfg0.N) (p : Fin 1024) (q : Fin 256) :
    ((((cfg0.win 2).blk t).view.emb (ix2 p q) : S8192x256.Idx) 0).val = 1024 * t.val + p.val
    ∧ ((((cfg0.win 2).blk t).view.emb (ix2 p q) : S8192x256.Idx) 1).val = q.val := by
  obtain ⟨-, -, -, -, e4, e5⟩ := idx_facts0 t
  constructor
  · show win0_2.index t (0 : Fin 2) * 1024 + 1 * p.val = _; omega
  · show win0_2.index t (1 : Fin 2) * 256 + 1 * q.val = _; omega

/-! ## What a point writes back, and the whole array -/

/-- What point `t` writes back is the result's block at `t` of the whole-array function. -/
theorem flushed0_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal) (Cert.Spec.mm (V c main_arg0) (V c main_arg4)) := by
  show (cfg0.win 2).cut (grid0.coords t) ((dat0 V c).after 2 t) = _
  rw [after0_2]
  unfold out0_2
  rw [View.canon_unit_zero zero_offsets0]
  simp only [View.ld_unit_zero (S := S1024x512) zero_offsets0, View.ld_unit_zero (S := S512x256) zero_offsets0]
  funext j
  obtain ⟨p, q, rfl⟩ : ∃ (p : Fin 1024) (q : Fin 256), j = ix2 p q := ⟨j 0, j 1, eq_ix2 j⟩
  refine (pay0_apply (iblk0 V c 0 t) (iblk0 V c 1 t) p q).trans ?_
  obtain ⟨h0, h1⟩ := blk0_2_emb t p q
  refine Eq.trans ?_ (spec0_entry (M := 8192) (K := 512) (N := 256) (V c main_arg0) (V c main_arg4) (((cfg0.win 2).blk t).view.emb (ix2 p q))).symm
  refine Finset.sum_congr rfl fun k _ => ?_
  exact congrArg₂ (fun a b : EReal => a * b) (blk0_0_apply V c t p k _ k h0 rfl) (blk0_1_apply V c t k q k _ rfl h1)

/-- An index of the result array lies in point `t`'s block iff each coordinate lies in the block's range on its axis. -/
theorem mem_blk0 (t : Fin cfg0.N) (i : S8192x256.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_v0).slice (win0_2.rect t)).set ↔ _
  rw [View.set_slice_whole, Rect.mem_set_unit]
  exact Iff.rfl

/-- Every index of the result array lies in some point's block: row r lies in the tile numbered r / 1024. -/
theorem covered0 (i : S8192x256.Idx) : ∃ t : Fin cfg0.N, (cfg0.win 2).flush t = true ∧ i ∈ ((cfg0.win 2).blk t).view.set := by
  have hi0 : (i 0).val < 8192 := (i 0).isLt
  have hi1 : (i 1).val < 256 := (i 1).isLt
  have hN : cfg0.N = 8 := N_0
  refine ⟨⟨(i 0).val / 1024, by omega⟩, flush0_2 _, ?_⟩
  rw [mem_blk0]
  obtain ⟨-, -, -, -, e4, e5⟩ := idx_facts0 ⟨(i 0).val / 1024, by omega⟩
  intro a
  match a with
  | ⟨0, _⟩ => show win0_2.index _ (0 : Fin 2) * 1024 ≤ (i 0).val ∧ (i 0).val < win0_2.index _ (0 : Fin 2) * 1024 + 1024; rw [e4]; show (i 0).val / 1024 * 1024 ≤ (i 0).val ∧ (i 0).val < (i 0).val / 1024 * 1024 + 1024; omega
  | ⟨1, _⟩ => show win0_2.index _ (1 : Fin 2) * 256 ≤ (i 1).val ∧ (i 1).val < win0_2.index _ (1 : Fin 2) * 256 + 256; rw [e5]; omega

/-- The result array after the region, as one function of the arrays the region reads. -/
theorem final0 (V : (c : Dev nD) → (b : Ref sig .tc) → Buf (Elt Ideal) ((c : Thread nD τ).loc b)) (c : Dev nD) :
    (dat0 (F := Ideal) V c).arrAt 2 cfg0.N = Cert.Spec.mm (V c main_arg0) (V c main_arg4) :=
  (dat0 V c).arrAt_eq_of_cover 2 (Cert.Spec.mm (V c main_arg0) (V c main_arg4)) (fun t _ => flushed0_eq V c t) covered0

end Cert.KernelIdeal.Val

end
-- ==== Proof.KI.Val1.lean ====
import proofs.«106472_j56616258896068_2_alg».proof.Proof.KI.Half1
import proofs.«106472_j56616258896068_2_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# Region 1: the value of its result array

Region 1 multiplies the [8192, 256] array `main_v15` by the [256, 256] array `main_v16`, 8 row tiles of 1024 rows
at a time: point `t` reads rows 1024·t … 1024·t + 1023 of the left operand and the whole right operand, and writes rows
1024·t … 1024·t + 1023 of the result. On extended reals the narrowing of the operands to bf16 is the identity, so entry (r, q)
of the result is the sum over k of `main_v15`[r, k] · `main_v16`[k, q]: the tiles are restrictions of one whole-array
function, and every row lies in exactly the tile numbered r / 1024.
-/

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The block product at an entry -/

/-- The left operand's index at output index `i` and contraction index `q` has row `i 0`. -/
theorem lhs1_row (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
/-- The left operand's index at output index `i` and contraction index `q` has column `q`'s one coordinate. -/
theorem lhs1_col (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
/-- The right operand's index at output index `i` and contraction index `q` has row `q`'s one coordinate. -/
theorem rhs1_row (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
/-- The right operand's index at output index `i` and contraction index `q` has column `i 1`. -/
theorem rhs1_col (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The block product into a zero accumulator: entry (p, q) is the sum over k of a[p, k] · b[k, q]. -/
theorem mm1_apply (a : FVec Ideal S1024x256 .bf16) (b : FVec Ideal S256x256 .bf16) (p : Fin 1024) (q : Fin 256) :
    matmul dot_S1024x256_S256x256_S1024x256_1_0_0_1_n_n none a b (constant (F := Ideal) S1024x256 .f32 0x00000000#32) (ix2 p q) = ∑ k : Fin 256, a (ix2 p k) * b (ix2 k q) := by
  refine (Ideal.matmul_constant_zero_apply dot_S1024x256_S256x256_S1024x256_1_0_0_1_n_n none a b (ix2 p q)).trans ?_
  rw [← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p q) ((contrEquiv1 dot_S1024x256_S256x256_S1024x256_1_0_0_1_n_n 256 rfl rfl).symm k) = ix2 p k := funext fun d => Fin.ext (by
    match d with
    | ⟨0, _⟩ => exact lhs1_row _ _
    | ⟨1, _⟩ => exact (lhs1_col _ _).trans hk)
  have er : dot_S1024x256_S256x256_S1024x256_1_0_0_1_n_n.rhsIdx (ix2 p q) ((contrEquiv1 dot_S1024x256_S256x256_S1024x256_1_0_0_1_n_n 256 rfl rfl).symm k) = ix2 k q := funext fun d => Fin.ext (by
    match d with
    | ⟨0, _⟩ => exact (rhs1_row _ _).trans hk
    | ⟨1, _⟩ => exact rhs1_col _ _)
  rw [el, er]

/-! ## The body's payload at an entry -/

/-- Narrowing to bf16 changes no extended real, and a cast to the same shape moves no entry: entry (p, q) of the payload is the
    sum over k of x0[p, k] · x1[k, q]. -/
theorem pay1_apply (x0 : Vec Ideal S1024x256 .f32) (x1 : Vec Ideal S256x256 .f32) (p : Fin 1024) (q : Fin 256) :
    k1_pay1 (F := Ideal) x0 x1 (ix2 p q) = ∑ k : Fin 256, x0 (ix2 p k) * x1 (ix2 k q) := by
  unfold k1_pay1
  simp only [shapeCast_self]
  exact mm1_apply _ _ p q

/-! ## The specification at an index -/

/-- A product at an index: the sum over k of A[i 0, k] · B[k, i 1]. -/
theorem spec1_entry {M K N : Nat} (A : Cert.Spec.Mat M K) (B : Cert.Spec.Mat K N) (i : (⟨2, ![M, N]⟩ : Shape).Idx) :
    Cert.Spec.mm A B i = ∑ k : Fin K, A (ix2 (i 0) k) * B (ix2 k (i 1)) := rfl

/-! ## The blocks' places in their arrays -/

/-- A rectangle at offsets (0, 0). -/
theorem zero_offsets1 : (![0, 0] : Fin 2 → Nat) = fun _ => 0 := funext fun a => by fin_cases a <;> rfl

/-- The block indices at point `t`, decided over the 8 points: the left operand's and the result's row tile is `t`,
    every other block index is 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, k) of the left operand's block at point `t` is entry (1024·t + p, k) of its array. -/
theorem blk1_0_apply (V : (c : Dev nD) → (b : Ref sig .tc) → Buf (Elt Ideal) ((c : Thread nD τ).loc b)) (c : Dev nD) (t : Fin cfg1.N) (p : Fin 1024) (k : Fin 256) (r : Fin 8192) (k' : Fin 256)
    (hr : r.val = 1024 * t.val + p.val) (hk : k'.val = k.val) :
    (iblk1 V c 0 t : Vec Ideal S1024x256 .f32) (ix2 p k) = (V c main_v15 : Cert.Spec.Mat 8192 256) (ix2 r k') := by
  obtain ⟨e0, e1, -⟩ := idx_facts1 t
  show V c main_v15 (((cfg1.win 0).blk t).view.emb (ix2 p k)) = V c main_v15 (ix2 r k')
  refine congrArg _ (funext fun a => Fin.ext ?_)
  match a with
  | ⟨0, _⟩ => show win1_0.index t (0 : Fin 2) * 1024 + 1 * p.val = r.val; omega
  | ⟨1, _⟩ => show win1_0.index t (1 : Fin 2) * 256 + 1 * k.val = k'.val; omega

/-- The right operand's block at every point is its whole array. -/
theorem blk1_1_apply (V : (c : Dev nD) → (b : Ref sig .tc) → Buf (Elt Ideal) ((c : Thread nD τ).loc b)) (c : Dev nD) (t : Fin cfg1.N) (k : Fin 256) (q : Fin 256) (k' : Fin 256) (q' : Fin 256)
    (hk : k'.val = k.val) (hq : q'.val = q.val) :
    (iblk1 V c 1 t : Vec Ideal S256x256 .f32) (ix2 k q) = (V c main_v16 : Cert.Spec.Mat 256 256) (ix2 k' q') := by
  obtain ⟨-, -, e2, e3, -⟩ := idx_facts1 t
  show V c main_v16 (((cfg1.win 1).blk t).view.emb (ix2 k q)) = V c main_v16 (ix2 k' q')
  refine congrArg _ (funext fun a => Fin.ext ?_)
  match a with
  | ⟨0, _⟩ => show win1_1.index t (0 : Fin 2) * 256 + 1 * k.val = k'.val; omega
  | ⟨1, _⟩ => show win1_1.index t (1 : Fin 2) * 256 + 1 * q.val = q'.val; omega

/-- Entry (p, q) of the result's block at point `t` sits at entry (1024·t + p, q) of the result array. -/
theorem blk1_2_emb (t : Fin cfg1.N) (p : Fin 1024) (q : Fin 256) :
    ((((cfg1.win 2).blk t).view.emb (ix2 p q) : S8192x256.Idx) 0).val = 1024 * t.val + p.val
    ∧ ((((cfg1.win 2).blk t).view.emb (ix2 p q) : S8192x256.Idx) 1).val = q.val := by
  obtain ⟨-, -, -, -, e4, e5⟩ := idx_facts1 t
  constructor
  · show win1_2.index t (0 : Fin 2) * 1024 + 1 * p.val = _; omega
  · show win1_2.index t (1 : Fin 2) * 256 + 1 * q.val = _; omega

/-! ## What a point writes back, and the whole array -/

/-- What point `t` writes back is the result's block at `t` of the whole-array function. -/
theorem flushed1_eq (V : (c : Dev nD) → (b : Ref sig .tc) → Buf (Elt Ideal) ((c : Thread nD τ).loc b)) (c : Dev nD) (t : Fin cfg1.N) :
    (dat1 (F := Ideal) V c).flushed 2 t = ((cfg1.win 2).blk t).view.read (Elt Ideal) (Cert.Spec.mm (V c main_v15) (V c main_v16)) := by
  show (cfg1.win 2).cut (grid1.coords t) ((dat1 V c).after 2 t) = _
  rw [after1_2]
  unfold out1_2
  rw [View.canon_unit_zero zero_offsets1]
  simp only [View.ld_unit_zero (S := S1024x256) zero_offsets1, View.ld_unit_zero (S := S256x256) zero_offsets1]
  funext j
  obtain ⟨p, q, rfl⟩ : ∃ (p : Fin 1024) (q : Fin 256), j = ix2 p q := ⟨j 0, j 1, eq_ix2 j⟩
  refine (pay1_apply (iblk1 V c 0 t) (iblk1 V c 1 t) p q).trans ?_
  obtain ⟨h0, h1⟩ := blk1_2_emb t p q
  refine Eq.trans ?_ (spec1_entry (M := 8192) (K := 256) (N := 256) (V c main_v15) (V c main_v16) (((cfg1.win 2).blk t).view.emb (ix2 p q))).symm
  refine Finset.sum_congr rfl fun k _ => ?_
  exact congrArg₂ (fun a b : EReal => a * b) (blk1_0_apply V c t p k _ k h0 rfl) (blk1_1_apply V c t k q k _ rfl h1)

/-- An index of the result array lies in point `t`'s block iff each coordinate lies in the block's range on its axis. -/
theorem mem_blk1 (t : Fin cfg1.N) (i : S8192x256.Idx) :
    i ∈ ((cfg1.win 2).blk t).view.set ↔ ∀ a : Fin 2, win1_2.index t a * S1024x256.size a ≤ (i a).val ∧ (i a).val < win1_2.index t a * S1024x256.size a + S1024x256.size a := by
  show i ∈ ((View.whole main_v17).slice (win1_2.rect t)).set ↔ _
  rw [View.set_slice_whole, Rect.mem_set_unit]
  exact Iff.rfl

/-- Every index of the result array lies in some point's block: row r lies in the tile numbered r / 1024. -/
theorem covered1 (i : S8192x256.Idx) : ∃ t : Fin cfg1.N, (cfg1.win 2).flush t = true ∧ i ∈ ((cfg1.win 2).blk t).view.set := by
  have hi0 : (i 0).val < 8192 := (i 0).isLt
  have hi1 : (i 1).val < 256 := (i 1).isLt
  have hN : cfg1.N = 8 := N_1
  refine ⟨⟨(i 0).val / 1024, by omega⟩, flush1_2 _, ?_⟩
  rw [mem_blk1]
  obtain ⟨-, -, -, -, e4, e5⟩ := idx_facts1 ⟨(i 0).val / 1024, by omega⟩
  intro a
  match a with
  | ⟨0, _⟩ => show win1_2.index _ (0 : Fin 2) * 1024 ≤ (i 0).val ∧ (i 0).val < win1_2.index _ (0 : Fin 2) * 1024 + 1024; rw [e4]; show (i 0).val / 1024 * 1024 ≤ (i 0).val ∧ (i 0).val < (i 0).val / 1024 * 1024 + 1024; omega
  | ⟨1, _⟩ => show win1_2.index _ (1 : Fin 2) * 256 ≤ (i 1).val ∧ (i 1).val < win1_2.index _ (1 : Fin 2) * 256 + 256; rw [e5]; omega

/-- The result array after the region, as one function of the arrays the region reads. -/
theorem final1 (V : (c : Dev nD) → (b : Ref sig .tc) → Buf (Elt Ideal) ((c : Thread nD τ).loc b)) (c : Dev nD) :
    (dat1 (F := Ideal) V c).arrAt 2 cfg1.N = Cert.Spec.mm (V c main_v15) (V c main_v16) :=
  (dat1 V c).arrAt_eq_of_cover 2 (Cert.Spec.mm (V c main_v15) (V c main_v16)) (fun t _ => flushed1_eq V c t) covered1

end Cert.KernelIdeal.Val

end
-- ==== Proof.KI.Val2.lean ====
import proofs.«106472_j56616258896068_2_alg».proof.Proof.KI.Half2
import proofs.«106472_j56616258896068_2_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# Region 2: the value of its result array

Region 2 multiplies the [16384, 128] array `main_v34` by the [128, 64] array `main_arg7` and adds the [1, 64] row `main_v35` to every row, 16 row tiles of 1024 rows
at a time: point `t` reads rows 1024·t … 1024·t + 1023 of the left operand and the whole right operand and bias row, and writes rows
1024·t … 1024·t + 1023 of the result. On extended reals the narrowing of the operands to bf16 is the identity, so entry (r, q)
of the result is the sum over k of `main_v34`[r, k] · `main_arg7`[k, q] plus `main_v35`[0, q]: the tiles are restrictions of one whole-array
function, and every row lies in exactly the tile numbered r / 1024.
-/

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The block product at an entry -/

/-- The left operand's index at output index `i` and contraction index `q` has row `i 0`. -/
theorem lhs2_row (i : S1024x64.Idx) (q : dot_S1024x128_S128x64_S1024x64_1_0_0_1_n_n.contr.Idx) :
    (dot_S1024x128_S128x64_S1024x64_1_0_0_1_n_n.lhsIdx i q 0).val = (i 0).val := by
  unfold DotDims.lhsIdx
  rw [dif_neg (show ¬(0 : Fin S1024x128.rank) ∈ dot_S1024x128_S128x64_S1024x64_1_0_0_1_n_n.lhsBatch by decide), dif_pos (show (0 : Fin S1024x128.rank) ∈ dot_S1024x128_S128x64_S1024x64_1_0_0_1_n_n.lhsNonContracting by decide)]
  rfl
/-- The left operand's index at output index `i` and contraction index `q` has column `q`'s one coordinate. -/
theorem lhs2_col (i : S1024x64.Idx) (q : dot_S1024x128_S128x64_S1024x64_1_0_0_1_n_n.contr.Idx) :
    (dot_S1024x128_S128x64_S1024x64_1_0_0_1_n_n.lhsIdx i q 1).val = (q ⟨0, by decide⟩).val :=
  dot_S1024x128_S128x64_S1024x64_1_0_0_1_n_n.lhsIdx_val_of_single rfl i q
/-- The right operand's index at output index `i` and contraction index `q` has row `q`'s one coordinate. -/
theorem rhs2_row (i : S1024x64.Idx) (q : dot_S1024x128_S128x64_S1024x64_1_0_0_1_n_n.contr.Idx) :
    (dot_S1024x128_S128x64_S1024x64_1_0_0_1_n_n.rhsIdx i q 0).val = (q ⟨0, by decide⟩).val :=
  dot_S1024x128_S128x64_S1024x64_1_0_0_1_n_n.rhsIdx_val_of_single rfl i q
/-- The right operand's index at output index `i` and contraction index `q` has column `i 1`. -/
theorem rhs2_col (i : S1024x64.Idx) (q : dot_S1024x128_S128x64_S1024x64_1_0_0_1_n_n.contr.Idx) :
    (dot_S1024x128_S128x64_S1024x64_1_0_0_1_n_n.rhsIdx i q 1).val = (i 1).val := by
  unfold DotDims.rhsIdx
  rw [dif_neg (show ¬(1 : Fin S128x64.rank) ∈ dot_S1024x128_S128x64_S1024x64_1_0_0_1_n_n.rhsBatch by decide), dif_pos (show (1 : Fin S128x64.rank) ∈ dot_S1024x128_S128x64_S1024x64_1_0_0_1_n_n.rhsNonContracting by decide)]
  rfl

/-- The block product into a zero accumulator: entry (p, q) is the sum over k of a[p, k] · b[k, q]. -/
theorem mm2_apply (a : FVec Ideal S1024x128 .bf16) (b : FVec Ideal S128x64 .bf16) (p : Fin 1024) (q : Fin 64) :
    matmul dot_S1024x128_S128x64_S1024x64_1_0_0_1_n_n none a b (constant (F := Ideal) S1024x64 .f32 0x00000000#32) (ix2 p q) = ∑ k : Fin 128, a (ix2 p k) * b (ix2 k q) := by
  refine (Ideal.matmul_constant_zero_apply dot_S1024x128_S128x64_S1024x64_1_0_0_1_n_n none a b (ix2 p q)).trans ?_
  rw [← Equiv.sum_comp (contrEquiv1 dot_S1024x128_S128x64_S1024x64_1_0_0_1_n_n 128 rfl rfl).symm]
  refine Finset.sum_congr rfl fun k _ => ?_
  have hk := contrEquiv1_symm_val dot_S1024x128_S128x64_S1024x64_1_0_0_1_n_n 128 rfl rfl k
  have el : dot_S1024x128_S128x64_S1024x64_1_0_0_1_n_n.lhsIdx (ix2 p q) ((contrEquiv1 dot_S1024x128_S128x64_S1024x64_1_0_0_1_n_n 128 rfl rfl).symm k) = ix2 p k := funext fun d => Fin.ext (by
    match d with
    | ⟨0, _⟩ => exact lhs2_row _ _
    | ⟨1, _⟩ => exact (lhs2_col _ _).trans hk)
  have er : dot_S1024x128_S128x64_S1024x64_1_0_0_1_n_n.rhsIdx (ix2 p q) ((contrEquiv1 dot_S1024x128_S128x64_S1024x64_1_0_0_1_n_n 128 rfl rfl).symm k) = ix2 k q := funext fun d => Fin.ext (by
    match d with
    | ⟨0, _⟩ => exact (rhs2_row _ _).trans hk
    | ⟨1, _⟩ => exact rhs2_col _ _)
  rw [el, er]

/-! ## The body's payload at an entry -/

/-- Narrowing to bf16 changes no extended real, a cast to the same shape moves no entry, and the bias row is
    repeated down the rows: entry (p, q) of the payload is the sum over k of x0[p, k] · x1[k, q], plus x2[0, q]. -/
theorem pay2_apply (x0 : Vec Ideal S1024x128 .f32) (x1 : Vec Ideal S128x64 .f32) (x2 : Vec Ideal S1x64 .f32) (p : Fin 1024) (q : Fin 64) :
    k2_pay1 (F := Ideal) x0 x1 x2 (ix2 p q) = (∑ k : Fin 128, x0 (ix2 p k) * x1 (ix2 k q)) + x2 (ix2 (0 : Fin 1) q) := by
  unfold k2_pay1
  simp only [shapeCast_self]
  refine (addf_apply _ _ (ix2 p q)).trans ?_
  refine congrArg₂ (fun a b : EReal => a + b) (mm2_apply _ _ p q) ?_
  exact broadcastTo_apply x2 _ (ix2 p q) (ix2 (0 : Fin 1) q) (fun a => by
    match a with
    | ⟨0, _⟩ => rfl
    | ⟨1, _⟩ => rfl)

/-! ## The specification at an index -/

/-- A product plus a bias row, at an index: the sum over k of A[i 0, k] · B[k, i 1], plus b[i 1]. -/
theorem spec2_entry {M K N : Nat} (A : Cert.Spec.Mat M K) (B : Cert.Spec.Mat K N) (b : Cert.Spec.Vec1 N) (i : (⟨2, ![M, N]⟩ : Shape).Idx) :
    Cert.Spec.addRow (Cert.Spec.mm A B) b i = (∑ k : Fin K, A (ix2 (i 0) k) * B (ix2 k (i 1))) + b (ix1 (i 1)) := rfl

/-! ## The blocks' places in their arrays -/

/-- A rectangle at offsets (0, 0). -/
theorem zero_offsets2 : (![0, 0] : Fin 2 → Nat) = fun _ => 0 := funext fun a => by fin_cases a <;> rfl

/-- The block indices at point `t`, decided over the 16 points: the left operand's and the result's row tile is `t`,
    every other block index is 0. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry (p, k) of the left operand's block at point `t` is entry (1024·t + p, k) of its array. -/
theorem blk2_0_apply (V : (c : Dev nD) → (b : Ref sig .tc) → Buf (Elt Ideal) ((c : Thread nD τ).loc b)) (c : Dev nD) (t : Fin cfg2.N) (p : Fin 1024) (k : Fin 128) (r : Fin 16384) (k' : Fin 128)
    (hr : r.val = 1024 * t.val + p.val) (hk : k'.val = k.val) :
    (iblk2 V c 0 t : Vec Ideal S1024x128 .f32) (ix2 p k) = (V c main_v34 : Cert.Spec.Mat 16384 128) (ix2 r k') := by
  obtain ⟨e0, e1, -⟩ := idx_facts2 t
  show V c main_v34 (((cfg2.win 0).blk t).view.emb (ix2 p k)) = V c main_v34 (ix2 r k')
  refine congrArg _ (funext fun a => Fin.ext ?_)
  match a with
  | ⟨0, _⟩ => show win2_0.index t (0 : Fin 2) * 1024 + 1 * p.val = r.val; omega
  | ⟨1, _⟩ => show win2_0.index t (1 : Fin 2) * 128 + 1 * k.val = k'.val; omega

/-- The right operand's block at every point is its whole array. -/
theorem blk2_1_apply (V : (c : Dev nD) → (b : Ref sig .tc) → Buf (Elt Ideal) ((c : Thread nD τ).loc b)) (c : Dev nD) (t : Fin cfg2.N) (k : Fin 128) (q : Fin 64) (k' : Fin 128) (q' : Fin 64)
    (hk : k'.val = k.val) (hq : q'.val = q.val) :
    (iblk2 V c 1 t : Vec Ideal S128x64 .f32) (ix2 k q) = (V c main_arg7 : Cert.Spec.Mat 128 64) (ix2 k' q') := by
  obtain ⟨-, -, e2, e3, -⟩ := idx_facts2 t
  show V c main_arg7 (((cfg2.win 1).blk t).view.emb (ix2 k q)) = V c main_arg7 (ix2 k' q')
  refine congrArg _ (funext fun a => Fin.ext ?_)
  match a with
  | ⟨0, _⟩ => show win2_1.index t (0 : Fin 2) * 128 + 1 * k.val = k'.val; omega
  | ⟨1, _⟩ => show win2_1.index t (1 : Fin 2) * 64 + 1 * q.val = q'.val; omega

/-- The bias row's block at every point is its whole array. -/
theorem blk2_2_apply (V : (c : Dev nD) → (b : Ref sig .tc) → Buf (Elt Ideal) ((c : Thread nD τ).loc b)) (c : Dev nD) (t : Fin cfg2.N) (q : Fin 64) (q' : Fin 64) (hq : q'.val = q.val) :
    (iblk2 V c 2 t : Vec Ideal S1x64 .f32) (ix2 (0 : Fin 1) q) = (V c main_v35 : Cert.Spec.Mat 1 64) (ix2 (0 : Fin 1) q') := by
  obtain ⟨-, -, -, -, e4, e5, -⟩ := idx_facts2 t
  show V c main_v35 (((cfg2.win 2).blk t).view.emb (ix2 (0 : Fin 1) q)) = V c main_v35 (ix2 (0 : Fin 1) q')
  refine congrArg _ (funext fun a => Fin.ext ?_)
  match a with
  | ⟨0, _⟩ => show win2_2.index t (0 : Fin 2) * 1 + 1 * 0 = 0; omega
  | ⟨1, _⟩ => show win2_2.index t (1 : Fin 2) * 64 + 1 * q.val = q'.val; omega

/-- Entry (p, q) of the result's block at point `t` sits at entry (1024·t + p, q) of the result array. -/
theorem blk2_3_emb (t : Fin cfg2.N) (p : Fin 1024) (q : Fin 64) :
    ((((cfg2.win 3).blk t).view.emb (ix2 p q) : S16384x64.Idx) 0).val = 1024 * t.val + p.val
    ∧ ((((cfg2.win 3).blk t).view.emb (ix2 p q) : S16384x64.Idx) 1).val = q.val := by
  obtain ⟨-, -, -, -, -, -, e4, e5⟩ := idx_facts2 t
  constructor
  · show win2_3.index t (0 : Fin 2) * 1024 + 1 * p.val = _; omega
  · show win2_3.index t (1 : Fin 2) * 64 + 1 * q.val = _; omega

/-! ## What a point writes back, and the whole array -/

/-- What point `t` writes back is the result's block at `t` of the whole-array function. -/
theorem flushed2_eq (V : (c : Dev nD) → (b : Ref sig .tc) → Buf (Elt Ideal) ((c : Thread nD τ).loc b)) (c : Dev nD) (t : Fin cfg2.N) :
    (dat2 (F := Ideal) V c).flushed 3 t = ((cfg2.win 3).blk t).view.read (Elt Ideal) (Cert.Spec.addRow (Cert.Spec.mm (V c main_v34) (V c main_arg7)) (fun i => V c main_v35 (ix2 (0 : Fin 1) (i 0)))) := by
  show (cfg2.win 3).cut (grid2.coords t) ((dat2 V c).after 3 t) = _
  rw [after2_3]
  unfold out2_3
  rw [View.canon_unit_zero zero_offsets2]
  simp only [View.ld_unit_zero (S := S1024x128) zero_offsets2, View.ld_unit_zero (S := S128x64) zero_offsets2, View.ld_unit_zero (S := S1x64) zero_offsets2]
  funext j
  obtain ⟨p, q, rfl⟩ : ∃ (p : Fin 1024) (q : Fin 64), j = ix2 p q := ⟨j 0, j 1, eq_ix2 j⟩
  refine (pay2_apply (iblk2 V c 0 t) (iblk2 V c 1 t) (iblk2 V c 2 t) p q).trans ?_
  obtain ⟨h0, h1⟩ := blk2_3_emb t p q
  refine Eq.trans ?_ (spec2_entry (M := 16384) (K := 128) (N := 64) (V c main_v34) (V c main_arg7) (fun i => V c main_v35 (ix2 (0 : Fin 1) (i 0))) (((cfg2.win 3).blk t).view.emb (ix2 p q))).symm
  refine congrArg₂ (fun a b : EReal => a + b) (Finset.sum_congr rfl fun k _ => ?_) (blk2_2_apply V c t q _ h1)
  exact congrArg₂ (fun a b : EReal => a * b) (blk2_0_apply V c t p k _ k h0 rfl) (blk2_1_apply V c t k q k _ rfl h1)

/-- An index of the result array lies in point `t`'s block iff each coordinate lies in the block's range on its axis. -/
theorem mem_blk2 (t : Fin cfg2.N) (i : S16384x64.Idx) :
    i ∈ ((cfg2.win 3).blk t).view.set ↔ ∀ a : Fin 2, win2_3.index t a * S1024x64.size a ≤ (i a).val ∧ (i a).val < win2_3.index t a * S1024x64.size a + S1024x64.size a := by
  show i ∈ ((View.whole main_v36).slice (win2_3.rect t)).set ↔ _
  rw [View.set_slice_whole, Rect.mem_set_unit]
  exact Iff.rfl

/-- Every index of the result array lies in some point's block: row r lies in the tile numbered r / 1024. -/
theorem covered2 (i : S16384x64.Idx) : ∃ t : Fin cfg2.N, (cfg2.win 3).flush t = true ∧ i ∈ ((cfg2.win 3).blk t).view.set := by
  have hi0 : (i 0).val < 16384 := (i 0).isLt
  have hi1 : (i 1).val < 64 := (i 1).isLt
  have hN : cfg2.N = 16 := N_2
  refine ⟨⟨(i 0).val / 1024, by omega⟩, flush2_3 _, ?_⟩
  rw [mem_blk2]
  obtain ⟨-, -, -, -, -, -, e4, e5⟩ := idx_facts2 ⟨(i 0).val / 1024, by omega⟩
  intro a
  match a with
  | ⟨0, _⟩ => show win2_3.index _ (0 : Fin 2) * 1024 ≤ (i 0).val ∧ (i 0).val < win2_3.index _ (0 : Fin 2) * 1024 + 1024; rw [e4]; show (i 0).val / 1024 * 1024 ≤ (i 0).val ∧ (i 0).val < (i 0).val / 1024 * 1024 + 1024; omega
  | ⟨1, _⟩ => show win2_3.index _ (1 : Fin 2) * 64 ≤ (i 1).val ∧ (i 1).val < win2_3.index _ (1 : Fin 2) * 64 + 64; rw [e5]; omega

/-- The result array after the region, as one function of the arrays the region reads. -/
theorem final2 (V : (c : Dev nD) → (b : Ref sig .tc) → Buf (Elt Ideal) ((c : Thread nD τ).loc b)) (c : Dev nD) :
    (dat2 (F := Ideal) V c).arrAt 3 cfg2.N = Cert.Spec.addRow (Cert.Spec.mm (V c main_v34) (V c main_arg7)) (fun i => V c main_v35 (ix2 (0 : Fin 1) (i 0))) :=
  (dat2 V c).arrAt_eq_of_cover 3 (Cert.Spec.addRow (Cert.Spec.mm (V c main_v34) (V c main_arg7)) (fun i => V c main_v35 (ix2 (0 : Fin 1) (i 0)))) (fun t _ => flushed2_eq V c t) covered2

end Cert.KernelIdeal.Val

end
-- ==== Proof.KI.Val3.lean ====
/-
  The decoder's region computes mu · muᵀ.

  The payload of the body at an entry of its tile is the sum over the 64 columns of the products of a row of the
  first block and a row of the second (the second block enters the matrix unit transposed). The (i, j) tile of the
  output reads rows 2048·i … of the matrix through the first window and rows 1024·j … of the same matrix through
  the second, so what each point writes back is its tile of the whole product, and the 32 tiles cover the output.
-/
import proofs.«106472_j56616258896068_2_alg».proof.Proof.KI.Half3
import proofs.«106472_j56616258896068_2_alg».proof.Proof.Spec
import Idealize.ShloMosaic.Lib.Pipeline.Value
import Idealize.ShloMosaic.Lib.ValueIdx
import Idealize.ShloMosaic.Lib.ValueLayout
import Idealize.ShloMosaic.PureOps.Ideal.Laws

open scoped BigOperators

noncomputable section

namespace Cert.KernelIdeal.Val

open Cert.KernelIdeal Cert.KernelIdeal.Gen Idealize.ShloMosaic Idealize.ShloMosaic.TcCoe Idealize.ShloMosaic.ValueIdx
open Idealize.ShloMosaic.Pipeline (Dat)

/-! ## The payload at an entry -/

theorem lhs3_0 (i : S2048x1024.Idx) (q : dot_S2048x64_S64x1024_S2048x1024_1_0_0_1_n_n.contr.Idx) :
    (dot_S2048x64_S64x1024_S2048x1024_1_0_0_1_n_n.lhsIdx i q 0).val = (i 0).val := by
  unfold DotDims.lhsIdx
  rw [dif_neg (show ¬(0 : Fin S2048x64.rank) ∈ dot_S2048x64_S64x1024_S2048x1024_1_0_0_1_n_n.lhsBatch by decide),
    dif_pos (show (0 : Fin S2048x64.rank) ∈ dot_S2048x64_S64x1024_S2048x1024_1_0_0_1_n_n.lhsNonContracting by decide)]
  rfl
theorem lhs3_1 (i : S2048x1024.Idx) (q : dot_S2048x64_S64x1024_S2048x1024_1_0_0_1_n_n.contr.Idx) :
    (dot_S2048x64_S64x1024_S2048x1024_1_0_0_1_n_n.lhsIdx i q 1).val = (q ⟨0, by decide⟩).val :=
  dot_S2048x64_S64x1024_S2048x1024_1_0_0_1_n_n.lhsIdx_val_of_single rfl i q
theorem rhs3_0 (i : S2048x1024.Idx) (q : dot_S2048x64_S64x1024_S2048x1024_1_0_0_1_n_n.contr.Idx) :
    (dot_S2048x64_S64x1024_S2048x1024_1_0_0_1_n_n.rhsIdx i q 0).val = (q ⟨0, by decide⟩).val :=
  dot_S2048x64_S64x1024_S2048x1024_1_0_0_1_n_n.rhsIdx_val_of_single rfl i q
theorem rhs3_1 (i : S2048x1024.Idx) (q : dot_S2048x64_S64x1024_S2048x1024_1_0_0_1_n_n.contr.Idx) :
    (dot_S2048x64_S64x1024_S2048x1024_1_0_0_1_n_n.rhsIdx i q 1).val = (i 1).val := by
  unfold DotDims.rhsIdx
  rw [dif_neg (show ¬(1 : Fin S64x1024.rank) ∈ dot_S2048x64_S64x1024_S2048x1024_1_0_0_1_n_n.rhsBatch by decide),
    dif_pos (show (1 : Fin S64x1024.rank) ∈ dot_S2048x64_S64x1024_S2048x1024_1_0_0_1_n_n.rhsNonContracting by decide)]
  rfl

/-- THE PAYLOAD AT (p, q): the sum over the 64 columns of row p of the first block times row q of the second. -/
theorem pay3_apply (x0 : Vec Ideal S2048x64 .f32) (x1 : Vec Ideal S1024x64 .f32) (p : Fin 2048) (q : Fin 1024) :
    k3_pay1 (F := Ideal) x0 x1 (ix2 p q) = ∑ k : Fin 64, x0 (ix2 p k) * x1 (ix2 q k) := by
  unfold k3_pay1
  dsimp only
  simp only [matmul]
  refine (Ideal.matmul_constant_zero_apply dot_S2048x64_S64x1024_S2048x1024_1_0_0_1_n_n none _ _ (ix2 p q)).trans ?_
  rw [← Equiv.sum_comp (contrEquiv1 dot_S2048x64_S64x1024_S2048x1024_1_0_0_1_n_n 64 rfl rfl).symm]
  refine Finset.sum_congr rfl fun k _ => ?_
  have hk := contrEquiv1_symm_val dot_S2048x64_S64x1024_S2048x1024_1_0_0_1_n_n 64 rfl rfl k
  have el : dot_S2048x64_S64x1024_S2048x1024_1_0_0_1_n_n.lhsIdx (ix2 p q)
      ((contrEquiv1 dot_S2048x64_S64x1024_S2048x1024_1_0_0_1_n_n 64 rfl rfl).symm k) = ix2 p k :=
    funext fun a => Fin.ext (by
      match a with
      | ⟨0, _⟩ => exact lhs3_0 _ _
      | ⟨1, _⟩ => exact (lhs3_1 _ _).trans hk)
  have er : dot_S2048x64_S64x1024_S2048x1024_1_0_0_1_n_n.rhsIdx (ix2 p q)
      ((contrEquiv1 dot_S2048x64_S64x1024_S2048x1024_1_0_0_1_n_n 64 rfl rfl).symm k) = ix2 k q :=
    funext fun a => Fin.ext (by
      match a with
      | ⟨0, _⟩ => exact (rhs3_0 _ _).trans hk
      | ⟨1, _⟩ => exact rhs3_1 _ _)
  rw [el, er]
  congr 1
  · show shapeCast S2048x64 x0 shapeCasts_S2048x64_S2048x64 (ix2 p k) = _
    rw [shapeCast_self]
  · refine (transpose_apply [1, 0] _ transposes_S1024x64_p1_0_S64x1024 (ix2 k q) (ix2 q k) (fun b => by
      match b with
      | ⟨0, _⟩ => rfl
      | ⟨1, _⟩ => rfl)).trans ?_
    show shapeCast S1024x64 x1 shapeCasts_S1024x64_S1024x64 (ix2 q k) = _
    rw [shapeCast_self]

/-! ## The index maps over the grid -/

theorem hz : (![0, 0] : Fin 2 → Nat) = fun _ => 0 := funext fun a => by fin_cases a <;> rfl

/-- Point t is tile (t / 8, t % 8): the first window's block is row-block t / 8, the second's row-block t % 8, both
    at column-block 0. -/
theorem idx_facts3 : ∀ t : Fin cfg3.N,
    win3_0.index t (0 : Fin 2) = t.val / 8 ∧ win3_0.index t (1 : Fin 2) = 0
    ∧ win3_1.index t (0 : Fin 2) = t.val % 8 ∧ win3_1.index t (1 : Fin 2) = 0
    ∧ win3_2.index t (0 : Fin 2) = t.val / 8 ∧ win3_2.index t (1 : Fin 2) = t.val % 8 :=
  (by decide +kernel : ∀ t : Fin grid3.N, _)

theorem lt_N3 (t : Fin cfg3.N) : t.val < 32 := Nat.lt_of_lt_of_eq t.isLt N_3

section

variable (V : (c : Dev nD) → (b : Ref sig .tc) → Buf (Elt Ideal) ((c : Thread nD τ).loc b))

/-- The matrix the region reads, as the region finds it. -/
abbrev A3 (c : Dev nD) : Cert.Spec.Mat 8192 64 := V c main_v37

/-- The first window's block at point t is rows 2048·(t / 8) … of the matrix. -/
theorem iblk3_0_apply (c : Dev nD) (t : Fin cfg3.N) (p : Fin 2048) (k : Fin 64) (R : Fin 8192)
    (hR : R.val = t.val / 8 * 2048 + p.val) :
    (iblk3 V c 0 t : Vec Ideal S2048x64 .f32) (ix2 p k) = A3 V c (ix2 R k) := by
  obtain ⟨e0, e1, -, -, -, -⟩ := idx_facts3 t
  unfold iblk3
  rw [View.read_apply]
  show V c main_v37 _ = V c main_v37 _
  congr 1
  funext a
  apply Fin.ext
  match a with
  | ⟨0, _⟩ => show win3_0.index t (0 : Fin 2) * 2048 + 1 * p.val = R.val; rw [e0, hR]; omega
  | ⟨1, _⟩ => show win3_0.index t (1 : Fin 2) * 64 + 1 * k.val = k.val; rw [e1]; omega

/-- The second window's block at point t is rows 1024·(t % 8) … of the same matrix. -/
theorem iblk3_1_apply (c : Dev nD) (t : Fin cfg3.N) (q : Fin 1024) (k : Fin 64) (C : Fin 8192)
    (hC : C.val = t.val % 8 * 1024 + q.val) :
    (iblk3 V c 1 t : Vec Ideal S1024x64 .f32) (ix2 q k) = A3 V c (ix2 C k) := by
  obtain ⟨-, -, e2, e3, -, -⟩ := idx_facts3 t
  unfold iblk3
  rw [View.read_apply]
  show V c main_v37 _ = V c main_v37 _
  congr 1
  funext a
  apply Fin.ext
  match a with
  | ⟨0, _⟩ => show win3_1.index t (0 : Fin 2) * 1024 + 1 * q.val = C.val; rw [e2, hC]; omega
  | ⟨1, _⟩ => show win3_1.index t (1 : Fin 2) * 64 + 1 * k.val = k.val; rw [e3]; omega

/-- What the output array ends holding: mu · muᵀ of the matrix the region reads. -/
abbrev G3 (c : Dev nD) : Cert.Spec.Mat 8192 8192 := Cert.Spec.mmT (A3 V c) (A3 V c)

/-- WHAT POINT t WRITES BACK is tile t of the whole product. -/
theorem flushed3_eq (c : Dev nD) (t : Fin cfg3.N) :
    (dat3 (F := Ideal) V c).flushed 2 t = ((cfg3.win 2).blk t).view.read (Elt Ideal) (G3 V c) := by
  show (cfg3.win 2).cut (grid3.coords t) ((dat3 (F := Ideal) V c).after 2 t) = _
  rw [after3_2]
  unfold out3_2
  rw [View.canon_unit_zero hz]
  simp only [View.ld_unit_zero (S := S2048x64) hz, View.ld_unit_zero (S := S1024x64) hz]
  obtain ⟨-, -, -, -, e4, e5⟩ := idx_facts3 t
  have hN := lt_N3 t
  funext j
  obtain ⟨p, q, rfl⟩ : ∃ (p : Fin 2048) (q : Fin 1024), j = ix2 p q := ⟨j 0, j 1, eq_ix2 j⟩
  have hp : p.val < 2048 := p.isLt
  have hq : q.val < 1024 := q.isLt
  have hemb : ((cfg3.win 2).blk t).view.emb (ix2 p q)
      = ix2 (⟨t.val / 8 * 2048 + p.val, by omega⟩ : Fin 8192) (⟨t.val % 8 * 1024 + q.val, by omega⟩ : Fin 8192) := by
    funext a
    apply Fin.ext
    match a with
    | ⟨0, _⟩ => show win3_2.index t (0 : Fin 2) * 2048 + 1 * p.val = t.val / 8 * 2048 + p.val; rw [e4]; omega
    | ⟨1, _⟩ => show win3_2.index t (1 : Fin 2) * 1024 + 1 * q.val = t.val % 8 * 1024 + q.val; rw [e5]; omega
  show k3_pay1 (F := Ideal) (iblk3 V c 0 t) (iblk3 V c 1 t) (ix2 p q) = G3 V c (((cfg3.win 2).blk t).view.emb (ix2 p q))
  rw [pay3_apply, hemb]
  simp only [G3, Cert.Spec.mmT, Cert.Spec.mat_ix2]
  refine Finset.sum_congr rfl fun k _ => ?_
  rw [iblk3_0_apply V c t p k ⟨t.val / 8 * 2048 + p.val, by omega⟩ rfl,
    iblk3_1_apply V c t q k ⟨t.val % 8 * 1024 + q.val, by omega⟩ rfl]

/-! ## The tiles cover the output -/

/-- An entry of the output is in point t's tile iff each coordinate is in the tile's range on its axis. -/
theorem mem_blk3 (t : Fin cfg3.N) (i : S8192x8192.Idx) :
    i ∈ ((cfg3.win 2).blk t).view.set ↔ ∀ a : Fin 2, win3_2.index t a * S2048x1024.size a ≤ (i a).val
      ∧ (i a).val < win3_2.index t a * S2048x1024.size a + S2048x1024.size a := by
  show i ∈ ((View.whole main_v39).slice (win3_2.rect t)).set ↔ _
  rw [View.set_slice_whole, Rect.mem_set_unit]
  exact Iff.rfl

/-- Entry (r, s) of the output is in the tile of the point 8 · (r / 2048) + s / 1024. -/
theorem cover3 (i : S8192x8192.Idx) :
    ∃ t : Fin cfg3.N, (cfg3.win 2).flush t = true ∧ i ∈ ((cfg3.win 2).blk t).view.set := by
  have hi0 : (i 0).val < 8192 := (i 0).isLt
  have hi1 : (i 1).val < 8192 := (i 1).isLt
  let t : Fin cfg3.N := ⟨(i 0).val / 2048 * 8 + (i 1).val / 1024, by rw [show cfg3.N = 32 from N_3]; omega⟩
  have ht : t.val = (i 0).val / 2048 * 8 + (i 1).val / 1024 := rfl
  obtain ⟨-, -, -, -, e4, e5⟩ := idx_facts3 t
  refine ⟨t, flush3_2 t, ?_⟩
  rw [mem_blk3]
  intro a
  match a with
  | ⟨0, _⟩ =>
    show win3_2.index t (0 : Fin 2) * 2048 ≤ (i 0).val ∧ (i 0).val < win3_2.index t (0 : Fin 2) * 2048 + 2048
    rw [e4, ht]; omega
  | ⟨1, _⟩ =>
    show win3_2.index t (1 : Fin 2) * 1024 ≤ (i 1).val ∧ (i 1).val < win3_2.index t (1 : Fin 2) * 1024 + 1024
    rw [e5, ht]; omega

/-- THE OUTPUT ARRAY AFTER THE REGION is mu · muᵀ of the matrix the region reads. -/
theorem final3 (c : Dev nD) :
    (dat3 (F := Ideal) V c).arrAt 2 cfg3.N = Cert.Spec.mmT (A3 V c) (A3 V c) :=
  (dat3 (F := Ideal) V c).arrAt_eq_of_cover 2 (G3 V c) (fun t _ => flushed3_eq V c t) cover3

end

end Cert.KernelIdeal.Val

end
-- ==== Proof.KI.Val4.lean ====
import proofs.«106472_j56616258896068_2_alg».proof.Proof.KI.Half4
import proofs.«106472_j56616258896068_2_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# Region 4: the value of its result array

Region 4 multiplies the [8192, 64] array `main_v37` by the [64, 6] array `main_arg9` and adds the [1, 6] row `main_v40` to every row, 8 row tiles of 1024 rows
at a time: point `t` reads rows 1024·t … 1024·t + 1023 of the left operand and the whole right operand and bias row, and writes rows
1024·t … 1024·t + 1023 of the result. On extended reals the narrowing of the operands to bf16 is the identity, so entry (r, q)
of the result is the sum over k of `main_v37`[r, k] · `main_arg9`[k, q] plus `main_v40`[0, q]: the tiles are restrictions of one whole-array
function, and every row lies in exactly the tile numbered r / 1024.
-/

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The block product at an entry -/

/-- The left operand's index at output index `i` and contraction index `q` has row `i 0`. -/
theorem lhs4_row (i : S1024x6.Idx) (q : dot_S1024x64_S64x6_S1024x6_1_0_0_1_n_n.contr.Idx) :
    (dot_S1024x64_S64x6_S1024x6_1_0_0_1_n_n.lhsIdx i q 0).val = (i 0).val := by
  unfold DotDims.lhsIdx
  rw [dif_neg (show ¬(0 : Fin S1024x64.rank) ∈ dot_S1024x64_S64x6_S1024x6_1_0_0_1_n_n.lhsBatch by decide), dif_pos (show (0 : Fin S1024x64.rank) ∈ dot_S1024x64_S64x6_S1024x6_1_0_0_1_n_n.lhsNonContracting by decide)]
  rfl
/-- The left operand's index at output index `i` and contraction index `q` has column `q`'s one coordinate. -/
theorem lhs4_col (i : S1024x6.Idx) (q : dot_S1024x64_S64x6_S1024x6_1_0_0_1_n_n.contr.Idx) :
    (dot_S1024x64_S64x6_S1024x6_1_0_0_1_n_n.lhsIdx i q 1).val = (q ⟨0, by decide⟩).val :=
  dot_S1024x64_S64x6_S1024x6_1_0_0_1_n_n.lhsIdx_val_of_single rfl i q
/-- The right operand's index at output index `i` and contraction index `q` has row `q`'s one coordinate. -/
theorem rhs4_row (i : S1024x6.Idx) (q : dot_S1024x64_S64x6_S1024x6_1_0_0_1_n_n.contr.Idx) :
    (dot_S1024x64_S64x6_S1024x6_1_0_0_1_n_n.rhsIdx i q 0).val = (q ⟨0, by decide⟩).val :=
  dot_S1024x64_S64x6_S1024x6_1_0_0_1_n_n.rhsIdx_val_of_single rfl i q
/-- The right operand's index at output index `i` and contraction index `q` has column `i 1`. -/
theorem rhs4_col (i : S1024x6.Idx) (q : dot_S1024x64_S64x6_S1024x6_1_0_0_1_n_n.contr.Idx) :
    (dot_S1024x64_S64x6_S1024x6_1_0_0_1_n_n.rhsIdx i q 1).val = (i 1).val := by
  unfold DotDims.rhsIdx
  rw [dif_neg (show ¬(1 : Fin S64x6.rank) ∈ dot_S1024x64_S64x6_S1024x6_1_0_0_1_n_n.rhsBatch by decide), dif_pos (show (1 : Fin S64x6.rank) ∈ dot_S1024x64_S64x6_S1024x6_1_0_0_1_n_n.rhsNonContracting by decide)]
  rfl

/-- The block product into a zero accumulator: entry (p, q) is the sum over k of a[p, k] · b[k, q]. -/
theorem mm4_apply (a : FVec Ideal S1024x64 .bf16) (b : FVec Ideal S64x6 .bf16) (p : Fin 1024) (q : Fin 6) :
    matmul dot_S1024x64_S64x6_S1024x6_1_0_0_1_n_n none a b (constant (F := Ideal) S1024x6 .f32 0x00000000#32) (ix2 p q) = ∑ k : Fin 64, a (ix2 p k) * b (ix2 k q) := by
  refine (Ideal.matmul_constant_zero_apply dot_S1024x64_S64x6_S1024x6_1_0_0_1_n_n none a b (ix2 p q)).trans ?_
  rw [← Equiv.sum_comp (contrEquiv1 dot_S1024x64_S64x6_S1024x6_1_0_0_1_n_n 64 rfl rfl).symm]
  refine Finset.sum_congr rfl fun k _ => ?_
  have hk := contrEquiv1_symm_val dot_S1024x64_S64x6_S1024x6_1_0_0_1_n_n 64 rfl rfl k
  have el : dot_S1024x64_S64x6_S1024x6_1_0_0_1_n_n.lhsIdx (ix2 p q) ((contrEquiv1 dot_S1024x64_S64x6_S1024x6_1_0_0_1_n_n 64 rfl rfl).symm k) = ix2 p k := funext fun d => Fin.ext (by
    match d with
    | ⟨0, _⟩ => exact lhs4_row _ _
    | ⟨1, _⟩ => exact (lhs4_col _ _).trans hk)
  have er : dot_S1024x64_S64x6_S1024x6_1_0_0_1_n_n.rhsIdx (ix2 p q) ((contrEquiv1 dot_S1024x64_S64x6_S1024x6_1_0_0_1_n_n 64 rfl rfl).symm k) = ix2 k q := funext fun d => Fin.ext (by
    match d with
    | ⟨0, _⟩ => exact (rhs4_row _ _).trans hk
    | ⟨1, _⟩ => exact rhs4_col _ _)
  rw [el, er]

/-! ## The body's payload at an entry -/

/-- Narrowing to bf16 changes no extended real, a cast to the same shape moves no entry, and the bias row is
    repeated down the rows: entry (p, q) of the payload is the sum over k of x0[p, k] · x1[k, q], plus x2[0, q]. -/
theorem pay4_apply (x0 : Vec Ideal S1024x64 .f32) (x1 : Vec Ideal S64x6 .f32) (x2 : Vec Ideal S1x6 .f32) (p : Fin 1024) (q : Fin 6) :
    k4_pay1 (F := Ideal) x0 x1 x2 (ix2 p q) = (∑ k : Fin 64, x0 (ix2 p k) * x1 (ix2 k q)) + x2 (ix2 (0 : Fin 1) q) := by
  unfold k4_pay1
  simp only [shapeCast_self]
  refine (addf_apply _ _ (ix2 p q)).trans ?_
  refine congrArg₂ (fun a b : EReal => a + b) (mm4_apply _ _ p q) ?_
  exact broadcastTo_apply x2 _ (ix2 p q) (ix2 (0 : Fin 1) q) (fun a => by
    match a with
    | ⟨0, _⟩ => rfl
    | ⟨1, _⟩ => rfl)

/-! ## The specification at an index -/

/-- A product plus a bias row, at an index: the sum over k of A[i 0, k] · B[k, i 1], plus b[i 1]. -/
theorem spec4_entry {M K N : Nat} (A : Cert.Spec.Mat M K) (B : Cert.Spec.Mat K N) (b : Cert.Spec.Vec1 N) (i : (⟨2, ![M, N]⟩ : Shape).Idx) :
    Cert.Spec.addRow (Cert.Spec.mm A B) b i = (∑ k : Fin K, A (ix2 (i 0) k) * B (ix2 k (i 1))) + b (ix1 (i 1)) := rfl

/-! ## The blocks' places in their arrays -/

/-- A rectangle at offsets (0, 0). -/
theorem zero_offsets4 : (![0, 0] : Fin 2 → Nat) = fun _ => 0 := funext fun a => by fin_cases a <;> rfl

/-- The block indices at point `t`, decided over the 8 points: the left operand's and the result's row tile is `t`,
    every other block index is 0. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Entry (p, k) of the left operand's block at point `t` is entry (1024·t + p, k) of its array. -/
theorem blk4_0_apply (V : (c : Dev nD) → (b : Ref sig .tc) → Buf (Elt Ideal) ((c : Thread nD τ).loc b)) (c : Dev nD) (t : Fin cfg4.N) (p : Fin 1024) (k : Fin 64) (r : Fin 8192) (k' : Fin 64)
    (hr : r.val = 1024 * t.val + p.val) (hk : k'.val = k.val) :
    (iblk4 V c 0 t : Vec Ideal S1024x64 .f32) (ix2 p k) = (V c main_v37 : Cert.Spec.Mat 8192 64) (ix2 r k') := by
  obtain ⟨e0, e1, -⟩ := idx_facts4 t
  show V c main_v37 (((cfg4.win 0).blk t).view.emb (ix2 p k)) = V c main_v37 (ix2 r k')
  refine congrArg _ (funext fun a => Fin.ext ?_)
  match a with
  | ⟨0, _⟩ => show win4_0.index t (0 : Fin 2) * 1024 + 1 * p.val = r.val; omega
  | ⟨1, _⟩ => show win4_0.index t (1 : Fin 2) * 64 + 1 * k.val = k'.val; omega

/-- The right operand's block at every point is its whole array. -/
theorem blk4_1_apply (V : (c : Dev nD) → (b : Ref sig .tc) → Buf (Elt Ideal) ((c : Thread nD τ).loc b)) (c : Dev nD) (t : Fin cfg4.N) (k : Fin 64) (q : Fin 6) (k' : Fin 64) (q' : Fin 6)
    (hk : k'.val = k.val) (hq : q'.val = q.val) :
    (iblk4 V c 1 t : Vec Ideal S64x6 .f32) (ix2 k q) = (V c main_arg9 : Cert.Spec.Mat 64 6) (ix2 k' q') := by
  obtain ⟨-, -, e2, e3, -⟩ := idx_facts4 t
  show V c main_arg9 (((cfg4.win 1).blk t).view.emb (ix2 k q)) = V c main_arg9 (ix2 k' q')
  refine congrArg _ (funext fun a => Fin.ext ?_)
  match a with
  | ⟨0, _⟩ => show win4_1.index t (0 : Fin 2) * 64 + 1 * k.val = k'.val; omega
  | ⟨1, _⟩ => show win4_1.index t (1 : Fin 2) * 6 + 1 * q.val = q'.val; omega

/-- The bias row's block at every point is its whole array. -/
theorem blk4_2_apply (V : (c : Dev nD) → (b : Ref sig .tc) → Buf (Elt Ideal) ((c : Thread nD τ).loc b)) (c : Dev nD) (t : Fin cfg4.N) (q : Fin 6) (q' : Fin 6) (hq : q'.val = q.val) :
    (iblk4 V c 2 t : Vec Ideal S1x6 .f32) (ix2 (0 : Fin 1) q) = (V c main_v40 : Cert.Spec.Mat 1 6) (ix2 (0 : Fin 1) q') := by
  obtain ⟨-, -, -, -, e4, e5, -⟩ := idx_facts4 t
  show V c main_v40 (((cfg4.win 2).blk t).view.emb (ix2 (0 : Fin 1) q)) = V c main_v40 (ix2 (0 : Fin 1) q')
  refine congrArg _ (funext fun a => Fin.ext ?_)
  match a with
  | ⟨0, _⟩ => show win4_2.index t (0 : Fin 2) * 1 + 1 * 0 = 0; omega
  | ⟨1, _⟩ => show win4_2.index t (1 : Fin 2) * 6 + 1 * q.val = q'.val; omega

/-- Entry (p, q) of the result's block at point `t` sits at entry (1024·t + p, q) of the result array. -/
theorem blk4_3_emb (t : Fin cfg4.N) (p : Fin 1024) (q : Fin 6) :
    ((((cfg4.win 3).blk t).view.emb (ix2 p q) : S8192x6.Idx) 0).val = 1024 * t.val + p.val
    ∧ ((((cfg4.win 3).blk t).view.emb (ix2 p q) : S8192x6.Idx) 1).val = q.val := by
  obtain ⟨-, -, -, -, -, -, e4, e5⟩ := idx_facts4 t
  constructor
  · show win4_3.index t (0 : Fin 2) * 1024 + 1 * p.val = _; omega
  · show win4_3.index t (1 : Fin 2) * 6 + 1 * q.val = _; omega

/-! ## What a point writes back, and the whole array -/

/-- What point `t` writes back is the result's block at `t` of the whole-array function. -/
theorem flushed4_eq (V : (c : Dev nD) → (b : Ref sig .tc) → Buf (Elt Ideal) ((c : Thread nD τ).loc b)) (c : Dev nD) (t : Fin cfg4.N) :
    (dat4 (F := Ideal) V c).flushed 3 t = ((cfg4.win 3).blk t).view.read (Elt Ideal) (Cert.Spec.addRow (Cert.Spec.mm (V c main_v37) (V c main_arg9)) (fun i => V c main_v40 (ix2 (0 : Fin 1) (i 0)))) := by
  show (cfg4.win 3).cut (grid4.coords t) ((dat4 V c).after 3 t) = _
  rw [after4_3]
  unfold out4_3
  rw [View.canon_unit_zero zero_offsets4]
  simp only [View.ld_unit_zero (S := S1024x64) zero_offsets4, View.ld_unit_zero (S := S64x6) zero_offsets4, View.ld_unit_zero (S := S1x6) zero_offsets4]
  funext j
  obtain ⟨p, q, rfl⟩ : ∃ (p : Fin 1024) (q : Fin 6), j = ix2 p q := ⟨j 0, j 1, eq_ix2 j⟩
  refine (pay4_apply (iblk4 V c 0 t) (iblk4 V c 1 t) (iblk4 V c 2 t) p q).trans ?_
  obtain ⟨h0, h1⟩ := blk4_3_emb t p q
  refine Eq.trans ?_ (spec4_entry (M := 8192) (K := 64) (N := 6) (V c main_v37) (V c main_arg9) (fun i => V c main_v40 (ix2 (0 : Fin 1) (i 0))) (((cfg4.win 3).blk t).view.emb (ix2 p q))).symm
  refine congrArg₂ (fun a b : EReal => a + b) (Finset.sum_congr rfl fun k _ => ?_) (blk4_2_apply V c t q _ h1)
  exact congrArg₂ (fun a b : EReal => a * b) (blk4_0_apply V c t p k _ k h0 rfl) (blk4_1_apply V c t k q k _ rfl h1)

/-- An index of the result array lies in point `t`'s block iff each coordinate lies in the block's range on its axis. -/
theorem mem_blk4 (t : Fin cfg4.N) (i : S8192x6.Idx) :
    i ∈ ((cfg4.win 3).blk t).view.set ↔ ∀ a : Fin 2, win4_3.index t a * S1024x6.size a ≤ (i a).val ∧ (i a).val < win4_3.index t a * S1024x6.size a + S1024x6.size a := by
  show i ∈ ((View.whole main_v41).slice (win4_3.rect t)).set ↔ _
  rw [View.set_slice_whole, Rect.mem_set_unit]
  exact Iff.rfl

/-- Every index of the result array lies in some point's block: row r lies in the tile numbered r / 1024. -/
theorem covered4 (i : S8192x6.Idx) : ∃ t : Fin cfg4.N, (cfg4.win 3).flush t = true ∧ i ∈ ((cfg4.win 3).blk t).view.set := by
  have hi0 : (i 0).val < 8192 := (i 0).isLt
  have hi1 : (i 1).val < 6 := (i 1).isLt
  have hN : cfg4.N = 8 := N_4
  refine ⟨⟨(i 0).val / 1024, by omega⟩, flush4_3 _, ?_⟩
  rw [mem_blk4]
  obtain ⟨-, -, -, -, -, -, e4, e5⟩ := idx_facts4 ⟨(i 0).val / 1024, by omega⟩
  intro a
  match a with
  | ⟨0, _⟩ => show win4_3.index _ (0 : Fin 2) * 1024 ≤ (i 0).val ∧ (i 0).val < win4_3.index _ (0 : Fin 2) * 1024 + 1024; rw [e4]; show (i 0).val / 1024 * 1024 ≤ (i 0).val ∧ (i 0).val < (i 0).val / 1024 * 1024 + 1024; omega
  | ⟨1, _⟩ => show win4_3.index _ (1 : Fin 2) * 6 ≤ (i 1).val ∧ (i 1).val < win4_3.index _ (1 : Fin 2) * 6 + 6; rw [e5]; omega

/-- The result array after the region, as one function of the arrays the region reads. -/
theorem final4 (V : (c : Dev nD) → (b : Ref sig .tc) → Buf (Elt Ideal) ((c : Thread nD τ).loc b)) (c : Dev nD) :
    (dat4 (F := Ideal) V c).arrAt 3 cfg4.N = Cert.Spec.addRow (Cert.Spec.mm (V c main_v37) (V c main_arg9)) (fun i => V c main_v40 (ix2 (0 : Fin 1) (i 0))) :=
  (dat4 V c).arrAt_eq_of_cover 3 (Cert.Spec.addRow (Cert.Spec.mm (V c main_v37) (V c main_arg9)) (fun i => V c main_v40 (ix2 (0 : Fin 1) (i 0)))) (fun t _ => flushed4_eq V c t) covered4

end Cert.KernelIdeal.Val

end
-- ==== Proof.KI.Bridge.lean ====
/-
  The kernel program computes the specification.

  Going down the items: region 0 leaves x · W1; the first aggregation and the rectifier make hidden; region 1 multiplies
  hidden by W2 and W3 laid side by side, so that column q of its result is column q of hidden · W2 for q < 128 and
  column q - 128 of hidden · W3 beyond; the sparse product acts on each column by itself, so the second aggregation's
  column q is mu0's or logvar0's column; the two halves are stacked on the row axis and region 2 applies the affine head to
  the stack, each row of whose result depends on that row alone: rows 0 … 8191 are mu, rows 8192 … 16383 logvar; region 3
  multiplies mu by its own transpose and region 4 applies the last affine map to mu.
-/
import proofs.«106472_j56616258896068_2_alg».proof.Proof.KI.Run
import proofs.«106472_j56616258896068_2_alg».proof.Proof.KI.Stages
import proofs.«106472_j56616258896068_2_alg».proof.Proof.KI.HostStage
import proofs.«106472_j56616258896068_2_alg».proof.Proof.KI.Val0
import proofs.«106472_j56616258896068_2_alg».proof.Proof.KI.Val1
import proofs.«106472_j56616258896068_2_alg».proof.Proof.KI.Val2
import proofs.«106472_j56616258896068_2_alg».proof.Proof.KI.Val3
import proofs.«106472_j56616258896068_2_alg».proof.Proof.KI.Val4

set_option maxRecDepth 16384

open scoped BigOperators

noncomputable section

namespace Cert.KernelIdeal.Val

open Cert.KernelIdeal Cert.KernelIdeal.Gen Idealize.ShloMosaic Idealize.ShloMosaic.ValueIdx Idealize.ShloMosaic.StableHlo
  Idealize.ShloMosaic.TcCoe Idealize.SL.Sem Cert.Spec

/-! ## Three facts about the specification's operations: each entry depends on one row and one column -/

/-- The sparse product acts on each column by itself. -/
theorem spmm_cols {E N D D' : Nat} (hN : 0 < N) (gi si : Labels E) (vals : Vec1 E) (S : Mat N D) (S' : Mat N D')
    (f : Fin D' → Fin D) (h : ∀ r q, S (ix2 r (f q)) = S' (ix2 r q)) (r : Fin N) (q : Fin D') :
    spmm hN gi si vals S (ix2 r (f q)) = spmm hN gi si vals S' (ix2 r q) := by
  rw [spmm, mat_ix2, spmm, mat_ix2]
  refine Finset.sum_congr rfl fun e _ => ?_
  rw [h]

/-- A column of a product is the product with that column. -/
theorem mm_cols {M K N N' : Nat} (A : Mat M K) (B : Mat K N) (B' : Mat K N') (f : Fin N' → Fin N)
    (h : ∀ k q, B (ix2 k (f q)) = B' (ix2 k q)) (p : Fin M) (q : Fin N') :
    mm A B (ix2 p (f q)) = mm A B' (ix2 p q) := by
  rw [mm, mat_ix2, mm, mat_ix2]
  refine Finset.sum_congr rfl fun k _ => ?_
  rw [h]

/-- A row of a product is the product of that row. -/
theorem mm_rows {M M' K N : Nat} (A : Mat M K) (A' : Mat M' K) (B : Mat K N) (g : Fin M' → Fin M)
    (h : ∀ r k, A (ix2 (g r) k) = A' (ix2 r k)) (r : Fin M') (q : Fin N) :
    mm A B (ix2 (g r) q) = mm A' B (ix2 r q) := by
  rw [mm, mat_ix2, mm, mat_ix2]
  refine Finset.sum_congr rfl fun k _ => ?_
  rw [h]

section Chain

variable (m : (ℓ : Loc nD τ sig) → Buf (Elt Ideal) ℓ) (c : Dev nD)

/-! ## A host stretch leaves alone what it does not write -/

theorem U2_of (r : Ref sig .tc) (h : r ∉ hostOps1_W) : U2 m c r = U1 m c r := by
  unfold U2; exact StableHlo.after_of_writes_sub hostOps1 _ hostOps1_writes h
theorem U3_of (r : Ref sig .tc) (h : r ∉ hostOps1_1_W) : U3 m c r = U2 m c r := by
  unfold U3; exact StableHlo.after_of_writes_sub hostOps1_1 _ hostOps1_1_writes h
theorem U4_of (r : Ref sig .tc) (h : r ∉ hostOps1_2_W) : U4 m c r = U3 m c r := by
  unfold U4; exact StableHlo.after_of_writes_sub hostOps1_2 _ hostOps1_2_writes h
theorem U6_of (r : Ref sig .tc) (h : r ∉ hostOps2_W) : U6 m c r = U5 m c r := by
  unfold U6; exact StableHlo.after_of_writes_sub hostOps2 _ hostOps2_writes h
theorem U8_of (r : Ref sig .tc) (h : r ∉ hostOps3_W) : U8 m c r = U7 m c r := by
  unfold U8; exact StableHlo.after_of_writes_sub hostOps3 _ hostOps3_writes h
theorem U10_of (r : Ref sig .tc) (h : r ∉ hostOps4_W) : U10 m c r = U9 m c r := by
  unfold U10; exact StableHlo.after_of_writes_sub hostOps4 _ hostOps4_writes h

/-- A buffer no item up to the second region writes holds its launch contents until then. -/
theorem keep1 (r : Ref sig .tc) (h0 : r ≠ main_v0) : U1 m c r = U0 m c r := U1_of_ne m c r h0
theorem keep3 (r : Ref sig .tc) (h0 : r ≠ main_v0) (h1 : r ∉ hostOps1_W) (h2 : r ∉ hostOps1_1_W) : U3 m c r = U0 m c r :=
  (U3_of m c r h2).trans ((U2_of m c r h1).trans (keep1 m c r h0))
theorem keep5 (r : Ref sig .tc) (h0 : r ≠ main_v0) (h1 : r ∉ hostOps1_W) (h2 : r ∉ hostOps1_1_W) (h3 : r ∉ hostOps1_2_W)
    (h4 : r ≠ main_v17) : U5 m c r = U0 m c r :=
  (U5_of_ne m c r h4).trans ((U4_of m c r h3).trans (keep3 m c r h0 h1 h2))
theorem keep6 (r : Ref sig .tc) (h0 : r ≠ main_v0) (h1 : r ∉ hostOps1_W) (h2 : r ∉ hostOps1_1_W) (h3 : r ∉ hostOps1_2_W)
    (h4 : r ≠ main_v17) (h5 : r ∉ hostOps2_W) : U6 m c r = U0 m c r :=
  (U6_of m c r h5).trans (keep5 m c r h0 h1 h2 h3 h4)
theorem keep9 (r : Ref sig .tc) (h0 : r ≠ main_v0) (h1 : r ∉ hostOps1_W) (h2 : r ∉ hostOps1_1_W) (h3 : r ∉ hostOps1_2_W)
    (h4 : r ≠ main_v17) (h5 : r ∉ hostOps2_W) (h6 : r ≠ main_v36) (h7 : r ∉ hostOps3_W) (h8 : r ≠ main_v39) : U9 m c r = U0 m c r :=
  (U9_of_ne m c r h8).trans ((U8_of m c r h7).trans ((U7_of_ne m c r h6).trans (keep6 m c r h0 h1 h2 h3 h4 h5)))

/-! ## The arguments, as the specification reads them -/

abbrev hN : 0 < 8192 := by decide
abbrev aGi : Labels 262144 := kgi (U0 m c main_arg2)
abbrev aSi : Labels 262144 := ksi (U0 m c main_arg1)
abbrev aVals : Vec1 262144 := U0 m c main_arg3
abbrev aX : Mat 8192 512 := U0 m c main_arg0
abbrev aW1 : Mat 512 256 := U0 m c main_arg4
abbrev aW2 : Mat 256 128 := U0 m c main_arg5
abbrev aW3 : Mat 256 128 := U0 m c main_arg6
abbrev aWd : Mat 128 64 := U0 m c main_arg7
abbrev aBd : Vec1 64 := U0 m c main_arg8
abbrev aWe : Mat 64 6 := U0 m c main_arg9
abbrev aBe : Vec1 6 := U0 m c main_arg10

/-! ## Item by item -/

/-- Region 0 leaves x · W1. -/
theorem res0_eq : res0 m c = mm (aX m c) (aW1 m c) := by
  unfold res0; exact final0 (tcv (U0 m)) c

/-- The first aggregation. -/
theorem v14_eq : U2 m c main_v14 = spmm hN (aGi m c) (aSi m c) (aVals m c) (mm (aX m c) (aW1 m c)) := by
  unfold U2
  rw [spmm1 (U1 m c), keep1 m c main_arg2 (by decide), keep1 m c main_arg1 (by decide), keep1 m c main_arg3 (by decide),
    U1_self, res0_eq]

/-- The rectifier: the first layer's activations. -/
theorem v15_eq : U4 m c main_v15 = hidden hN (aGi m c) (aSi m c) (aVals m c) (aX m c) (aW1 m c) := by
  rw [U4_of m c main_v15 (by decide)]
  unfold U3
  rw [relu_stage (U2 m c), v14_eq]
  rfl

/-- The pair W2 ‖ W3: its left half, -/
theorem v16_left (k : Fin 256) (q : Fin 128) : U4 m c main_v16 (ix2 k (⟨q.val, by omega⟩ : Fin 256)) = aW2 m c (ix2 k q) := by
  unfold U4
  rw [wcat_left (U3 m c) k q, keep3 m c main_arg5 (by decide) (by decide) (by decide)]
/-- and its right half. -/
theorem v16_right (k : Fin 256) (q : Fin 128) : U4 m c main_v16 (ix2 k (⟨q.val + 128, by omega⟩ : Fin 256)) = aW3 m c (ix2 k q) := by
  unfold U4
  rw [wcat_right (U3 m c) k q, keep3 m c main_arg6 (by decide) (by decide) (by decide)]

/-- Region 1 leaves hidden · (W2 ‖ W3). -/
theorem res1_eq : res1 m c = mm (hidden hN (aGi m c) (aSi m c) (aVals m c) (aX m c) (aW1 m c)) (U4 m c main_v16) := by
  unfold res1; rw [final1 (tcv (U4 m)) c]
  show mm (U4 m c main_v15) (U4 m c main_v16) = _
  rw [v15_eq]

/-- What the second aggregation's seventeen operations leave, before the layout operations. -/
def W5' : Valuation τ sig (Elt Ideal) := StableHlo.after head2 (U5 m c)

theorem U6_tail : U6 m c = StableHlo.after tail2 (W5' m c) := by
  unfold U6 W5'; exact after_hostOps2 (U5 m c)

/-- The second aggregation. -/
theorem W5'_v31 : W5' m c main_v31 = spmm hN (aGi m c) (aSi m c) (aVals m c) (res1 m c) := by
  unfold W5'
  show StableHlo.after ((hostOps2 (F := Ideal)).take 17) (U5 m c) main_v31 = _
  rw [spmm2 (U5 m c), keep5 m c main_arg2 (by decide) (by decide) (by decide) (by decide) (by decide),
    keep5 m c main_arg1 (by decide) (by decide) (by decide) (by decide) (by decide),
    keep5 m c main_arg3 (by decide) (by decide) (by decide) (by decide) (by decide), U5_self]

/-- The first layer's activations, for short. -/
abbrev aH : Mat 8192 256 := hidden hN (aGi m c) (aSi m c) (aVals m c) (aX m c) (aW1 m c)

/-- Column q < 128 of the aggregate is mu0's column q, -/
theorem agg_lo (r : Fin 8192) (k : Fin 128) :
    W5' m c main_v31 (ix2 r (⟨k.val, by omega⟩ : Fin 256)) = mu0 hN (aGi m c) (aSi m c) (aVals m c) (aX m c) (aW1 m c) (aW2 m c) (ix2 r k) := by
  rw [W5'_v31, res1_eq]
  unfold mu0
  have hcol : ∀ (p : Fin 8192) (q : Fin 128),
      mm (aH m c) (U4 m c main_v16 : Mat 256 256) (ix2 p (⟨q.val, by omega⟩ : Fin 256)) = mm (aH m c) (aW2 m c) (ix2 p q) :=
    fun p q => mm_cols (M := 8192) (K := 256) (N := 256) (N' := 128) (aH m c) (U4 m c main_v16 : Mat 256 256) (aW2 m c)
      (fun q : Fin 128 => (⟨q.val, by omega⟩ : Fin 256)) (fun j q => v16_left m c j q) p q
  have h := spmm_cols (E := 262144) (N := 8192) (D := 256) (D' := 128) hN (aGi m c) (aSi m c) (aVals m c)
    (mm (aH m c) (U4 m c main_v16 : Mat 256 256)) (mm (aH m c) (aW2 m c))
    (fun q : Fin 128 => (⟨q.val, by omega⟩ : Fin 256)) hcol r k
  exact h

/-- and column q + 128 is logvar0's column q. -/
theorem agg_hi (r : Fin 8192) (k : Fin 128) :
    W5' m c main_v31 (ix2 r (⟨k.val + 128, by omega⟩ : Fin 256)) = logvar0 hN (aGi m c) (aSi m c) (aVals m c) (aX m c) (aW1 m c) (aW3 m c) (ix2 r k) := by
  rw [W5'_v31, res1_eq]
  unfold logvar0
  have hcol : ∀ (p : Fin 8192) (q : Fin 128),
      mm (aH m c) (U4 m c main_v16 : Mat 256 256) (ix2 p (⟨q.val + 128, by omega⟩ : Fin 256)) = mm (aH m c) (aW3 m c) (ix2 p q) :=
    fun p q => mm_cols (M := 8192) (K := 256) (N := 256) (N' := 128) (aH m c) (U4 m c main_v16 : Mat 256 256) (aW3 m c)
      (fun q : Fin 128 => (⟨q.val + 128, by omega⟩ : Fin 256)) (fun j q => v16_right m c j q) p q
  have h := spmm_cols (E := 262144) (N := 8192) (D := 256) (D' := 128) hN (aGi m c) (aSi m c) (aVals m c)
    (mm (aH m c) (U4 m c main_v16 : Mat 256 256)) (mm (aH m c) (aW3 m c))
    (fun q : Fin 128 => (⟨q.val + 128, by omega⟩ : Fin 256)) hcol r k
  exact h

/-- The stack: rows 0 … 8191 are mu0, -/
theorem v34_lo (r : Fin 8192) (k : Fin 128) :
    U6 m c main_v34 (ix2 (⟨r.val, by omega⟩ : Fin 16384) k) = mu0 hN (aGi m c) (aSi m c) (aVals m c) (aX m c) (aW1 m c) (aW2 m c) (ix2 r k) := by
  have h1 : U6 m c main_v34 (ix2 (⟨r.val, by omega⟩ : Fin 16384) k)
      = StableHlo.after tail2 (W5' m c) main_v34 (ix2 (⟨r.val, by omega⟩ : Fin 16384) k) := by rw [U6_tail]
  have h2 := v34_top (W5' m c) r k
  have h3 := agg_lo m c r k
  exact h1.trans (h2.trans h3)
/-- rows 8192 … 16383 are logvar0. -/
theorem v34_hi (r : Fin 8192) (k : Fin 128) :
    U6 m c main_v34 (ix2 (⟨r.val + 8192, by omega⟩ : Fin 16384) k) = logvar0 hN (aGi m c) (aSi m c) (aVals m c) (aX m c) (aW1 m c) (aW3 m c) (ix2 r k) := by
  have h1 : U6 m c main_v34 (ix2 (⟨r.val + 8192, by omega⟩ : Fin 16384) k)
      = StableHlo.after tail2 (W5' m c) main_v34 (ix2 (⟨r.val + 8192, by omega⟩ : Fin 16384) k) := by rw [U6_tail]
  have h2 := v34_bot (W5' m c) r k
  have h3 := agg_hi m c r k
  exact h1.trans (h2.trans h3)

/-- The first bias row. -/
theorem v35_row (q : Fin 64) : U6 m c main_v35 (ix2 (0 : Fin 1) q) = aBd m c (ix1 q) := by
  have h8 : W5' m c main_arg8 = U0 m c main_arg8 := by
    have h := keep6 m c main_arg8 (by decide) (by decide) (by decide) (by decide) (by decide) (by decide)
    have h' : U6 m c main_arg8 = W5' m c main_arg8 := by
      rw [U6_tail]
      dsimp only [tail2]; after_results; try rfl
    exact h'.symm.trans h
  have h1 : U6 m c main_v35 (ix2 (0 : Fin 1) q) = StableHlo.after tail2 (W5' m c) main_v35 (ix2 (0 : Fin 1) q) := by rw [U6_tail]
  have h2 := v35_apply (W5' m c) q
  rw [h8] at h2
  exact h1.trans h2

/-- Region 2 leaves the affine head of the stack. -/
theorem res2_eq : res2 m c = addRow (mm (U6 m c main_v34) (aWd m c)) (fun i => U6 m c main_v35 (ix2 (0 : Fin 1) (i 0))) := by
  unfold res2; rw [final2 (tcv (U6 m)) c]
  show addRow (mm (U6 m c main_v34) (U6 m c main_arg7)) _ = _
  rw [keep6 m c main_arg7 (by decide) (by decide) (by decide) (by decide) (by decide) (by decide)]

/-- The mean. -/
theorem mu_eq : U8 m c main_v37 = mu hN (aGi m c) (aSi m c) (aVals m c) (aX m c) (aW1 m c) (aW2 m c) (aWd m c) (aBd m c) := by
  refine mat_ext fun r q => ?_
  have e1 : U8 m c main_v37 (ix2 r q) = res2 m c (ix2 (⟨r.val, by omega⟩ : Fin 16384) q) := by
    unfold U8; rw [v37_apply (U7 m c) r q, U7_self]
  have e2 := mm_rows (M := 16384) (M' := 8192) (K := 128) (N := 64) (U6 m c main_v34 : Mat 16384 128)
    (mu0 hN (aGi m c) (aSi m c) (aVals m c) (aX m c) (aW1 m c) (aW2 m c)) (aWd m c)
    (fun r : Fin 8192 => (⟨r.val, by omega⟩ : Fin 16384)) (fun p k => v34_lo m c p k) r q
  have e3 := v35_row m c q
  rw [e1, res2_eq, addRow, mat_ix2, e2, mu, addRow, mat_ix2]
  show _ + U6 m c main_v35 (ix2 (0 : Fin 1) q) = _
  rw [e3]

/-- The log-variance. -/
theorem logvar_eq : U8 m c main_v38 = logvar hN (aGi m c) (aSi m c) (aVals m c) (aX m c) (aW1 m c) (aW3 m c) (aWd m c) (aBd m c) := by
  refine mat_ext fun r q => ?_
  have e1 : U8 m c main_v38 (ix2 r q) = res2 m c (ix2 (⟨r.val + 8192, by omega⟩ : Fin 16384) q) := by
    unfold U8; rw [v38_apply (U7 m c) r q, U7_self]
  have e2 := mm_rows (M := 16384) (M' := 8192) (K := 128) (N := 64) (U6 m c main_v34 : Mat 16384 128)
    (logvar0 hN (aGi m c) (aSi m c) (aVals m c) (aX m c) (aW1 m c) (aW3 m c)) (aWd m c)
    (fun r : Fin 8192 => (⟨r.val + 8192, by omega⟩ : Fin 16384)) (fun p k => v34_hi m c p k) r q
  have e3 := v35_row m c q
  rw [e1, res2_eq, addRow, mat_ix2, e2, logvar, addRow, mat_ix2]
  show _ + U6 m c main_v35 (ix2 (0 : Fin 1) q) = _
  rw [e3]

/-- Region 3 leaves mu · muᵀ. -/
theorem res3_eq : res3 m c = adj hN (aGi m c) (aSi m c) (aVals m c) (aX m c) (aW1 m c) (aW2 m c) (aWd m c) (aBd m c) := by
  unfold res3; rw [final3 (tcv (U8 m)) c]
  show mmT (U8 m c main_v37) (U8 m c main_v37) = _
  rw [mu_eq]
  rfl

/-- The mean is still there when region 4 reads it. -/
theorem v37_at10 : U10 m c main_v37 = mu hN (aGi m c) (aSi m c) (aVals m c) (aX m c) (aW1 m c) (aW2 m c) (aWd m c) (aBd m c) := by
  rw [U10_of m c main_v37 (by decide), U9_of_ne m c main_v37 (by decide), mu_eq]

/-- The second bias row. -/
theorem v40_row (q : Fin 6) : U10 m c main_v40 (ix2 (0 : Fin 1) q) = aBe m c (ix1 q) := by
  unfold U10
  rw [v40_apply (U9 m c) q,
    keep9 m c main_arg10 (by decide) (by decide) (by decide) (by decide) (by decide) (by decide) (by decide) (by decide) (by decide)]

/-- Region 4 leaves the six-way head. -/
theorem res4_eq : res4 m c = out6 hN (aGi m c) (aSi m c) (aVals m c) (aX m c) (aW1 m c) (aW2 m c) (aWd m c) (aBd m c) (aWe m c) (aBe m c) := by
  unfold res4; rw [final4 (tcv (U10 m)) c]
  show addRow (mm (U10 m c main_v37) (U10 m c main_arg9)) (fun i => U10 m c main_v40 (ix2 (0 : Fin 1) (i 0))) = _
  rw [v37_at10, U10_of m c main_arg9 (by decide),
    keep9 m c main_arg9 (by decide) (by decide) (by decide) (by decide) (by decide) (by decide) (by decide) (by decide) (by decide)]
  refine mat_ext fun r q => ?_
  have e3 := v40_row m c q
  rw [addRow, mat_ix2, out6, addRow, mat_ix2]
  show _ + U10 m c main_v40 (ix2 (0 : Fin 1) q) = _
  rw [e3]

/-! ## The four results at the return -/

theorem U11_v39 : U11 m c main_v39 = adj hN (aGi m c) (aSi m c) (aVals m c) (aX m c) (aW1 m c) (aW2 m c) (aWd m c) (aBd m c) := by
  rw [U11_of_ne m c main_v39 (by decide), U10_of m c main_v39 (by decide), U9_self, res3_eq]
theorem U11_v41 : U11 m c main_v41 = out6 hN (aGi m c) (aSi m c) (aVals m c) (aX m c) (aW1 m c) (aW2 m c) (aWd m c) (aBd m c) (aWe m c) (aBe m c) := by
  rw [U11_self, res4_eq]
theorem U11_v37 : U11 m c main_v37 = mu hN (aGi m c) (aSi m c) (aVals m c) (aX m c) (aW1 m c) (aW2 m c) (aWd m c) (aBd m c) := by
  rw [U11_of_ne m c main_v37 (by decide), v37_at10]
theorem U11_v38 : U11 m c main_v38 = logvar hN (aGi m c) (aSi m c) (aVals m c) (aX m c) (aW1 m c) (aW3 m c) (aWd m c) (aBd m c) := by
  rw [U11_of_ne m c main_v38 (by decide), U10_of m c main_v38 (by decide), U9_of_ne m c main_v38 (by decide), logvar_eq]

end Chain

/-- THE KERNEL PROGRAM'S RUN, with its four results named: every weakly fair execution terminates without a fault, the
    results hold the specification's adjacency, six-way head, mean and log-variance of the arguments, and the arguments
    end as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v39) = adj hN (aGi m c) (aSi m c) (aVals m c) (aX m c) (aW1 m c) (aW2 m c) (aWd m c) (aBd m c)
      ∧ r.2.mem ((c.tc : Thread nD τ).loc main_v41) = out6 hN (aGi m c) (aSi m c) (aVals m c) (aX m c) (aW1 m c) (aW2 m c) (aWd m c) (aBd m c) (aWe m c) (aBe m c)
      ∧ r.2.mem ((c.tc : Thread nD τ).loc main_v37) = mu hN (aGi m c) (aSi m c) (aVals m c) (aX m c) (aW1 m c) (aW2 m c) (aWd m c) (aBd m c)
      ∧ r.2.mem ((c.tc : Thread nD τ).loc main_v38) = logvar hN (aGi m c) (aSi m c) (aVals m c) (aX m c) (aW1 m c) (aW3 m c) (aWd m c) (aBd m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := Ideal)) _ _).mono (fun r h c =>
    ⟨(h c).1.trans (U11_v39 m c), (h c).2.1.trans (U11_v41 m c), (h c).2.2.1.trans (U11_v37 m c), (h c).2.2.2.1.trans (U11_v38 m c),
      (h c).2.2.2.2⟩) (Cert.KernelIdeal.Gen.results m ρ)

end Cert.KernelIdeal.Val

end
-- ==== Proof.lean ====
/-
  A graph-convolutional variational encoder with an inner-product decoder, as five kernel regions between stretches of
  host operations, against its plain reference.

  Both programs compute, on extended reals, the same functions of their arguments (Proof/Spec.lean):

      hidden = max (A ⊙ (x · W1)) 0,   mu = (A ⊙ (hidden · W2)) · Wd + bd,   logvar = (A ⊙ (hidden · W3)) · Wd + bd,
      adj = mu · muᵀ,   out6 = mu · We + be,

  where A ⊙ S is the sparse product taken one stored entry at a time. The kernel program tiles every dense product by
  row blocks (the decoder by row and column blocks), multiplies hidden by W2 and W3 laid side by side in one product and
  aggregates the 256 columns at once, and applies the affine head to mu0 and logvar0 stacked on the row axis; none of
  this changes any entry, because a product's entry depends on one row and one column, and the sparse product acts
  column by column. No law that fails at an infinity is used, so the precondition is never opened.

  The frames: each kernel region is entered with every buffer at known contents and leaves every buffer as it was but
  its result, at the word-level instance and at the extended reals alike; the reference is host operations only.
-/
import proofs.«106472_j56616258896068_2_alg».proof.Defs
import proofs.«106472_j56616258896068_2_alg».proof.Proof.Gen.Kernel
import proofs.«106472_j56616258896068_2_alg».proof.Proof.Gen.KernelIdeal
import proofs.«106472_j56616258896068_2_alg».proof.Proof.Gen.ReferenceIdeal
import proofs.«106472_j56616258896068_2_alg».proof.Proof.Gen.Pre_finite_inputs
import proofs.«106472_j56616258896068_2_alg».proof.Proof.KB.Run
import proofs.«106472_j56616258896068_2_alg».proof.Proof.KI.Run
import proofs.«106472_j56616258896068_2_alg».proof.Proof.RefIsSpec
import proofs.«106472_j56616258896068_2_alg».proof.Proof.KI.Bridge
import Idealize.ShloMosaic.Adequacy
import Idealize.ShloMosaic.Init

noncomputable section

namespace Cert.Proof

open Idealize.ShloMosaic Idealize.SL.Sem

/-- At the extended reals the kernel program's results are the specification's adjacency, six-way head, mean and
    log-variance of its arguments, and so are the reference's of its own; the two programs' arguments agree, and the label
    columns the two build from them are the same operations on them. -/
theorem algebraic : Cert.algebraic_KernelIdeal_ReferenceIdeal := by
  intro m ρ m' ρ' _ hagree
  refine ⟨_, _, _, _, Cert.KernelIdeal.Val.kernel_run m ρ, ?_⟩
  refine (θ_run Cert.ReferenceIdeal.defs _ _).mono (fun r h c => ?_) (Cert.RefSide.ref_run m' ρ')
  obtain ⟨h52, h56, h46, h50, hargs⟩ := h c
  obtain ⟨e0, e1, e2, e3, e4, e5, e6, e7, e8, e9, e10⟩ := hagree c
  refine ⟨h52.trans ?_, h56.trans ?_, h46.trans ?_, h50.trans ?_, hargs⟩
  all_goals
    simp only [Cert.RefSide.aGi, Cert.RefSide.aSi, e0, e1, e2, e3, e4, e5, e6, e7, e8, e9, e10]
    try rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2.2.2) (Cert.RefSide.ref_run m ρ),
  trivial,
  algebraic⟩

end Cert.Proof

end
